-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024x256 : Shape := ⟨3, ![256, 1024, 256]⟩
abbrev S1024x256 : Shape := ⟨2, ![1024, 256]⟩
abbrev S256 : Shape := ⟨1, ![256]⟩
abbrev S_ : Shape := ⟨0, ![]⟩

class Facts : Prop where
  bcast_S_S256x1024x256 : S_.BroadcastsInDim S256x1024x256 (![] : Fin 0 → Fin S256x1024x256.rank)
  reducesTo_S256x1024x256_S_d0_1_2 : S256x1024x256.ReducesTo [0, 1, 2] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S256x1024x256 .f32) (main_arg1 : FVec F S1024x256 .f32) (main_arg2 : FVec F S256 .f32) (main_arg3 : FVec F S256 .f32) (main_arg4 : FVec F S256 .f32) : IVec S_ 1 :=
  let main_v0 : FVec F S256x1024x256 .f32 := Host.absf main_arg0
  let main_cst : FVec F S_ .f32 := constant S_ .f32 0x7F800000#32
  let main_v1 : FVec F S256x1024x256 .f32 := broadcastInDim S256x1024x256 ![] bcast_S_S256x1024x256 main_cst
  let main_v2 : IVec S256x1024x256 1 := cmpf .olt main_v0 main_v1
  let main_c : IVec S_ 1 := constantI S_ 1 1#1
  let main_v3 : IVec S_ 1 := (fun x v => Host.reduce IntOp.andi x v reducesTo_S256x1024x256_S_d0_1_2 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S256x1024x256 : Shape := ⟨3, ![256, 1024, 256]⟩
abbrev S1024x256 : Shape := ⟨2, ![1024, 256]⟩
abbrev S256 : Shape := ⟨1, ![256]⟩
abbrev S_ : Shape := ⟨0, ![]⟩
abbrev S256x1 : Shape := ⟨2, ![256, 1]⟩
abbrev S128x32x256 : Shape := ⟨3, ![128, 32, 256]⟩
abbrev S32x256 : Shape := ⟨2, ![32, 256]⟩
abbrev S128x1 : Shape := ⟨2, ![128, 1]⟩
abbrev S128x256 : Shape := ⟨2, ![128, 256]⟩
abbrev S1x256 : Shape := ⟨2, ![1, 256]⟩
abbrev S128x31x256 : Shape := ⟨3, ![128, 31, 256]⟩
abbrev S31x256 : Shape := ⟨2, ![31, 256]⟩
abbrev S1x1x256 : Shape := ⟨3, ![1, 1, 256]⟩
abbrev S1x31x256 : Shape := ⟨3, ![1, 31, 256]⟩
abbrev S128x31 : Shape := ⟨2, ![128, 31]⟩
abbrev S128 : Shape := ⟨1, ![128]⟩
abbrev S128x1x256 : Shape := ⟨3, ![128, 1, 256]⟩

abbrev nBuf : Space → Nat
  | .hbm => 41
  | .vmem => 12
  | .smem => 0
  | _ => 0

abbrev bufTy : (tb : Table) → Fin (tcTables nBuf tb) → BufTy
  | .hbm, ⟨0, _⟩ => ⟨S256x1024x256, .f32⟩
  | .hbm, ⟨1, _⟩ => ⟨S1024x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S_, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .i1⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S_, .f32⟩
  | .hbm, ⟨20, _⟩ => ⟨S256, .f32⟩
  | .hbm, ⟨21, _⟩ => ⟨S256, .f32⟩
  | .hbm, ⟨22, _⟩ => ⟨S_, .f32⟩
  | .hbm, ⟨23, _⟩ => ⟨S256, .f32⟩
  | .hbm, ⟨24, _⟩ => ⟨S256, .f32⟩
  | .hbm, ⟨25, _⟩ => ⟨S256, .f32⟩
  | .hbm, ⟨26, _⟩ => ⟨S256, .f32⟩
  | .hbm, ⟨27, _⟩ => ⟨S256, .i1⟩
  | .hbm, ⟨28, _⟩ => ⟨S256, .f32⟩
  | .hbm, ⟨29, _⟩ => ⟨S256, .f32⟩
  | .hbm, ⟨30, _⟩ => ⟨S256, .f32⟩
  | .hbm, ⟨31, _⟩ => ⟨S256, .f32⟩
  | .hbm, ⟨32, _⟩ => ⟨S256, .f32⟩
  | .hbm, ⟨33, _⟩ => ⟨S256, .f32⟩
  | .hbm, ⟨34, _⟩ => ⟨S256, .f32⟩
  | .hbm, ⟨35, _⟩ => ⟨S256, .f32⟩
  | .hbm, ⟨36, _⟩ => ⟨S_, .f32⟩
  | .hbm, ⟨37, _⟩ => ⟨S256, .f32⟩
  | .hbm, ⟨38, _⟩ => ⟨S256, .f32⟩
  | .hbm, ⟨39, _⟩ => ⟨S256x1, .f32⟩
  | .hbm, ⟨40, _⟩ => ⟨S256, .f32⟩
  | .local _ .vmem, ⟨0, _⟩ => ⟨S128x32x256, .f32⟩
  | .local _ .vmem, ⟨1, _⟩ => ⟨S128x32x256, .f32⟩
  | .local _ .vmem, ⟨2, _⟩ => ⟨S32x256, .f32⟩
  | .local _ .vmem, ⟨3, _⟩ => ⟨S32x256, .f32⟩
  | .local _ .vmem, ⟨4, _⟩ => ⟨S256, .f32⟩
  | .local _ .vmem, ⟨5, _⟩ => ⟨S256, .f32⟩
  | .local _ .vmem, ⟨6, _⟩ => ⟨S256, .f32⟩
  | .local _ .vmem, ⟨7, _⟩ => ⟨S128x1, .f32⟩
  | .local _ .vmem, ⟨8, _⟩ => ⟨S128x1, .f32⟩
  | .local _ .vmem, ⟨9, _⟩ => ⟨S128x1, .f32⟩
  | .local _ .vmem, ⟨10, _⟩ => ⟨S128x256, .f32⟩
  | .local _ .vmem, ⟨11, _⟩ => ⟨S1x256, .f32⟩
  | _, _ => ⟨S256x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_call1_cst : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_v3 : Ref sig .tc := ⟨.hbm, 35, rfl⟩
abbrev main_cst_0 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S256 : S_.BroadcastsInDim S256 (![] : Fin 0 → Fin S256.rank)
  inb_S256_S256_0 : ∀ a, (![0] : Fin 1 → Nat) a + S256.size a ≤ S256.size a
  h_S256 : 0 < S256.numel
  shapeCasts_S256_S256 : S256.ShapeCasts S256
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S128x32x256_S128x32x256_0_0_0 : ∀ a, (![0, 0, 0] : Fin 3 → Nat) a + S128x32x256.size a ≤ S128x32x256.size a
  h_S128x32x256 : 0 < S128x32x256.numel
  inb_S32x256_S32x256_0_0 : ∀ a, (![0, 0] : Fin 2 → Nat) a + S32x256.size a ≤ S32x256.size a
  h_S32x256 : 0 < S32x256.numel
  slices_S128x32x256_o0_0_0_S128x31x256 : S128x32x256.Slices ![0, 0, 0] S128x31x256
  slices_S128x32x256_o0_1_0_S128x31x256 : S128x32x256.Slices ![0, 1, 0] S128x31x256
  slices_S32x256_o0_0_S31x256 : S32x256.Slices ![0, 0] S31x256
  slices_S32x256_o1_0_S31x256 : S32x256.Slices ![1, 0] S31x256
  shapeCasts_S256_S1x256 : S256.ShapeCasts S1x256
  broadcasts_S1x256_S31x256 : S1x256.Broadcasts S31x256
  shapeCasts_S256_S1x1x256 : S256.ShapeCasts S1x1x256
  broadcasts_S1x1x256_S128x31x256 : S1x1x256.Broadcasts S128x31x256
  shapeCasts_S31x256_S1x31x256 : S31x256.ShapeCasts S1x31x256
  broadcasts_S1x31x256_S128x31x256 : S1x31x256.Broadcasts S128x31x256
  reduces_S128x31x256_S128x31 : S128x31x256.Reduces [2] S128x31
  reduces_S128x31_S128 : S128x31.Reduces [1] S128
  shapeCasts_S128_S128x1 : S128.ShapeCasts S128x1
  slices_S128x32x256_o0_0_0_S128x1x256 : S128x32x256.Slices ![0, 0, 0] S128x1x256
  shapeCasts_S128x1x256_S128x256 : S128x1x256.ShapeCasts S128x256
  slices_S32x256_o0_0_S1x256 : S32x256.Slices ![0, 0] S1x256
  shapeCasts_S1x256_S256 : S1x256.ShapeCasts S256
  broadcasts_S1x256_S128x256 : S1x256.Broadcasts S128x256
  reduces_S128x256_S128 : S128x256.Reduces [1] S128
  slices_S128x32x256_o0_31_0_S128x1x256 : S128x32x256.Slices ![0, 31, 0] S128x1x256
  slices_S32x256_o31_0_S1x256 : S32x256.Slices ![31, 0] S1x256
  shapeCasts_S256x1_S256 : S256x1.ShapeCasts S256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32x256.size a ≤ S256x1024x256.size a
  hwx0_0 : ∀ i : grid0.Coords, EltTy.bits .f32 = 32 ∨ (Rect.block (s := S256x1024x256) S128x32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S1024x256.size a
  hwx0_1 : ∀ i : grid0.Coords, EltTy.bits .f32 = 32 ∨ (Rect.block (s := S1024x256) S32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S256x1.size a
  hwx0_5 : ∀ i : grid0.Coords, EltTy.bits .f32 = 32 ∨ (Rect.block (s := S256x1) S128x1.size (cc0_transform_5 i) (hinb0_5 i)).WholeWords (EltTy.packing .f32)

variable [Facts₀]

abbrev win0_0 : Pipeline.Window sig grid0 :=
  Pipeline.Window.ofSpec (Memref.whole main_arg0) S128x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S128x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S256x1024x256 : Shape := ⟨3, ![256, 1024, 256]⟩
abbrev S1024x256 : Shape := ⟨2, ![1024, 256]⟩
abbrev S256 : Shape := ⟨1, ![256]⟩
abbrev S_ : Shape := ⟨0, ![]⟩
abbrev S1x1024x256 : Shape := ⟨3, ![1, 1024, 256]⟩
abbrev S256x1x256 : Shape := ⟨3, ![256, 1, 256]⟩
abbrev S256x256 : Shape := ⟨2, ![256, 256]⟩
abbrev S1x256 : Shape := ⟨2, ![1, 256]⟩
abbrev S1x1023x256 : Shape := ⟨3, ![1, 1023, 256]⟩
abbrev S1x1x256 : Shape := ⟨3, ![1, 1, 256]⟩
abbrev S256x1023x256 : Shape := ⟨3, ![256, 1023, 256]⟩
abbrev S256x1023 : Shape := ⟨2, ![256, 1023]⟩

abbrev nBuf : Space → Nat
  | .hbm => 131
  | .vmem => 0
  | .smem => 0
  | _ => 0

abbrev hbmTy0_0 (i : Nat) : BufTy := match i % 128 with
  | 0 => ⟨S256x1024x256, .f32⟩
  | 1 => ⟨S1024x256, .f32⟩
  | 2 => ⟨S256, .f32⟩
  | 3 => ⟨S256, .f32⟩
  | 4 => ⟨S256, .f32⟩
  | 5 => ⟨S_, .f32⟩
  | 6 => ⟨S256, .f32⟩
  | 7 => ⟨S256, .f32⟩
  | 8 => ⟨S256, .f32⟩
  | 9 => ⟨S256, .f32⟩
  | 10 => ⟨S256, .i1⟩
  | 11 => ⟨S256, .f32⟩
  | 12 => ⟨S256, .f32⟩
  | 13 => ⟨S256, .f32⟩
  | 14 => ⟨S256, .f32⟩
  | 15 => ⟨S256, .f32⟩
  | 16 => ⟨S256, .f32⟩
  | 17 => ⟨S256, .f32⟩
  | 18 => ⟨S256, .f32⟩
  | 19 => ⟨S_, .f32⟩
  | 20 => ⟨S256, .f32⟩
  | 21 => ⟨S256, .f32⟩
  | 22 => ⟨S_, .f32⟩
  | 23 => ⟨S256, .f32⟩
  | 24 => ⟨S256, .f32⟩
  | 25 => ⟨S256, .f32⟩
  | 26 => ⟨S256, .f32⟩
  | 27 => ⟨S256, .i1⟩
  | 28 => ⟨S256, .f32⟩
  | 29 => ⟨S256, .f32⟩
  | 30 => ⟨S256, .f32⟩
  | 31 => ⟨S256, .f32⟩
  | 32 => ⟨S256, .f32⟩
  | 33 => ⟨S256, .f32⟩
  | 34 => ⟨S256, .f32⟩
  | 35 => ⟨S256, .f32⟩
  | 36 => ⟨S_, .f32⟩
  | 37 => ⟨S256, .f32⟩
  | 38 => ⟨S256, .f32⟩
  | 39 => ⟨S1x1024x256, .f32⟩
  | 40 => ⟨S256, .f32⟩
  | 41 => ⟨S_, .f32⟩
  | 42 => ⟨S256, .f32⟩
  | 43 => ⟨S256, .f32⟩
  | 44 => ⟨S256, .f32⟩
  | 45 => ⟨S256x1x256, .f32⟩
  | 46 => ⟨S256x256, .f32⟩
  | 47 => ⟨S_, .f32⟩
  | 48 => ⟨S256, .f32⟩
  | 49 => ⟨S256, .f32⟩
  | 50 => ⟨S256, .f32⟩
  | 51 => ⟨S_, .f32⟩
  | 52 => ⟨S256, .f32⟩
  | 53 => ⟨S256, .f32⟩
  | 54 => ⟨S1x256, .f32⟩
  | 55 => ⟨S256x256, .f32⟩
  | 56 => ⟨S256x256, .f32⟩
  | 57 => ⟨S256x256, .f32⟩
  | 58 => ⟨S1x256, .f32⟩
  | 59 => ⟨S256x256, .f32⟩
  | 60 => ⟨S256x256, .f32⟩
  | 61 => ⟨S1x256, .f32⟩
  | 62 => ⟨S256x256, .f32⟩
  | 63 => ⟨S256x256, .f32⟩
  | 64 => ⟨S_, .f32⟩
  | 65 => ⟨S256, .f32⟩
  | 66 => ⟨S_, .f32⟩
  | 67 => ⟨S256, .f32⟩
  | 68 => ⟨S256, .f32⟩
  | 69 => ⟨S1x1023x256, .f32⟩
  | 70 => ⟨S1x1023x256, .f32⟩
  | 71 => ⟨S1x1023x256, .f32⟩
  | 72 => ⟨S_, .f32⟩
  | 73 => ⟨S1x1023x256, .f32⟩
  | 74 => ⟨S1x1023x256, .f32⟩
  | 75 => ⟨S256, .f32⟩
  | 76 => ⟨S1x1x256, .f32⟩
  | 77 => ⟨S1x1023x256, .f32⟩
  | 78 => ⟨S1x1023x256, .f32⟩
  | 79 => ⟨S1x1023x256, .f32⟩
  | 80 => ⟨S256x1023x256, .f32⟩
  | 81 => ⟨S1x1x256, .f32⟩
  | 82 => ⟨S256x1023x256, .f32⟩
  | 83 => ⟨S256x1023x256, .f32⟩
  | 84 => ⟨S256x1023x256, .f32⟩
  | 85 => ⟨S256x1023x256, .f32⟩
  | 86 => ⟨S1x1x256, .f32⟩
  | 87 => ⟨S256x1023x256, .f32⟩
  | 88 => ⟨S256x1023x256, .f32⟩
  | 89 => ⟨S256, .f32⟩
  | 90 => ⟨S_, .f32⟩
  | 91 => ⟨S256, .f32⟩
  | 92 => ⟨S256, .f32⟩
  | 93 => ⟨S1x1x256, .f32⟩
  | 94 => ⟨S1x1023x256, .f32⟩
  | 95 => ⟨S1x1023x256, .f32⟩
  | 96 => ⟨S1x1023x256, .f32⟩
  | 97 => ⟨S_, .f32⟩
  | 98 => ⟨S1x1023x256, .f32⟩
  | 99 => ⟨S1x1023x256, .f32⟩
  | 100 => ⟨S1x1x256, .f32⟩
  | 101 => ⟨S1x1023x256, .f32⟩
  | 102 => ⟨S1x1023x256, .f32⟩
  | 103 => ⟨S_, .f32⟩
  | 104 => ⟨S256, .f32⟩
  | 105 => ⟨S256, .f32⟩
  | 106 => ⟨S1x1x256, .f32⟩
  | 107 => ⟨S1x1023x256, .f32⟩
  | 108 => ⟨S1x1023x256, .f32⟩
  | 109 => ⟨S256x1023x256, .f32⟩
  | 110 => ⟨S_, .f32⟩
  | 111 => ⟨S1x1023x256, .f32⟩
  | 112 => ⟨S1x1023x256, .f32⟩
  | 113 => ⟨S1x1023x256, .f32⟩
  | 114 => ⟨S_, .f32⟩
  | 115 => ⟨S1x1023x256, .f32⟩
  | 116 => ⟨S1x1023x256, .f32⟩
  | 117 => ⟨S256x1023x256, .f32⟩
  | 118 => ⟨S256x1023x256, .f32⟩
  | 119 => ⟨S256x1023x256, .f32⟩
  | 120 => ⟨S256x1023x256, .f32⟩
  | 121 => ⟨S256x1023x256, .f32⟩
  | 122 => ⟨S256x1023x256, .f32⟩
  | 123 => ⟨S_, .f32⟩
  | 124 => ⟨S256x1023, .f32⟩
  | 125 => ⟨S_, .f32⟩
  | 126 => ⟨S256x1023, .f32⟩
  | 127 => ⟨S256x1023, .f32⟩
  | _ => ⟨S256x1024x256, .f32⟩

abbrev hbmTy0_1 (i : Nat) : BufTy := match i % 128 with
  | 0 => ⟨S_, .f32⟩
  | 1 => ⟨S256, .f32⟩
  | 2 => ⟨S256, .f32⟩
  | _ => ⟨S256x1024x256, .f32⟩

abbrev hbmTy (i : Nat) : BufTy := match i / 128 with
  | 0 => hbmTy0_0 i
  | 1 => hbmTy0_1 i
  | _ => ⟨S256x1024x256, .f32⟩

abbrev bufTy : (tb : Table) → Fin (tcTables nBuf tb) → BufTy
  | .hbm, ⟨i, _⟩ => hbmTy i
  | _, _ => ⟨S256x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_call1_cst : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_v3 : Ref sig .tc := ⟨.hbm, 35, rfl⟩
abbrev main_cst_0 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_cst_1 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_cst_2 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_cst_3 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_4 : Ref sig .tc := ⟨.hbm, 64, rfl⟩
abbrev main_v28 : Ref sig .tc := ⟨.hbm, 65, rfl⟩
abbrev main_cst_5 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_cst_6 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_cst_7 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_cst_8 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_9 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_cst_10 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_cst_11 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_cst_12 : Ref sig .tc := ⟨.hbm, 123, rfl⟩
abbrev main_v79 : Ref sig .tc := ⟨.hbm, 124, rfl⟩
abbrev main_cst_13 : Ref sig .tc := ⟨.hbm, 125, rfl⟩
abbrev main_v80 : Ref sig .tc := ⟨.hbm, 126, rfl⟩
abbrev main_v81 : Ref sig .tc := ⟨.hbm, 127, rfl⟩
abbrev main_cst_14 : Ref sig .tc := ⟨.hbm, 128, rfl⟩
abbrev main_v82 : Ref sig .tc := ⟨.hbm, 129, rfl⟩
abbrev main_v83 : Ref sig .tc := ⟨.hbm, 130, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S1024x256_S1x1024x256_1_2 : S1024x256.BroadcastsInDim S1x1024x256 (![1, 2] : Fin 2 → Fin S1x1024x256.rank)
  slices_S256x1024x256_S256x1x256_0_0_0 : S256x1024x256.Slices ![0, 0, 0] S256x1x256
  shapeCasts_S256x1x256_S256x256 : S256x1x256.ShapeCasts S256x256
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  reducesTo_S256x256_S256_d1 : S256x256.ReducesTo [1] S256
  h_S_ : 0 < S_.numel
  slices_S1x1024x256_S1x1023x256_0_1_0 : S1x1024x256.Slices ![0, 1, 0] S1x1023x256
  slices_S1x1024x256_S1x1023x256_0_0_0 : S1x1024x256.Slices ![0, 0, 0] S1x1023x256
  bcast_S_S1x1023x256 : S_.BroadcastsInDim S1x1023x256 (![] : Fin 0 → Fin S1x1023x256.rank)
  bcast_S256_S1x1x256_2 : S256.BroadcastsInDim S1x1x256 (![2] : Fin 1 → Fin S1x1x256.rank)
  bcast_S1x1x256_S1x1023x256_0_1_2 : S1x1x256.BroadcastsInDim S1x1023x256 (![0, 1, 2] : Fin 3 → Fin S1x1023x256.rank)
  slices_S256x1024x256_S256x1023x256_0_0_0 : S256x1024x256.Slices ![0, 0, 0] S256x1023x256
  bcast_S1x1x256_S256x1023x256_0_1_2 : S1x1x256.BroadcastsInDim S256x1023x256 (![0, 1, 2] : Fin 3 → Fin S256x1023x256.rank)
  bcast_S1x1023x256_S256x1023x256_0_1_2 : S1x1023x256.BroadcastsInDim S256x1023x256 (![0, 1, 2] : Fin 3 → Fin S256x1023x256.rank)
  slices_S256x1024x256_S256x1023x256_0_1_0 : S256x1024x256.Slices ![0, 1, 0] S256x1023x256
  reducesTo_S256x1023x256_S256x1023_d2 : S256x1023x256.ReducesTo [2] S256x1023
  bcast_S_S256x1023 : S_.BroadcastsInDim S256x1023 (![] : Fin 0 → Fin S256x1023.rank)
  reducesTo_S256x1023_S256_d1 : S256x1023.ReducesTo [1] S256

variable [Facts₀]

class Facts : Prop extends Facts₀ where

variable [Facts]
-- ==== Proof.KbStep.lean ====
/-
  One grid point of the kernel, as pure functions of what it reads.

  A point reads its block of observations `x0` (128 batch rows × 32 time rows × 256 dimensions), its block of times
  `x1` (32 × 256), the three parameter rows `x2` (μ), `x3` (κ), `x4` (σ), and — at every time tile but the first —
  what the point before left in the three carried buffers: the running sum `s0` (128 × 1), the previous tile's last
  observations `s1` (128 × 256) and last times `s2` (1 × 256).
  At the FIRST time tile the running sum starts from zero, takes the 31 in-tile pairs and then the stationary term
  of the tile's first row (`accFirst`); at a LATER tile it takes the 31 in-tile pairs and then the pair bridging the
  previous tile's last row to this tile's first (`accNext`). Either way the point leaves its last row of observations
  and of times behind (`lastObs`, `lastTimes`). Each is the composition of the body's named payloads in the order
  the body computes them.
-/
import proofs.«154525_j39032662786269_1_alg».proof.Proof.Gen.Kernel.Skeleton

noncomputable section

namespace Cert.Kernel.Step

open Cert.Kernel Cert.Kernel.Gen Idealize.ShloMosaic

variable {F : FTy → Type} [FloatOps F]

/-- The running sum after the 31 pairs inside the tile, from the running sum `s` before them. -/
def accPairs (x0 : Vec F S128x32x256 .f32) (x1 : Vec F S32x256 .f32) (x2 x3 x4 : Vec F S256 .f32) (s : Vec F S128x1 .f32) :
    Vec F S128x1 .f32 :=
  k0_pay13 (k0_pay3 x3) (k0_pay8 x0) (k0_pay10 x2 x3 x0 x1) (k0_pay11 x3 x1) (k0_pay12 x4) s

/-- The running sum a FIRST time tile leaves: zero, plus the in-tile pairs, plus the stationary term of row 0. -/
def accFirst (x0 : Vec F S128x32x256 .f32) (x1 : Vec F S32x256 .f32) (x2 x3 x4 : Vec F S256 .f32) : Vec F S128x1 .f32 :=
  k0_pay18 x2 (k0_pay3 x3) (k0_pay4 x4) (k0_pay14 x0) (accPairs x0 x1 x2 x3 x4 k0_pay5)

/-- The running sum a LATER time tile leaves: what it found, plus the in-tile pairs, plus the pair bridging the
    previous tile's last row (`s1` at time `s2`) to this tile's row 0. -/
def accNext (x0 : Vec F S128x32x256 .f32) (x1 : Vec F S32x256 .f32) (x2 x3 x4 : Vec F S256 .f32)
    (s0 : Vec F S128x1 .f32) (s1 : Vec F S128x256 .f32) (s2 : Vec F S1x256 .f32) : Vec F S128x1 .f32 :=
  k0_pay17 x2 (k0_pay3 x3) (k0_pay4 x4) (k0_pay14 x0) s1 (k0_pay15 x1 s2) (k0_pay16 (k0_pay3 x3) x1 s2)
    (accPairs x0 x1 x2 x3 x4 s0)

/-- The tile's last row of observations, kept for the next tile. -/
def lastObs (x0 : Vec F S128x32x256 .f32) : Vec F S128x256 .f32 := k0_pay1 (k0_pay19 x0)

/-- The tile's last row of times, kept for the next tile. -/
def lastTimes (x1 : Vec F S32x256 .f32) : Vec F S1x256 .f32 := k0_pay2 x1

end Cert.Kernel.Step

end
-- ==== Proof.KbWalk.lean ====
/-
  The kernel's walk over its grid, as pure data: what the three carried buffers hold after each grid position.

  The grid has 2 × 32 points, walked in order: position n is batch tile n / 32, time tile n % 32. A batch tile's
  FIRST time tile (n % 32 = 0) starts the running sum afresh (`accFirst` of the point's blocks); every later one
  continues from what the position before left (`accNext`). Every point leaves its last row of observations and of
  times for the next. The result window's staging buffer holds the running sum after every point, and is written
  back after a batch tile's last time tile.
-/
import proofs.«154525_j39032662786269_1_alg».proof.Proof.Gen.Kernel.Frame
import proofs.«154525_j39032662786269_1_alg».proof.Proof.KbStep

noncomputable section

namespace Cert.Kernel.Walk

open Cert.Kernel Cert.Kernel.Gen Cert.Kernel.Step Idealize.ShloMosaic Idealize.ShloMosaic.TcCoe

variable {F : FTy → Type} [FloatOps F]

variable (m : (ℓ : Loc nD τ sig) → Buf (Elt F) ℓ)

/-- The three carried buffers: the running sum, the last observations, the last times. -/
abbrev Carried (F : FTy → Type) [FloatOps F] : Type := Vec F S128x1 .f32 × Vec F S128x256 .f32 × Vec F S1x256 .f32

/-- What a first time tile at point `t` leaves. -/
def firstAt (c : Dev nD) (t : Fin cfg0.N) : Carried F :=
  (accFirst (iblk m c 0 t) (iblk m c 1 t) (iblk m c 2 t) (iblk m c 3 t) (iblk m c 4 t), lastObs (iblk m c 0 t), lastTimes (iblk m c 1 t))

/-- What a later time tile at point `t` leaves, from what the point before left. -/
def nextAt (c : Dev nD) (t : Fin cfg0.N) (s : Carried F) : Carried F :=
  (accNext (iblk m c 0 t) (iblk m c 1 t) (iblk m c 2 t) (iblk m c 3 t) (iblk m c 4 t) s.1 s.2.1 s.2.2, lastObs (iblk m c 0 t), lastTimes (iblk m c 1 t))

/-- What the carried buffers hold after the body at position `n`. -/
def stateAt (c : Dev nD) : (n : ℕ) → n < cfg0.N → Carried F
  | 0, hn => firstAt m c ⟨0, hn⟩
  | n + 1, hn => if (n + 1) % 32 = 0 then firstAt m c ⟨n + 1, hn⟩ else nextAt m c ⟨n + 1, hn⟩ (stateAt c n (Nat.lt_of_succ_lt hn))

theorem stateAt_first (c : Dev nD) (t : Fin cfg0.N) (h : t.val % 32 = 0) : stateAt m c t.val t.isLt = firstAt m c t := by
  obtain ⟨n, hn⟩ := t
  cases n with
  | zero => rfl
  | succ n => exact if_pos h

theorem stateAt_next (c : Dev nD) (t : Fin cfg0.N) (h : ¬t.val % 32 = 0) :
    stateAt m c t.val t.isLt = nextAt m c t (stateAt m c (t.val - 1) (Nat.lt_of_le_of_lt (Nat.sub_le _ _) t.isLt)) := by
  obtain ⟨n, hn⟩ := t
  cases n with
  | zero => exact absurd (Nat.zero_mod _) h
  | succ n => exact if_neg h

end Cert.Kernel.Walk

end
-- ==== Proof.KbRuns.lean ====
/-
  What the two runs of the kernel body share.

  The body branches three times on its time-tile coordinate: "is it the first tile" (twice: to reset the carried
  buffers, and to add the stationary term) and "is it a later tile" (to add the bridging pair). Over the 2 × 32 grid
  the first holds exactly at the positions divisible by 32 and the second exactly at the others, so every point is
  in one of two cases. Here: the two conditions as the body computes them and their closed forms over the grid; the
  windows are never idle; the staging memrefs at a point and the three scratch buffers as whole memrefs; and the
  region's invariant restated as those three buffers held whole at some contents, beside the generator register.
-/
import proofs.«154525_j39032662786269_1_alg».proof.Proof.Gen.Kernel.Frame
import proofs.«154525_j39032662786269_1_alg».proof.Proof.Gen.Kernel.Skeleton
import proofs.«154525_j39032662786269_1_alg».proof.Proof.KbWalk
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- "This is the first time tile", as the body computes it from the grid coordinates. -/
abbrev condFirst (i : grid0.Coords) : Prop := (Scalar.cmpi .ne (Scalar.extui (Scalar.cmpi .eq (BitVec.ofNat 32 (i 1).val) 0#32)) 0#32) = 1#1
/-- It holds at the positions divisible by 32 — decided over the grid. -/
theorem hcondFirst : ∀ t : Fin cfg0.N, condFirst (grid0.coords t) ↔ t.val % 32 = 0 :=
  (by decide +kernel : ∀ t : Fin grid0.N, condFirst (grid0.coords t) ↔ t.val % 32 = 0)

/-- "This is a later time tile", as the body computes it. -/
abbrev condLater (i : grid0.Coords) : Prop := (Scalar.cmpi .ne (Scalar.extui (Scalar.cmpi .sgt (BitVec.ofNat 32 (i 1).val) 0#32)) 0#32) = 1#1
/-- It holds at the other positions — decided over the grid. -/
theorem hcondLater : ∀ t : Fin cfg0.N, condLater (grid0.coords t) ↔ ¬t.val % 32 = 0 :=
  (by decide +kernel : ∀ t : Fin grid0.N, condLater (grid0.coords t) ↔ ¬t.val % 32 = 0)

/-! ## No window is ever idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel

/-! ## The memrefs the body is called with -/

abbrev ms0 (t : Fin cfg0.N) : Memref sig .tc .vmem S128x32x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x1 .f32 := win0_5.stage (cfg0.slots t 5)
abbrev hs5 (t : Fin cfg0.N) : (ms5 t).IsWhole := hstage0_5 ((cfg0.slots t 5).cast nbuf0_5)

/-- The three carried buffers: whole scoped buffers of the kernel's own. -/
abbrev scAcc : Memref sig .tc .vmem S128x1 .f32 := Memref.whole cc0_scratch0
abbrev scObs : Memref sig .tc .vmem S128x256 .f32 := Memref.whole cc0_scratch1
abbrev scTimes : Memref sig .tc .vmem S1x256 .f32 := Memref.whole cc0_scratch2

/-- The region's invariant: the three carried buffers owned whole at some contents, and the generator register. -/
theorem PhiA_eq (c : Dev nD) :
    (Pipeline.ΦA spec0 c : sProp 𝕄)
      = iprop(iprop((∃ d, owns (c : Thread nD τ) scAcc fullShare d) ∗ (∃ d, owns (c : Thread nD τ) scObs fullShare d) ∗ (∃ d, owns (c : Thread nD τ) scTimes fullShare d)) ∗ (∃ r, prngReg c r)) := by
  unfold Pipeline.ΦA; rw [scopedRest0_eq]; simp only [scAcc, scObs, scTimes, owns_whole]; try rfl

end Cert.Kernel.Body

end
-- ==== Proof.KbRunFirst.lean ====
/-
  The kernel body at a FIRST time tile, run once on any whole memrefs.

  From the five input blocks held at their contents and the result's buffer and the three carried buffers held at
  anything, the body runs to its end with the inputs as they were and each of the other four buffers holding what it
  was handed overwritten by a list of stored pieces (last first) — the lists are what the run finds: the carried
  buffers are reset, the 31 in-tile pairs and the stationary term are added to the running sum, the tile's last
  rows are kept, and the running sum is copied to the result's buffer.
-/
import proofs.«154525_j39032662786269_1_alg».proof.Proof.KbRuns

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFirst (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : condFirst i) (hc1 : ¬condLater i)
    (x0 : Vec F S128x32x256 .f32) (x1 : Vec F S32x256 .f32) (x2 x3 x4 : Vec F S256 .f32) :
    Σ' (L7 : List (View.Piece (Elt F) S128x1 .f32)) (L8 : List (View.Piece (Elt F) S128x1 .f32)) (L9 : List (View.Piece (Elt F) S128x256 .f32)),
      { L10 : List (View.Piece (Elt F) S1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)) -∗ K ⟨⟩))
          ⊢ wp frame (wpE (defs₀ (F := F)) Variants.none c none) E (cc0__ou_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__ou_kernel_eq_skeleton]; unfold cc0__ou_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]; · iexists _; iexact H7
    isplitl [H8]; · iexists _; iexact H8
    isplitl [H9]; · iexists _; iexact H9
    iexists _; iexact H10

end Cert.Kernel.Body

end
-- ==== Proof.KbRunLater.lean ====
/-
  The kernel body at a LATER time tile, run once on any whole memrefs.

  From the five input blocks held at their contents, the result's buffer held at anything and the three carried
  buffers held at what the point before left (`xs0`, `xs1`, `xs2`), the body runs to its end with the inputs as they
  were and each of the other four buffers holding what it was handed overwritten by a list of stored pieces (last
  first) — the lists are what the run finds: the 31 in-tile pairs and the pair bridging the previous tile are added
  to the running sum, the tile's last rows are kept, and the running sum is copied to the result's buffer.
-/
import proofs.«154525_j39032662786269_1_alg».proof.Proof.KbRunFirst

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runLater (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : ¬condFirst i) (hc1 : condLater i)
    (x0 : Vec F S128x32x256 .f32) (x1 : Vec F S32x256 .f32) (x2 x3 x4 : Vec F S256 .f32)
    (xs0 : Vec F S128x1 .f32) (xs1 : Vec F S128x256 .f32) (xs2 : Vec F S1x256 .f32) :
    Σ' (L7 : List (View.Piece (Elt F) S128x1 .f32)) (L8 : List (View.Piece (Elt F) S128x1 .f32)) (L9 : List (View.Piece (Elt F) S128x256 .f32)),
      { L10 : List (View.Piece (Elt F) S1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)) -∗ K ⟨⟩))
          ⊢ wp frame (wpE (defs₀ (F := F)) Variants.none c none) E (cc0__ou_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__ou_kernel_eq_skeleton]; unfold cc0__ou_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hf8; obtain rfl := harg9.eq_unread hf9; obtain rfl := harg10.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]; · iexists _; iexact H7
    isplitl [H8]; · iexists _; iexact H8
    isplitl [H9]; · iexists _; iexact H9
    iexists _; iexact H10

end Cert.Kernel.Body

end
-- ==== Proof.KbPieces.lean ====
/-
  What the two runs of the body leave, read back.

  Every store of the body goes through the whole-buffer rectangle of its buffer, so after any number of them the
  buffer reads as the LAST store's payload, and a load between two stores reads the payload of the store before it.
  Read that way, the pieces each run found are the step functions of the point's blocks: the running sum
  (`Step.accFirst` / `Step.accNext`, also what the result's buffer ends with), the tile's last observations
  (`Step.lastObs`) and last times (`Step.lastTimes`). Each list of pieces covers its buffer.
-/
import proofs.«154525_j39032662786269_1_alg».proof.Proof.KbRunLater
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Step

theorem hz1 : (![0] : Fin 1 → ℕ) = fun _ => 0 := funext fun a => by fin_cases a; rfl
theorem hz2 : (![0, 0] : Fin 2 → ℕ) = fun _ => 0 := funext fun a => by fin_cases a <;> rfl
theorem hz3 : (![0, 0, 0] : Fin 3 → ℕ) = fun _ => 0 := funext fun a => by fin_cases a <;> rfl

/-- A load through the whole-buffer rectangle after stores of which the LAST went through it reads that store's payload. -/
theorem readCov_cons_unit_zero {Val : EltTy → Type} [∀ e, Nonempty (Val e)] {sig' : RefSig} {κ : Kind} {sp : Space} {S : Shape} {e : EltTy}
    (v : View sig' κ sp S e) {off : Fin S.rank → ℕ} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩), View.canon_cons_unit_zero rfl,
    View.ld_unit_zero rfl]

/-! ## A first time tile -/

theorem coverFirst_out (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : condFirst i) (hc1 : ¬condLater i)
    (x0 : Vec F S128x32x256 .f32) (x1 : Vec F S32x256 .f32) (x2 x3 x4 : Vec F S256 .f32) (y : S128x1.Idx) :
    ∃ pc ∈ (runFirst c i arg2 harg2 arg3 harg3 arg4 harg4 arg5 harg5 arg6 harg6 arg7 harg7 arg8 harg8 arg9 harg9 arg10 harg10 hc0 hc1 x0 x1 x2 x3 x4).1, y ∈ pc.1.set :=
  View.cover_of_tiledL (runFirst c i arg2 harg2 arg3 harg3 arg4 harg4 arg5 harg5 arg6 harg6 arg7 harg7 arg8 harg8 arg9 harg9 arg10 harg10 hc0 hc1 x0 x1 x2 x3 x4).1 S128x1.size (by sl_kernel_rfl) y

theorem first_out (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : condFirst i) (hc1 : ¬condLater i)
    (x0 : Vec F S128x32x256 .f32) (x1 : Vec F S32x256 .f32) (x2 x3 x4 : Vec F S256 .f32) :
    View.canon (runFirst c i arg2 harg2 arg3 harg3 arg4 harg4 arg5 harg5 arg6 harg6 arg7 harg7 arg8 harg8 arg9 harg9 arg10 harg10 hc0 hc1 x0 x1 x2 x3 x4).1 = accFirst x0 x1 x2 x3 x4 := by
  unfold runFirst
  dsimp only
  sl_unfold_words
  simp only [View.canon_cons_unit_zero (S := S128x1) hz2, View.canon_cons_unit_zero (S := S128x256) hz2, View.canon_cons_unit_zero (S := S1x256) hz2,
    readCov_cons_unit_zero (S := S128x1) _ hz2, readCov_cons_unit_zero (S := S128x256) _ hz2, readCov_cons_unit_zero (S := S1x256) _ hz2, View.readAt_eq_ld,
    harg2.read_unread, harg3.read_unread, harg4.read_unread, harg5.read_unread, harg6.read_unread,
    View.ld_unit_zero (S := S256) hz1, View.ld_unit_zero (S := S32x256) hz2, View.ld_unit_zero (S := S128x32x256) hz3,
    View.ld_unit_zero (S := S128x1) hz2, View.ld_unit_zero (S := S128x256) hz2, View.ld_unit_zero (S := S1x256) hz2]
  rfl

theorem coverFirst_acc (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : condFirst i) (hc1 : ¬condLater i)
    (x0 : Vec F S128x32x256 .f32) (x1 : Vec F S32x256 .f32) (x2 x3 x4 : Vec F S256 .f32) (y : S128x1.Idx) :
    ∃ pc ∈ (runFirst c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (runFirst c i arg2 harg2 arg3 harg3 arg4 harg4 arg5 harg5 arg6 harg6 arg7 harg7 arg8 harg8 arg9 harg9 arg10 harg10 hc0 hc1 x0 x1 x2 x3 x4).2.1 S128x1.size (by sl_kernel_rfl) y

theorem first_acc (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : condFirst i) (hc1 : ¬condLater i)
    (x0 : Vec F S128x32x256 .f32) (x1 : Vec F S32x256 .f32) (x2 x3 x4 : Vec F S256 .f32) :
    View.canon (runFirst c i arg2 harg2 arg3 harg3 arg4 harg4 arg5 harg5 arg6 harg6 arg7 harg7 arg8 harg8 arg9 harg9 arg10 harg10 hc0 hc1 x0 x1 x2 x3 x4).2.1 = accFirst x0 x1 x2 x3 x4 := by
  unfold runFirst
  dsimp only
  sl_unfold_words
  simp only [View.canon_cons_unit_zero (S := S128x1) hz2, View.canon_cons_unit_zero (S := S128x256) hz2, View.canon_cons_unit_zero (S := S1x256) hz2,
    readCov_cons_unit_zero (S := S128x1) _ hz2, readCov_cons_unit_zero (S := S128x256) _ hz2, readCov_cons_unit_zero (S := S1x256) _ hz2, View.readAt_eq_ld,
    harg2.read_unread, harg3.read_unread, harg4.read_unread, harg5.read_unread, harg6.read_unread,
    View.ld_unit_zero (S := S256) hz1, View.ld_unit_zero (S := S32x256) hz2, View.ld_unit_zero (S := S128x32x256) hz3,
    View.ld_unit_zero (S := S128x1) hz2, View.ld_unit_zero (S := S128x256) hz2, View.ld_unit_zero (S := S1x256) hz2]
  rfl

theorem coverFirst_obs (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : condFirst i) (hc1 : ¬condLater i)
    (x0 : Vec F S128x32x256 .f32) (x1 : Vec F S32x256 .f32) (x2 x3 x4 : Vec F S256 .f32) (y : S128x256.Idx) :
    ∃ pc ∈ (runFirst c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (runFirst c i arg2 harg2 arg3 harg3 arg4 harg4 arg5 harg5 arg6 harg6 arg7 harg7 arg8 harg8 arg9 harg9 arg10 harg10 hc0 hc1 x0 x1 x2 x3 x4).2.2.1 S128x256.size (by sl_kernel_rfl) y

theorem first_obs (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : condFirst i) (hc1 : ¬condLater i)
    (x0 : Vec F S128x32x256 .f32) (x1 : Vec F S32x256 .f32) (x2 x3 x4 : Vec F S256 .f32) :
    View.canon (runFirst c i arg2 harg2 arg3 harg3 arg4 harg4 arg5 harg5 arg6 harg6 arg7 harg7 arg8 harg8 arg9 harg9 arg10 harg10 hc0 hc1 x0 x1 x2 x3 x4).2.2.1 = lastObs x0 := by
  unfold runFirst
  dsimp only
  sl_unfold_words
  simp only [View.canon_cons_unit_zero (S := S128x1) hz2, View.canon_cons_unit_zero (S := S128x256) hz2, View.canon_cons_unit_zero (S := S1x256) hz2,
    readCov_cons_unit_zero (S := S128x1) _ hz2, readCov_cons_unit_zero (S := S128x256) _ hz2, readCov_cons_unit_zero (S := S1x256) _ hz2, View.readAt_eq_ld,
    harg2.read_unread, harg3.read_unread, harg4.read_unread, harg5.read_unread, harg6.read_unread,
    View.ld_unit_zero (S := S256) hz1, View.ld_unit_zero (S := S32x256) hz2, View.ld_unit_zero (S := S128x32x256) hz3,
    View.ld_unit_zero (S := S128x1) hz2, View.ld_unit_zero (S := S128x256) hz2, View.ld_unit_zero (S := S1x256) hz2]
  rfl

theorem coverFirst_times (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : condFirst i) (hc1 : ¬condLater i)
    (x0 : Vec F S128x32x256 .f32) (x1 : Vec F S32x256 .f32) (x2 x3 x4 : Vec F S256 .f32) (y : S1x256.Idx) :
    ∃ pc ∈ (runFirst c i arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (runFirst c i arg2 harg2 arg3 harg3 arg4 harg4 arg5 harg5 arg6 harg6 arg7 harg7 arg8 harg8 arg9 harg9 arg10 harg10 hc0 hc1 x0 x1 x2 x3 x4).2.2.2.1 S1x256.size (by sl_kernel_rfl) y

theorem first_times (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : condFirst i) (hc1 : ¬condLater i)
    (x0 : Vec F S128x32x256 .f32) (x1 : Vec F S32x256 .f32) (x2 x3 x4 : Vec F S256 .f32) :
    View.canon (runFirst c i arg2 harg2 arg3 harg3 arg4 harg4 arg5 harg5 arg6 harg6 arg7 harg7 arg8 harg8 arg9 harg9 arg10 harg10 hc0 hc1 x0 x1 x2 x3 x4).2.2.2.1 = lastTimes x1 := by
  unfold runFirst
  dsimp only
  sl_unfold_words
  simp only [View.canon_cons_unit_zero (S := S128x1) hz2, View.canon_cons_unit_zero (S := S128x256) hz2, View.canon_cons_unit_zero (S := S1x256) hz2,
    readCov_cons_unit_zero (S := S128x1) _ hz2, readCov_cons_unit_zero (S := S128x256) _ hz2, readCov_cons_unit_zero (S := S1x256) _ hz2, View.readAt_eq_ld,
    harg2.read_unread, harg3.read_unread, harg4.read_unread, harg5.read_unread, harg6.read_unread,
    View.ld_unit_zero (S := S256) hz1, View.ld_unit_zero (S := S32x256) hz2, View.ld_unit_zero (S := S128x32x256) hz3,
    View.ld_unit_zero (S := S128x1) hz2, View.ld_unit_zero (S := S128x256) hz2, View.ld_unit_zero (S := S1x256) hz2]
  rfl

/-! ## A later time tile -/

theorem coverLater_out (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : ¬condFirst i) (hc1 : condLater i)
    (x0 : Vec F S128x32x256 .f32) (x1 : Vec F S32x256 .f32) (x2 x3 x4 : Vec F S256 .f32)
    (xs0 : Vec F S128x1 .f32) (xs1 : Vec F S128x256 .f32) (xs2 : Vec F S1x256 .f32) (y : S128x1.Idx) :
    ∃ pc ∈ (runLater c i arg2 harg2 arg3 harg3 arg4 harg4 arg5 harg5 arg6 harg6 arg7 harg7 arg8 harg8 arg9 harg9 arg10 harg10 hc0 hc1 x0 x1 x2 x3 x4 xs0 xs1 xs2).1, y ∈ pc.1.set :=
  View.cover_of_tiledL (runLater c i arg2 harg2 arg3 harg3 arg4 harg4 arg5 harg5 arg6 harg6 arg7 harg7 arg8 harg8 arg9 harg9 arg10 harg10 hc0 hc1 x0 x1 x2 x3 x4 xs0 xs1 xs2).1 S128x1.size (by sl_kernel_rfl) y

theorem later_out (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : ¬condFirst i) (hc1 : condLater i)
    (x0 : Vec F S128x32x256 .f32) (x1 : Vec F S32x256 .f32) (x2 x3 x4 : Vec F S256 .f32)
    (xs0 : Vec F S128x1 .f32) (xs1 : Vec F S128x256 .f32) (xs2 : Vec F S1x256 .f32) :
    View.canon (runLater c i arg2 harg2 arg3 harg3 arg4 harg4 arg5 harg5 arg6 harg6 arg7 harg7 arg8 harg8 arg9 harg9 arg10 harg10 hc0 hc1 x0 x1 x2 x3 x4 xs0 xs1 xs2).1 = accNext x0 x1 x2 x3 x4 xs0 xs1 xs2 := by
  unfold runLater
  dsimp only
  sl_unfold_words
  simp only [View.canon_cons_unit_zero (S := S128x1) hz2, View.canon_cons_unit_zero (S := S128x256) hz2, View.canon_cons_unit_zero (S := S1x256) hz2,
    readCov_cons_unit_zero (S := S128x1) _ hz2, readCov_cons_unit_zero (S := S128x256) _ hz2, readCov_cons_unit_zero (S := S1x256) _ hz2, View.readAt_eq_ld,
    harg2.read_unread, harg3.read_unread, harg4.read_unread, harg5.read_unread, harg6.read_unread, harg8.read_unread, harg9.read_unread, harg10.read_unread,
    View.ld_unit_zero (S := S256) hz1, View.ld_unit_zero (S := S32x256) hz2, View.ld_unit_zero (S := S128x32x256) hz3,
    View.ld_unit_zero (S := S128x1) hz2, View.ld_unit_zero (S := S128x256) hz2, View.ld_unit_zero (S := S1x256) hz2]
  rfl

theorem coverLater_acc (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : ¬condFirst i) (hc1 : condLater i)
    (x0 : Vec F S128x32x256 .f32) (x1 : Vec F S32x256 .f32) (x2 x3 x4 : Vec F S256 .f32)
    (xs0 : Vec F S128x1 .f32) (xs1 : Vec F S128x256 .f32) (xs2 : Vec F S1x256 .f32) (y : S128x1.Idx) :
    ∃ pc ∈ (runLater c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL (runLater c i arg2 harg2 arg3 harg3 arg4 harg4 arg5 harg5 arg6 harg6 arg7 harg7 arg8 harg8 arg9 harg9 arg10 harg10 hc0 hc1 x0 x1 x2 x3 x4 xs0 xs1 xs2).2.1 S128x1.size (by sl_kernel_rfl) y

theorem later_acc (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : ¬condFirst i) (hc1 : condLater i)
    (x0 : Vec F S128x32x256 .f32) (x1 : Vec F S32x256 .f32) (x2 x3 x4 : Vec F S256 .f32)
    (xs0 : Vec F S128x1 .f32) (xs1 : Vec F S128x256 .f32) (xs2 : Vec F S1x256 .f32) :
    View.canon (runLater c i arg2 harg2 arg3 harg3 arg4 harg4 arg5 harg5 arg6 harg6 arg7 harg7 arg8 harg8 arg9 harg9 arg10 harg10 hc0 hc1 x0 x1 x2 x3 x4 xs0 xs1 xs2).2.1 = accNext x0 x1 x2 x3 x4 xs0 xs1 xs2 := by
  unfold runLater
  dsimp only
  sl_unfold_words
  simp only [View.canon_cons_unit_zero (S := S128x1) hz2, View.canon_cons_unit_zero (S := S128x256) hz2, View.canon_cons_unit_zero (S := S1x256) hz2,
    readCov_cons_unit_zero (S := S128x1) _ hz2, readCov_cons_unit_zero (S := S128x256) _ hz2, readCov_cons_unit_zero (S := S1x256) _ hz2, View.readAt_eq_ld,
    harg2.read_unread, harg3.read_unread, harg4.read_unread, harg5.read_unread, harg6.read_unread, harg8.read_unread, harg9.read_unread, harg10.read_unread,
    View.ld_unit_zero (S := S256) hz1, View.ld_unit_zero (S := S32x256) hz2, View.ld_unit_zero (S := S128x32x256) hz3,
    View.ld_unit_zero (S := S128x1) hz2, View.ld_unit_zero (S := S128x256) hz2, View.ld_unit_zero (S := S1x256) hz2]
  rfl

theorem coverLater_obs (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : ¬condFirst i) (hc1 : condLater i)
    (x0 : Vec F S128x32x256 .f32) (x1 : Vec F S32x256 .f32) (x2 x3 x4 : Vec F S256 .f32)
    (xs0 : Vec F S128x1 .f32) (xs1 : Vec F S128x256 .f32) (xs2 : Vec F S1x256 .f32) (y : S128x256.Idx) :
    ∃ pc ∈ (runLater c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL (runLater c i arg2 harg2 arg3 harg3 arg4 harg4 arg5 harg5 arg6 harg6 arg7 harg7 arg8 harg8 arg9 harg9 arg10 harg10 hc0 hc1 x0 x1 x2 x3 x4 xs0 xs1 xs2).2.2.1 S128x256.size (by sl_kernel_rfl) y

theorem later_obs (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : ¬condFirst i) (hc1 : condLater i)
    (x0 : Vec F S128x32x256 .f32) (x1 : Vec F S32x256 .f32) (x2 x3 x4 : Vec F S256 .f32)
    (xs0 : Vec F S128x1 .f32) (xs1 : Vec F S128x256 .f32) (xs2 : Vec F S1x256 .f32) :
    View.canon (runLater c i arg2 harg2 arg3 harg3 arg4 harg4 arg5 harg5 arg6 harg6 arg7 harg7 arg8 harg8 arg9 harg9 arg10 harg10 hc0 hc1 x0 x1 x2 x3 x4 xs0 xs1 xs2).2.2.1 = lastObs x0 := by
  unfold runLater
  dsimp only
  sl_unfold_words
  simp only [View.canon_cons_unit_zero (S := S128x1) hz2, View.canon_cons_unit_zero (S := S128x256) hz2, View.canon_cons_unit_zero (S := S1x256) hz2,
    readCov_cons_unit_zero (S := S128x1) _ hz2, readCov_cons_unit_zero (S := S128x256) _ hz2, readCov_cons_unit_zero (S := S1x256) _ hz2, View.readAt_eq_ld,
    harg2.read_unread, harg3.read_unread, harg4.read_unread, harg5.read_unread, harg6.read_unread, harg8.read_unread, harg9.read_unread, harg10.read_unread,
    View.ld_unit_zero (S := S256) hz1, View.ld_unit_zero (S := S32x256) hz2, View.ld_unit_zero (S := S128x32x256) hz3,
    View.ld_unit_zero (S := S128x1) hz2, View.ld_unit_zero (S := S128x256) hz2, View.ld_unit_zero (S := S1x256) hz2]
  rfl

theorem coverLater_times (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : ¬condFirst i) (hc1 : condLater i)
    (x0 : Vec F S128x32x256 .f32) (x1 : Vec F S32x256 .f32) (x2 x3 x4 : Vec F S256 .f32)
    (xs0 : Vec F S128x1 .f32) (xs1 : Vec F S128x256 .f32) (xs2 : Vec F S1x256 .f32) (y : S1x256.Idx) :
    ∃ pc ∈ (runLater c i arg2 harg2 arg3 harg3 arg4 harg4 arg5 harg5 arg6 harg6 arg7 harg7 arg8 harg8 arg9 harg9 arg10 harg10 hc0 hc1 x0 x1 x2 x3 x4 xs0 xs1 xs2).2.2.2.1, y ∈ pc.1.set :=
  View.cover_of_tiledL (runLater c i arg2 harg2 arg3 harg3 arg4 harg4 arg5 harg5 arg6 harg6 arg7 harg7 arg8 harg8 arg9 harg9 arg10 harg10 hc0 hc1 x0 x1 x2 x3 x4 xs0 xs1 xs2).2.2.2.1 S1x256.size (by sl_kernel_rfl) y

theorem later_times (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : ¬condFirst i) (hc1 : condLater i)
    (x0 : Vec F S128x32x256 .f32) (x1 : Vec F S32x256 .f32) (x2 x3 x4 : Vec F S256 .f32)
    (xs0 : Vec F S128x1 .f32) (xs1 : Vec F S128x256 .f32) (xs2 : Vec F S1x256 .f32) :
    View.canon (runLater c i arg2 harg2 arg3 harg3 arg4 harg4 arg5 harg5 arg6 harg6 arg7 harg7 arg8 harg8 arg9 harg9 arg10 harg10 hc0 hc1 x0 x1 x2 x3 x4 xs0 xs1 xs2).2.2.2.1 = lastTimes x1 := by
  unfold runLater
  dsimp only
  sl_unfold_words
  simp only [View.canon_cons_unit_zero (S := S128x1) hz2, View.canon_cons_unit_zero (S := S128x256) hz2, View.canon_cons_unit_zero (S := S1x256) hz2,
    readCov_cons_unit_zero (S := S128x1) _ hz2, readCov_cons_unit_zero (S := S128x256) _ hz2, readCov_cons_unit_zero (S := S1x256) _ hz2, View.readAt_eq_ld,
    harg2.read_unread, harg3.read_unread, harg4.read_unread, harg5.read_unread, harg6.read_unread, harg8.read_unread, harg9.read_unread, harg10.read_unread,
    View.ld_unit_zero (S := S256) hz1, View.ld_unit_zero (S := S32x256) hz2, View.ld_unit_zero (S := S128x32x256) hz3,
    View.ld_unit_zero (S := S128x1) hz2, View.ld_unit_zero (S := S128x256) hz2, View.ld_unit_zero (S := S1x256) hz2]
  rfl

end Cert.Kernel.Body

end
-- ==== Proof.KbFrame.lean ====
/-
  The frame of the kernel: every weakly fair execution terminates, nothing faults, the argument arrays end unchanged
  — and, on the way, what every buffer holds.

  The region's invariant tracks the three carried buffers: before the first position they hold anything; after
  position n they hold `Walk.stateAt n` — the running sum, the tile's last observations, the tile's last times. The
  proof data says each input window's buffer holds its block and the result window's buffer holds the running sum
  after every point. The body's obligation at a point is a case split on "first time tile or later": either way the
  matching run of the body applies, and what it stored reads back as the step function of the point's blocks (and
  of what the point before left). The launch theorem for a region followed by host lines then gives the run, and the
  frame claim is read off its post.
-/
import proofs.«154525_j39032662786269_1_alg».proof.Proof.KbPieces

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant, position by position -/

/-- Before position 0 the carried buffers hold anything; before position n + 1 they hold what position n left. -/
def PhiS (c : Dev nD) : (n : ℕ) → n ≤ cfg0.N → sProp 𝕄
  | 0, _ => Pipeline.ΦA spec0 c
  | n + 1, hn => iprop(iprop(owns (c : Thread nD τ) scAcc fullShare (Walk.stateAt m c n hn).1 ∗ owns (c : Thread nD τ) scObs fullShare (Walk.stateAt m c n hn).2.1 ∗ owns (c : Thread nD τ) scTimes fullShare (Walk.stateAt m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scAcc fullShare (Walk.stateAt m c n hn).1 ∗ owns (c : Thread nD τ) scObs fullShare (Walk.stateAt m c n hn).2.1 ∗ owns (c : Thread nD τ) scTimes fullShare (Walk.stateAt m c n hn).2.2) ∗ (∃ r, prngReg c r)) := rfl

theorem PhiS_pos (c : Dev nD) (n : ℕ) (h : n ≤ cfg0.N) (hz : n ≠ 0) :
    PhiS m c n h = iprop(iprop(owns (c : Thread nD τ) scAcc fullShare (Walk.stateAt m c (n - 1) (by omega)).1 ∗ owns (c : Thread nD τ) scObs fullShare (Walk.stateAt m c (n - 1) (by omega)).2.1 ∗ owns (c : Thread nD τ) scTimes fullShare (Walk.stateAt m c (n - 1) (by omega)).2.2) ∗ (∃ r, prngReg c r)) := by
  cases n with
  | zero => exact absurd rfl hz
  | succ n => rfl

/-! ## The proof data -/

/-- The arrays as the region finds them; after the body each input's buffer at its block and the result's at the
    running sum; the invariant the tracked one; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (Walk.stateAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (Walk.stateAt m c t.val t.isLt).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt0 t], after_0]
  rw [show (dats m 0 c).leavesExact 1 t = owns (c : Thread nD τ) (ms1 t) fullShare ((dats m 0 c).after 1 t) from by
    unfold Dat.leavesExact; rw [liveAt1 t], after_1]
  rw [show (dats m 0 c).leavesExact 2 t = owns (c : Thread nD τ) (ms2 t) fullShare ((dats m 0 c).after 2 t) from by
    unfold Dat.leavesExact; rw [liveAt2 t], after_2]
  rw [show (dats m 0 c).leavesExact 3 t = owns (c : Thread nD τ) (ms3 t) fullShare ((dats m 0 c).after 3 t) from by
    unfold Dat.leavesExact; rw [liveAt3 t], after_3]
  rw [show (dats m 0 c).leavesExact 4 t = owns (c : Thread nD τ) (ms4 t) fullShare ((dats m 0 c).after 4 t) from by
    unfold Dat.leavesExact; rw [liveAt4 t], after_4]
  rw [show (dats m 0 c).leavesExact 5 t = owns (c : Thread nD τ) (ms5 t) fullShare ((dats m 0 c).after 5 t) from by
    unfold Dat.leavesExact; rw [liveAt5 t], after_5]
  by_cases h0 : t.val % 32 = 0
  · rw [Walk.stateAt_first m c t h0]
    unfold Walk.firstAt; dsimp only
    by_cases hz : t.val = 0
    · rw [PhiS_castSucc m c t, PhiS_zero m c _ _ hz, PhiA_eq]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t)).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e7, H7⟩, ⟨%e8, H8⟩, ⟨%e9, H9⟩, ⟨%e10, H10⟩⟩
      isplitl [H8 H9 H10 Hg]
      · isplitr [Hg]
        · isplitl [H8]
          · unfold owns; iexists _; isplitr
            swap; · iexact H8
            ipureintro; exact (View.read_writes_eq_canon _ _ _ (coverFirst_acc c _ _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t))).trans (first_acc c _ _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t))
          isplitl [H9]
          · unfold owns; iexists _; isplitr
            swap; · iexact H9
            ipureintro; exact (View.read_writes_eq_canon _ _ _ (coverFirst_obs c _ _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t))).trans (first_obs c _ _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t))
          unfold owns; iexists _; isplitr
          swap; · iexact H10
          ipureintro; exact (View.read_writes_eq_canon _ _ _ (coverFirst_times c _ _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t))).trans (first_times c _ _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t))
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H7
      ipureintro; exact (View.read_writes_eq_canon _ _ _ (coverFirst_out c _ _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t))).trans (first_out c _ _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t))
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t)).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [HS1]; · iexists _; iexact HS1
      isplitl [HS2]; · iexists _; iexact HS2
      iintro ⟨H0, H1, H2, H3, H4, ⟨%e7, H7⟩, ⟨%e8, H8⟩, ⟨%e9, H9⟩, ⟨%e10, H10⟩⟩
      isplitl [H8 H9 H10 Hg]
      · isplitr [Hg]
        · isplitl [H8]
          · unfold owns; iexists _; isplitr
            swap; · iexact H8
            ipureintro; exact (View.read_writes_eq_canon _ _ _ (coverFirst_acc c _ _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t))).trans (first_acc c _ _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t))
          isplitl [H9]
          · unfold owns; iexists _; isplitr
            swap; · iexact H9
            ipureintro; exact (View.read_writes_eq_canon _ _ _ (coverFirst_obs c _ _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t))).trans (first_obs c _ _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t))
          unfold owns; iexists _; isplitr
          swap; · iexact H10
          ipureintro; exact (View.read_writes_eq_canon _ _ _ (coverFirst_times c _ _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t))).trans (first_times c _ _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t))
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H7
      ipureintro; exact (View.read_writes_eq_canon _ _ _ (coverFirst_out c _ _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t))).trans (first_out c _ _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t))
  · have hz : t.val ≠ 0 := fun h => h0 (by rw [h])
    rw [Walk.stateAt_next m c t h0]
    unfold Walk.nextAt; dsimp only
    rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply ((runLater c (grid0.coords t) _ _ _ _ _ _ _ _ _ _ _ _ _ _ _ _ _ _ (fun h => h0 ((hcondFirst t).mp h)) ((hcondLater t).mpr h0) (iblk m c 0 t) (iblk m c 1 t) (iblk m c 2 t) (iblk m c 3 t) (iblk m c 4 t) (Walk.stateAt m c (t.val - 1) (Nat.lt_of_le_of_lt (Nat.sub_le _ _) t.isLt)).1 (Walk.stateAt m c (t.val - 1) (Nat.lt_of_le_of_lt (Nat.sub_le _ _) t.isLt)).2.1 (Walk.stateAt m c (t.val - 1) (Nat.lt_of_le_of_lt (Nat.sub_le _ _) t.isLt)).2.2).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, ⟨%e7, H7⟩, ⟨%e8, H8⟩, ⟨%e9, H9⟩, ⟨%e10, H10⟩⟩
    isplitl [H8 H9 H10 Hg]
    · isplitr [Hg]
      · isplitl [H8]
        · unfold owns; iexists _; isplitr
          swap; · iexact H8
          ipureintro; exact (View.read_writes_eq_canon _ _ _ (coverLater_acc c _ _ _ _ _ _ _ _ _ _ _ _ _ _ _ _ _ _ _ (fun h => h0 ((hcondFirst t).mp h)) ((hcondLater t).mpr h0) (iblk m c 0 t) (iblk m c 1 t) (iblk m c 2 t) (iblk m c 3 t) (iblk m c 4 t) (Walk.stateAt m c (t.val - 1) (Nat.lt_of_le_of_lt (Nat.sub_le _ _) t.isLt)).1 (Walk.stateAt m c (t.val - 1) (Nat.lt_of_le_of_lt (Nat.sub_le _ _) t.isLt)).2.1 (Walk.stateAt m c (t.val - 1) (Nat.lt_of_le_of_lt (Nat.sub_le _ _) t.isLt)).2.2)).trans (later_acc c _ _ _ _ _ _ _ _ _ _ _ _ _ _ _ _ _ _ _ (fun h => h0 ((hcondFirst t).mp h)) ((hcondLater t).mpr h0) (iblk m c 0 t) (iblk m c 1 t) (iblk m c 2 t) (iblk m c 3 t) (iblk m c 4 t) (Walk.stateAt m c (t.val - 1) (Nat.lt_of_le_of_lt (Nat.sub_le _ _) t.isLt)).1 (Walk.stateAt m c (t.val - 1) (Nat.lt_of_le_of_lt (Nat.sub_le _ _) t.isLt)).2.1 (Walk.stateAt m c (t.val - 1) (Nat.lt_of_le_of_lt (Nat.sub_le _ _) t.isLt)).2.2)
        isplitl [H9]
        · unfold owns; iexists _; isplitr
          swap; · iexact H9
          ipureintro; exact (View.read_writes_eq_canon _ _ _ (coverLater_obs c _ _ _ _ _ _ _ _ _ _ _ _ _ _ _ _ _ _ _ (fun h => h0 ((hcondFirst t).mp h)) ((hcondLater t).mpr h0) (iblk m c 0 t) (iblk m c 1 t) (iblk m c 2 t) (iblk m c 3 t) (iblk m c 4 t) (Walk.stateAt m c (t.val - 1) (Nat.lt_of_le_of_lt (Nat.sub_le _ _) t.isLt)).1 (Walk.stateAt m c (t.val - 1) (Nat.lt_of_le_of_lt (Nat.sub_le _ _) t.isLt)).2.1 (Walk.stateAt m c (t.val - 1) (Nat.lt_of_le_of_lt (Nat.sub_le _ _) t.isLt)).2.2)).trans (later_obs c _ _ _ _ _ _ _ _ _ _ _ _ _ _ _ _ _ _ _ (fun h => h0 ((hcondFirst t).mp h)) ((hcondLater t).mpr h0) (iblk m c 0 t) (iblk m c 1 t) (iblk m c 2 t) (iblk m c 3 t) (iblk m c 4 t) (Walk.stateAt m c (t.val - 1) (Nat.lt_of_le_of_lt (Nat.sub_le _ _) t.isLt)).1 (Walk.stateAt m c (t.val - 1) (Nat.lt_of_le_of_lt (Nat.sub_le _ _) t.isLt)).2.1 (Walk.stateAt m c (t.val - 1) (Nat.lt_of_le_of_lt (Nat.sub_le _ _) t.isLt)).2.2)
        unfold owns; iexists _; isplitr
        swap; · iexact H10
        ipureintro; exact (View.read_writes_eq_canon _ _ _ (coverLater_times c _ _ _ _ _ _ _ _ _ _ _ _ _ _ _ _ _ _ _ (fun h => h0 ((hcondFirst t).mp h)) ((hcondLater t).mpr h0) (iblk m c 0 t) (iblk m c 1 t) (iblk m c 2 t) (iblk m c 3 t) (iblk m c 4 t) (Walk.stateAt m c (t.val - 1) (Nat.lt_of_le_of_lt (Nat.sub_le _ _) t.isLt)).1 (Walk.stateAt m c (t.val - 1) (Nat.lt_of_le_of_lt (Nat.sub_le _ _) t.isLt)).2.1 (Walk.stateAt m c (t.val - 1) (Nat.lt_of_le_of_lt (Nat.sub_le _ _) t.isLt)).2.2)).trans (later_times c _ _ _ _ _ _ _ _ _ _ _ _ _ _ _ _ _ _ _ (fun h => h0 ((hcondFirst t).mp h)) ((hcondLater t).mpr h0) (iblk m c 0 t) (iblk m c 1 t) (iblk m c 2 t) (iblk m c 3 t) (iblk m c 4 t) (Walk.stateAt m c (t.val - 1) (Nat.lt_of_le_of_lt (Nat.sub_le _ _) t.isLt)).1 (Walk.stateAt m c (t.val - 1) (Nat.lt_of_le_of_lt (Nat.sub_le _ _) t.isLt)).2.1 (Walk.stateAt m c (t.val - 1) (Nat.lt_of_le_of_lt (Nat.sub_le _ _) t.isLt)).2.2)
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H7
    ipureintro; exact (View.read_writes_eq_canon _ _ _ (coverLater_out c _ _ _ _ _ _ _ _ _ _ _ _ _ _ _ _ _ _ _ (fun h => h0 ((hcondFirst t).mp h)) ((hcondLater t).mpr h0) (iblk m c 0 t) (iblk m c 1 t) (iblk m c 2 t) (iblk m c 3 t) (iblk m c 4 t) (Walk.stateAt m c (t.val - 1) (Nat.lt_of_le_of_lt (Nat.sub_le _ _) t.isLt)).1 (Walk.stateAt m c (t.val - 1) (Nat.lt_of_le_of_lt (Nat.sub_le _ _) t.isLt)).2.1 (Walk.stateAt m c (t.val - 1) (Nat.lt_of_le_of_lt (Nat.sub_le _ _) t.isLt)).2.2)).trans (later_out c _ _ _ _ _ _ _ _ _ _ _ _ _ _ _ _ _ _ _ (fun h => h0 ((hcondFirst t).mp h)) ((hcondLater t).mpr h0) (iblk m c 0 t) (iblk m c 1 t) (iblk m c 2 t) (iblk m c 3 t) (iblk m c 4 t) (Walk.stateAt m c (t.val - 1) (Nat.lt_of_le_of_lt (Nat.sub_le _ _) t.isLt)).1 (Walk.stateAt m c (t.val - 1) (Nat.lt_of_le_of_lt (Nat.sub_le _ _) t.isLt)).2.1 (Walk.stateAt m c (t.val - 1) (Nat.lt_of_le_of_lt (Nat.sub_le _ _) t.isLt)).2.2)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class's back: the carried buffers' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates, and every final state has every array of the pipeline at what
    the library computes from the proof data and every other unscoped buffer at what the host lines after the region
    leave of the region's exit contents. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's post, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body

end
-- ==== Proof.OuStep.lean ====
/-
  One grid point of the kernel, as pure functions of what it reads.

  A point reads its block of observations `x0` (128 batch rows × 32 time rows × 256 dimensions), its block of times
  `x1` (32 × 256), the three parameter rows `x2` (μ), `x3` (κ), `x4` (σ), and — at every time tile but the first —
  what the point before left in the three carried buffers: the running sum `s0` (128 × 1), the previous tile's last
  observations `s1` (128 × 256) and last times `s2` (1 × 256).
  At the FIRST time tile the running sum starts from zero, takes the 31 in-tile pairs and then the stationary term
  of the tile's first row (`accFirst`); at a LATER tile it takes the 31 in-tile pairs and then the pair bridging the
  previous tile's last row to this tile's first (`accNext`). Either way the point leaves its last row of observations
  and of times behind (`lastObs`, `lastTimes`). Each is the composition of the body's named payloads in the order
  the body computes them.
-/
import proofs.«154525_j39032662786269_1_alg».proof.Proof.Gen.KernelIdeal.Skeleton

noncomputable section

namespace Cert.KernelIdeal.Step

open Cert.KernelIdeal Cert.KernelIdeal.Gen Idealize.ShloMosaic

variable {F : FTy → Type} [FloatOps F]

/-- The running sum after the 31 pairs inside the tile, from the running sum `s` before them. -/
def accPairs (x0 : Vec F S128x32x256 .f32) (x1 : Vec F S32x256 .f32) (x2 x3 x4 : Vec F S256 .f32) (s : Vec F S128x1 .f32) :
    Vec F S128x1 .f32 :=
  k0_pay13 (k0_pay3 x3) (k0_pay8 x0) (k0_pay10 x2 x3 x0 x1) (k0_pay11 x3 x1) (k0_pay12 x4) s

/-- The running sum a FIRST time tile leaves: zero, plus the in-tile pairs, plus the stationary term of row 0. -/
def accFirst (x0 : Vec F S128x32x256 .f32) (x1 : Vec F S32x256 .f32) (x2 x3 x4 : Vec F S256 .f32) : Vec F S128x1 .f32 :=
  k0_pay18 x2 (k0_pay3 x3) (k0_pay4 x4) (k0_pay14 x0) (accPairs x0 x1 x2 x3 x4 k0_pay5)

/-- The running sum a LATER time tile leaves: what it found, plus the in-tile pairs, plus the pair bridging the
    previous tile's last row (`s1` at time `s2`) to this tile's row 0. -/
def accNext (x0 : Vec F S128x32x256 .f32) (x1 : Vec F S32x256 .f32) (x2 x3 x4 : Vec F S256 .f32)
    (s0 : Vec F S128x1 .f32) (s1 : Vec F S128x256 .f32) (s2 : Vec F S1x256 .f32) : Vec F S128x1 .f32 :=
  k0_pay17 x2 (k0_pay3 x3) (k0_pay4 x4) (k0_pay14 x0) s1 (k0_pay15 x1 s2) (k0_pay16 (k0_pay3 x3) x1 s2)
    (accPairs x0 x1 x2 x3 x4 s0)

/-- The tile's last row of observations, kept for the next tile. -/
def lastObs (x0 : Vec F S128x32x256 .f32) : Vec F S128x256 .f32 := k0_pay1 (k0_pay19 x0)

/-- The tile's last row of times, kept for the next tile. -/
def lastTimes (x1 : Vec F S32x256 .f32) : Vec F S1x256 .f32 := k0_pay2 x1

end Cert.KernelIdeal.Step

end
-- ==== Proof.OuWalk.lean ====
/-
  The kernel's walk over its grid, as pure data: what the three carried buffers hold after each grid position.

  The grid has 2 × 32 points, walked in order: position n is batch tile n / 32, time tile n % 32. A batch tile's
  FIRST time tile (n % 32 = 0) starts the running sum afresh (`accFirst` of the point's blocks); every later one
  continues from what the position before left (`accNext`). Every point leaves its last row of observations and of
  times for the next. The result window's staging buffer holds the running sum after every point, and is written
  back after a batch tile's last time tile.
-/
import proofs.«154525_j39032662786269_1_alg».proof.Proof.Gen.KernelIdeal.Frame
import proofs.«154525_j39032662786269_1_alg».proof.Proof.OuStep

noncomputable section

namespace Cert.KernelIdeal.Walk

open Cert.KernelIdeal Cert.KernelIdeal.Gen Cert.KernelIdeal.Step Idealize.ShloMosaic Idealize.ShloMosaic.TcCoe

variable {F : FTy → Type} [FloatOps F]

variable (m : (ℓ : Loc nD τ sig) → Buf (Elt F) ℓ)

/-- The three carried buffers: the running sum, the last observations, the last times. -/
abbrev Carried (F : FTy → Type) [FloatOps F] : Type := Vec F S128x1 .f32 × Vec F S128x256 .f32 × Vec F S1x256 .f32

/-- What a first time tile at point `t` leaves. -/
def firstAt (c : Dev nD) (t : Fin cfg0.N) : Carried F :=
  (accFirst (iblk m c 0 t) (iblk m c 1 t) (iblk m c 2 t) (iblk m c 3 t) (iblk m c 4 t), lastObs (iblk m c 0 t), lastTimes (iblk m c 1 t))

/-- What a later time tile at point `t` leaves, from what the point before left. -/
def nextAt (c : Dev nD) (t : Fin cfg0.N) (s : Carried F) : Carried F :=
  (accNext (iblk m c 0 t) (iblk m c 1 t) (iblk m c 2 t) (iblk m c 3 t) (iblk m c 4 t) s.1 s.2.1 s.2.2, lastObs (iblk m c 0 t), lastTimes (iblk m c 1 t))

/-- What the carried buffers hold after the body at position `n`. -/
def stateAt (c : Dev nD) : (n : ℕ) → n < cfg0.N → Carried F
  | 0, hn => firstAt m c ⟨0, hn⟩
  | n + 1, hn => if (n + 1) % 32 = 0 then firstAt m c ⟨n + 1, hn⟩ else nextAt m c ⟨n + 1, hn⟩ (stateAt c n (Nat.lt_of_succ_lt hn))

theorem stateAt_first (c : Dev nD) (t : Fin cfg0.N) (h : t.val % 32 = 0) : stateAt m c t.val t.isLt = firstAt m c t := by
  obtain ⟨n, hn⟩ := t
  cases n with
  | zero => rfl
  | succ n => exact if_pos h

theorem stateAt_next (c : Dev nD) (t : Fin cfg0.N) (h : ¬t.val % 32 = 0) :
    stateAt m c t.val t.isLt = nextAt m c t (stateAt m c (t.val - 1) (Nat.lt_of_le_of_lt (Nat.sub_le _ _) t.isLt)) := by
  obtain ⟨n, hn⟩ := t
  cases n with
  | zero => exact absurd (Nat.zero_mod _) h
  | succ n => exact if_neg h

end Cert.KernelIdeal.Walk

end
-- ==== Proof.OuRuns.lean ====
/-
  What the two runs of the kernel body share.

  The body branches three times on its time-tile coordinate: "is it the first tile" (twice: to reset the carried
  buffers, and to add the stationary term) and "is it a later tile" (to add the bridging pair). Over the 2 × 32 grid
  the first holds exactly at the positions divisible by 32 and the second exactly at the others, so every point is
  in one of two cases. Here: the two conditions as the body computes them and their closed forms over the grid; the
  windows are never idle; the staging memrefs at a point and the three scratch buffers as whole memrefs; and the
  region's invariant restated as those three buffers held whole at some contents, beside the generator register.
-/
import proofs.«154525_j39032662786269_1_alg».proof.Proof.Gen.KernelIdeal.Frame
import proofs.«154525_j39032662786269_1_alg».proof.Proof.Gen.KernelIdeal.Skeleton
import proofs.«154525_j39032662786269_1_alg».proof.Proof.OuWalk
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- "This is the first time tile", as the body computes it from the grid coordinates. -/
abbrev condFirst (i : grid0.Coords) : Prop := (Scalar.cmpi .ne (Scalar.extui (Scalar.cmpi .eq (BitVec.ofNat 32 (i 1).val) 0#32)) 0#32) = 1#1
/-- It holds at the positions divisible by 32 — decided over the grid. -/
theorem hcondFirst : ∀ t : Fin cfg0.N, condFirst (grid0.coords t) ↔ t.val % 32 = 0 :=
  (by decide +kernel : ∀ t : Fin grid0.N, condFirst (grid0.coords t) ↔ t.val % 32 = 0)

/-- "This is a later time tile", as the body computes it. -/
abbrev condLater (i : grid0.Coords) : Prop := (Scalar.cmpi .ne (Scalar.extui (Scalar.cmpi .sgt (BitVec.ofNat 32 (i 1).val) 0#32)) 0#32) = 1#1
/-- It holds at the other positions — decided over the grid. -/
theorem hcondLater : ∀ t : Fin cfg0.N, condLater (grid0.coords t) ↔ ¬t.val % 32 = 0 :=
  (by decide +kernel : ∀ t : Fin grid0.N, condLater (grid0.coords t) ↔ ¬t.val % 32 = 0)

/-! ## No window is ever idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel

/-! ## The memrefs the body is called with -/

abbrev ms0 (t : Fin cfg0.N) : Memref sig .tc .vmem S128x32x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x1 .f32 := win0_5.stage (cfg0.slots t 5)
abbrev hs5 (t : Fin cfg0.N) : (ms5 t).IsWhole := hstage0_5 ((cfg0.slots t 5).cast nbuf0_5)

/-- The three carried buffers: whole scoped buffers of the kernel's own. -/
abbrev scAcc : Memref sig .tc .vmem S128x1 .f32 := Memref.whole cc0_scratch0
abbrev scObs : Memref sig .tc .vmem S128x256 .f32 := Memref.whole cc0_scratch1
abbrev scTimes : Memref sig .tc .vmem S1x256 .f32 := Memref.whole cc0_scratch2

/-- The region's invariant: the three carried buffers owned whole at some contents, and the generator register. -/
theorem PhiA_eq (c : Dev nD) :
    (Pipeline.ΦA spec0 c : sProp 𝕄)
      = iprop(iprop((∃ d, owns (c : Thread nD τ) scAcc fullShare d) ∗ (∃ d, owns (c : Thread nD τ) scObs fullShare d) ∗ (∃ d, owns (c : Thread nD τ) scTimes fullShare d)) ∗ (∃ r, prngReg c r)) := by
  unfold Pipeline.ΦA; rw [scopedRest0_eq]; simp only [scAcc, scObs, scTimes, owns_whole]; try rfl

end Cert.KernelIdeal.Body

end
-- ==== Proof.OuRunFirst.lean ====
/-
  The kernel body at a FIRST time tile, run once on any whole memrefs.

  From the five input blocks held at their contents and the result's buffer and the three carried buffers held at
  anything, the body runs to its end with the inputs as they were and each of the other four buffers holding what it
  was handed overwritten by a list of stored pieces (last first) — the lists are what the run finds: the carried
  buffers are reset, the 31 in-tile pairs and the stationary term are added to the running sum, the tile's last
  rows are kept, and the running sum is copied to the result's buffer.
-/
import proofs.«154525_j39032662786269_1_alg».proof.Proof.OuRuns

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFirst (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : condFirst i) (hc1 : ¬condLater i)
    (x0 : Vec F S128x32x256 .f32) (x1 : Vec F S32x256 .f32) (x2 x3 x4 : Vec F S256 .f32) :
    Σ' (L7 : List (View.Piece (Elt F) S128x1 .f32)) (L8 : List (View.Piece (Elt F) S128x1 .f32)) (L9 : List (View.Piece (Elt F) S128x256 .f32)),
      { L10 : List (View.Piece (Elt F) S1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)) -∗ K ⟨⟩))
          ⊢ wp frame (wpE (defs₀ (F := F)) Variants.none c none) E (cc0__ou_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__ou_kernel_eq_skeleton]; unfold cc0__ou_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]; · iexists _; iexact H7
    isplitl [H8]; · iexists _; iexact H8
    isplitl [H9]; · iexists _; iexact H9
    iexists _; iexact H10

end Cert.KernelIdeal.Body

end
-- ==== Proof.OuRunLater.lean ====
/-
  The kernel body at a LATER time tile, run once on any whole memrefs.

  From the five input blocks held at their contents, the result's buffer held at anything and the three carried
  buffers held at what the point before left (`xs0`, `xs1`, `xs2`), the body runs to its end with the inputs as they
  were and each of the other four buffers holding what it was handed overwritten by a list of stored pieces (last
  first) — the lists are what the run finds: the 31 in-tile pairs and the pair bridging the previous tile are added
  to the running sum, the tile's last rows are kept, and the running sum is copied to the result's buffer.
-/
import proofs.«154525_j39032662786269_1_alg».proof.Proof.OuRunFirst

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runLater (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : ¬condFirst i) (hc1 : condLater i)
    (x0 : Vec F S128x32x256 .f32) (x1 : Vec F S32x256 .f32) (x2 x3 x4 : Vec F S256 .f32)
    (xs0 : Vec F S128x1 .f32) (xs1 : Vec F S128x256 .f32) (xs2 : Vec F S1x256 .f32) :
    Σ' (L7 : List (View.Piece (Elt F) S128x1 .f32)) (L8 : List (View.Piece (Elt F) S128x1 .f32)) (L9 : List (View.Piece (Elt F) S128x256 .f32)),
      { L10 : List (View.Piece (Elt F) S1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)) -∗ K ⟨⟩))
          ⊢ wp frame (wpE (defs₀ (F := F)) Variants.none c none) E (cc0__ou_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__ou_kernel_eq_skeleton]; unfold cc0__ou_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hf8; obtain rfl := harg9.eq_unread hf9; obtain rfl := harg10.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]; · iexists _; iexact H7
    isplitl [H8]; · iexists _; iexact H8
    isplitl [H9]; · iexists _; iexact H9
    iexists _; iexact H10

end Cert.KernelIdeal.Body

end
-- ==== Proof.OuPieces.lean ====
/-
  What the two runs of the body leave, read back.

  Every store of the body goes through the whole-buffer rectangle of its buffer, so after any number of them the
  buffer reads as the LAST store's payload, and a load between two stores reads the payload of the store before it.
  Read that way, the pieces each run found are the step functions of the point's blocks: the running sum
  (`Step.accFirst` / `Step.accNext`, also what the result's buffer ends with), the tile's last observations
  (`Step.lastObs`) and last times (`Step.lastTimes`). Each list of pieces covers its buffer.
-/
import proofs.«154525_j39032662786269_1_alg».proof.Proof.OuRunLater
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Step

theorem hz1 : (![0] : Fin 1 → ℕ) = fun _ => 0 := funext fun a => by fin_cases a; rfl
theorem hz2 : (![0, 0] : Fin 2 → ℕ) = fun _ => 0 := funext fun a => by fin_cases a <;> rfl
theorem hz3 : (![0, 0, 0] : Fin 3 → ℕ) = fun _ => 0 := funext fun a => by fin_cases a <;> rfl

/-- A load through the whole-buffer rectangle after stores of which the LAST went through it reads that store's payload. -/
theorem readCov_cons_unit_zero {Val : EltTy → Type} [∀ e, Nonempty (Val e)] {sig' : RefSig} {κ : Kind} {sp : Space} {S : Shape} {e : EltTy}
    (v : View sig' κ sp S e) {off : Fin S.rank → ℕ} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩), View.canon_cons_unit_zero rfl,
    View.ld_unit_zero rfl]

/-! ## A first time tile -/

theorem coverFirst_out (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : condFirst i) (hc1 : ¬condLater i)
    (x0 : Vec F S128x32x256 .f32) (x1 : Vec F S32x256 .f32) (x2 x3 x4 : Vec F S256 .f32) (y : S128x1.Idx) :
    ∃ pc ∈ (runFirst c i arg2 harg2 arg3 harg3 arg4 harg4 arg5 harg5 arg6 harg6 arg7 harg7 arg8 harg8 arg9 harg9 arg10 harg10 hc0 hc1 x0 x1 x2 x3 x4).1, y ∈ pc.1.set :=
  View.cover_of_tiledL (runFirst c i arg2 harg2 arg3 harg3 arg4 harg4 arg5 harg5 arg6 harg6 arg7 harg7 arg8 harg8 arg9 harg9 arg10 harg10 hc0 hc1 x0 x1 x2 x3 x4).1 S128x1.size (by sl_kernel_rfl) y

theorem first_out (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : condFirst i) (hc1 : ¬condLater i)
    (x0 : Vec F S128x32x256 .f32) (x1 : Vec F S32x256 .f32) (x2 x3 x4 : Vec F S256 .f32) :
    View.canon (runFirst c i arg2 harg2 arg3 harg3 arg4 harg4 arg5 harg5 arg6 harg6 arg7 harg7 arg8 harg8 arg9 harg9 arg10 harg10 hc0 hc1 x0 x1 x2 x3 x4).1 = accFirst x0 x1 x2 x3 x4 := by
  unfold runFirst
  dsimp only
  sl_unfold_words
  simp only [View.canon_cons_unit_zero (S := S128x1) hz2, View.canon_cons_unit_zero (S := S128x256) hz2, View.canon_cons_unit_zero (S := S1x256) hz2,
    readCov_cons_unit_zero (S := S128x1) _ hz2, readCov_cons_unit_zero (S := S128x256) _ hz2, readCov_cons_unit_zero (S := S1x256) _ hz2, View.readAt_eq_ld,
    harg2.read_unread, harg3.read_unread, harg4.read_unread, harg5.read_unread, harg6.read_unread,
    View.ld_unit_zero (S := S256) hz1, View.ld_unit_zero (S := S32x256) hz2, View.ld_unit_zero (S := S128x32x256) hz3,
    View.ld_unit_zero (S := S128x1) hz2, View.ld_unit_zero (S := S128x256) hz2, View.ld_unit_zero (S := S1x256) hz2]
  rfl

theorem coverFirst_acc (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : condFirst i) (hc1 : ¬condLater i)
    (x0 : Vec F S128x32x256 .f32) (x1 : Vec F S32x256 .f32) (x2 x3 x4 : Vec F S256 .f32) (y : S128x1.Idx) :
    ∃ pc ∈ (runFirst c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (runFirst c i arg2 harg2 arg3 harg3 arg4 harg4 arg5 harg5 arg6 harg6 arg7 harg7 arg8 harg8 arg9 harg9 arg10 harg10 hc0 hc1 x0 x1 x2 x3 x4).2.1 S128x1.size (by sl_kernel_rfl) y

theorem first_acc (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : condFirst i) (hc1 : ¬condLater i)
    (x0 : Vec F S128x32x256 .f32) (x1 : Vec F S32x256 .f32) (x2 x3 x4 : Vec F S256 .f32) :
    View.canon (runFirst c i arg2 harg2 arg3 harg3 arg4 harg4 arg5 harg5 arg6 harg6 arg7 harg7 arg8 harg8 arg9 harg9 arg10 harg10 hc0 hc1 x0 x1 x2 x3 x4).2.1 = accFirst x0 x1 x2 x3 x4 := by
  unfold runFirst
  dsimp only
  sl_unfold_words
  simp only [View.canon_cons_unit_zero (S := S128x1) hz2, View.canon_cons_unit_zero (S := S128x256) hz2, View.canon_cons_unit_zero (S := S1x256) hz2,
    readCov_cons_unit_zero (S := S128x1) _ hz2, readCov_cons_unit_zero (S := S128x256) _ hz2, readCov_cons_unit_zero (S := S1x256) _ hz2, View.readAt_eq_ld,
    harg2.read_unread, harg3.read_unread, harg4.read_unread, harg5.read_unread, harg6.read_unread,
    View.ld_unit_zero (S := S256) hz1, View.ld_unit_zero (S := S32x256) hz2, View.ld_unit_zero (S := S128x32x256) hz3,
    View.ld_unit_zero (S := S128x1) hz2, View.ld_unit_zero (S := S128x256) hz2, View.ld_unit_zero (S := S1x256) hz2]
  rfl

theorem coverFirst_obs (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : condFirst i) (hc1 : ¬condLater i)
    (x0 : Vec F S128x32x256 .f32) (x1 : Vec F S32x256 .f32) (x2 x3 x4 : Vec F S256 .f32) (y : S128x256.Idx) :
    ∃ pc ∈ (runFirst c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (runFirst c i arg2 harg2 arg3 harg3 arg4 harg4 arg5 harg5 arg6 harg6 arg7 harg7 arg8 harg8 arg9 harg9 arg10 harg10 hc0 hc1 x0 x1 x2 x3 x4).2.2.1 S128x256.size (by sl_kernel_rfl) y

theorem first_obs (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : condFirst i) (hc1 : ¬condLater i)
    (x0 : Vec F S128x32x256 .f32) (x1 : Vec F S32x256 .f32) (x2 x3 x4 : Vec F S256 .f32) :
    View.canon (runFirst c i arg2 harg2 arg3 harg3 arg4 harg4 arg5 harg5 arg6 harg6 arg7 harg7 arg8 harg8 arg9 harg9 arg10 harg10 hc0 hc1 x0 x1 x2 x3 x4).2.2.1 = lastObs x0 := by
  unfold runFirst
  dsimp only
  sl_unfold_words
  simp only [View.canon_cons_unit_zero (S := S128x1) hz2, View.canon_cons_unit_zero (S := S128x256) hz2, View.canon_cons_unit_zero (S := S1x256) hz2,
    readCov_cons_unit_zero (S := S128x1) _ hz2, readCov_cons_unit_zero (S := S128x256) _ hz2, readCov_cons_unit_zero (S := S1x256) _ hz2, View.readAt_eq_ld,
    harg2.read_unread, harg3.read_unread, harg4.read_unread, harg5.read_unread, harg6.read_unread,
    View.ld_unit_zero (S := S256) hz1, View.ld_unit_zero (S := S32x256) hz2, View.ld_unit_zero (S := S128x32x256) hz3,
    View.ld_unit_zero (S := S128x1) hz2, View.ld_unit_zero (S := S128x256) hz2, View.ld_unit_zero (S := S1x256) hz2]
  rfl

theorem coverFirst_times (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : condFirst i) (hc1 : ¬condLater i)
    (x0 : Vec F S128x32x256 .f32) (x1 : Vec F S32x256 .f32) (x2 x3 x4 : Vec F S256 .f32) (y : S1x256.Idx) :
    ∃ pc ∈ (runFirst c i arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (runFirst c i arg2 harg2 arg3 harg3 arg4 harg4 arg5 harg5 arg6 harg6 arg7 harg7 arg8 harg8 arg9 harg9 arg10 harg10 hc0 hc1 x0 x1 x2 x3 x4).2.2.2.1 S1x256.size (by sl_kernel_rfl) y

theorem first_times (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : condFirst i) (hc1 : ¬condLater i)
    (x0 : Vec F S128x32x256 .f32) (x1 : Vec F S32x256 .f32) (x2 x3 x4 : Vec F S256 .f32) :
    View.canon (runFirst c i arg2 harg2 arg3 harg3 arg4 harg4 arg5 harg5 arg6 harg6 arg7 harg7 arg8 harg8 arg9 harg9 arg10 harg10 hc0 hc1 x0 x1 x2 x3 x4).2.2.2.1 = lastTimes x1 := by
  unfold runFirst
  dsimp only
  sl_unfold_words
  simp only [View.canon_cons_unit_zero (S := S128x1) hz2, View.canon_cons_unit_zero (S := S128x256) hz2, View.canon_cons_unit_zero (S := S1x256) hz2,
    readCov_cons_unit_zero (S := S128x1) _ hz2, readCov_cons_unit_zero (S := S128x256) _ hz2, readCov_cons_unit_zero (S := S1x256) _ hz2, View.readAt_eq_ld,
    harg2.read_unread, harg3.read_unread, harg4.read_unread, harg5.read_unread, harg6.read_unread,
    View.ld_unit_zero (S := S256) hz1, View.ld_unit_zero (S := S32x256) hz2, View.ld_unit_zero (S := S128x32x256) hz3,
    View.ld_unit_zero (S := S128x1) hz2, View.ld_unit_zero (S := S128x256) hz2, View.ld_unit_zero (S := S1x256) hz2]
  rfl

/-! ## A later time tile -/

theorem coverLater_out (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : ¬condFirst i) (hc1 : condLater i)
    (x0 : Vec F S128x32x256 .f32) (x1 : Vec F S32x256 .f32) (x2 x3 x4 : Vec F S256 .f32)
    (xs0 : Vec F S128x1 .f32) (xs1 : Vec F S128x256 .f32) (xs2 : Vec F S1x256 .f32) (y : S128x1.Idx) :
    ∃ pc ∈ (runLater c i arg2 harg2 arg3 harg3 arg4 harg4 arg5 harg5 arg6 harg6 arg7 harg7 arg8 harg8 arg9 harg9 arg10 harg10 hc0 hc1 x0 x1 x2 x3 x4 xs0 xs1 xs2).1, y ∈ pc.1.set :=
  View.cover_of_tiledL (runLater c i arg2 harg2 arg3 harg3 arg4 harg4 arg5 harg5 arg6 harg6 arg7 harg7 arg8 harg8 arg9 harg9 arg10 harg10 hc0 hc1 x0 x1 x2 x3 x4 xs0 xs1 xs2).1 S128x1.size (by sl_kernel_rfl) y

theorem later_out (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : ¬condFirst i) (hc1 : condLater i)
    (x0 : Vec F S128x32x256 .f32) (x1 : Vec F S32x256 .f32) (x2 x3 x4 : Vec F S256 .f32)
    (xs0 : Vec F S128x1 .f32) (xs1 : Vec F S128x256 .f32) (xs2 : Vec F S1x256 .f32) :
    View.canon (runLater c i arg2 harg2 arg3 harg3 arg4 harg4 arg5 harg5 arg6 harg6 arg7 harg7 arg8 harg8 arg9 harg9 arg10 harg10 hc0 hc1 x0 x1 x2 x3 x4 xs0 xs1 xs2).1 = accNext x0 x1 x2 x3 x4 xs0 xs1 xs2 := by
  unfold runLater
  dsimp only
  sl_unfold_words
  simp only [View.canon_cons_unit_zero (S := S128x1) hz2, View.canon_cons_unit_zero (S := S128x256) hz2, View.canon_cons_unit_zero (S := S1x256) hz2,
    readCov_cons_unit_zero (S := S128x1) _ hz2, readCov_cons_unit_zero (S := S128x256) _ hz2, readCov_cons_unit_zero (S := S1x256) _ hz2, View.readAt_eq_ld,
    harg2.read_unread, harg3.read_unread, harg4.read_unread, harg5.read_unread, harg6.read_unread, harg8.read_unread, harg9.read_unread, harg10.read_unread,
    View.ld_unit_zero (S := S256) hz1, View.ld_unit_zero (S := S32x256) hz2, View.ld_unit_zero (S := S128x32x256) hz3,
    View.ld_unit_zero (S := S128x1) hz2, View.ld_unit_zero (S := S128x256) hz2, View.ld_unit_zero (S := S1x256) hz2]
  rfl

theorem coverLater_acc (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : ¬condFirst i) (hc1 : condLater i)
    (x0 : Vec F S128x32x256 .f32) (x1 : Vec F S32x256 .f32) (x2 x3 x4 : Vec F S256 .f32)
    (xs0 : Vec F S128x1 .f32) (xs1 : Vec F S128x256 .f32) (xs2 : Vec F S1x256 .f32) (y : S128x1.Idx) :
    ∃ pc ∈ (runLater c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL (runLater c i arg2 harg2 arg3 harg3 arg4 harg4 arg5 harg5 arg6 harg6 arg7 harg7 arg8 harg8 arg9 harg9 arg10 harg10 hc0 hc1 x0 x1 x2 x3 x4 xs0 xs1 xs2).2.1 S128x1.size (by sl_kernel_rfl) y

theorem later_acc (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : ¬condFirst i) (hc1 : condLater i)
    (x0 : Vec F S128x32x256 .f32) (x1 : Vec F S32x256 .f32) (x2 x3 x4 : Vec F S256 .f32)
    (xs0 : Vec F S128x1 .f32) (xs1 : Vec F S128x256 .f32) (xs2 : Vec F S1x256 .f32) :
    View.canon (runLater c i arg2 harg2 arg3 harg3 arg4 harg4 arg5 harg5 arg6 harg6 arg7 harg7 arg8 harg8 arg9 harg9 arg10 harg10 hc0 hc1 x0 x1 x2 x3 x4 xs0 xs1 xs2).2.1 = accNext x0 x1 x2 x3 x4 xs0 xs1 xs2 := by
  unfold runLater
  dsimp only
  sl_unfold_words
  simp only [View.canon_cons_unit_zero (S := S128x1) hz2, View.canon_cons_unit_zero (S := S128x256) hz2, View.canon_cons_unit_zero (S := S1x256) hz2,
    readCov_cons_unit_zero (S := S128x1) _ hz2, readCov_cons_unit_zero (S := S128x256) _ hz2, readCov_cons_unit_zero (S := S1x256) _ hz2, View.readAt_eq_ld,
    harg2.read_unread, harg3.read_unread, harg4.read_unread, harg5.read_unread, harg6.read_unread, harg8.read_unread, harg9.read_unread, harg10.read_unread,
    View.ld_unit_zero (S := S256) hz1, View.ld_unit_zero (S := S32x256) hz2, View.ld_unit_zero (S := S128x32x256) hz3,
    View.ld_unit_zero (S := S128x1) hz2, View.ld_unit_zero (S := S128x256) hz2, View.ld_unit_zero (S := S1x256) hz2]
  rfl

theorem coverLater_obs (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : ¬condFirst i) (hc1 : condLater i)
    (x0 : Vec F S128x32x256 .f32) (x1 : Vec F S32x256 .f32) (x2 x3 x4 : Vec F S256 .f32)
    (xs0 : Vec F S128x1 .f32) (xs1 : Vec F S128x256 .f32) (xs2 : Vec F S1x256 .f32) (y : S128x256.Idx) :
    ∃ pc ∈ (runLater c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL (runLater c i arg2 harg2 arg3 harg3 arg4 harg4 arg5 harg5 arg6 harg6 arg7 harg7 arg8 harg8 arg9 harg9 arg10 harg10 hc0 hc1 x0 x1 x2 x3 x4 xs0 xs1 xs2).2.2.1 S128x256.size (by sl_kernel_rfl) y

theorem later_obs (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : ¬condFirst i) (hc1 : condLater i)
    (x0 : Vec F S128x32x256 .f32) (x1 : Vec F S32x256 .f32) (x2 x3 x4 : Vec F S256 .f32)
    (xs0 : Vec F S128x1 .f32) (xs1 : Vec F S128x256 .f32) (xs2 : Vec F S1x256 .f32) :
    View.canon (runLater c i arg2 harg2 arg3 harg3 arg4 harg4 arg5 harg5 arg6 harg6 arg7 harg7 arg8 harg8 arg9 harg9 arg10 harg10 hc0 hc1 x0 x1 x2 x3 x4 xs0 xs1 xs2).2.2.1 = lastObs x0 := by
  unfold runLater
  dsimp only
  sl_unfold_words
  simp only [View.canon_cons_unit_zero (S := S128x1) hz2, View.canon_cons_unit_zero (S := S128x256) hz2, View.canon_cons_unit_zero (S := S1x256) hz2,
    readCov_cons_unit_zero (S := S128x1) _ hz2, readCov_cons_unit_zero (S := S128x256) _ hz2, readCov_cons_unit_zero (S := S1x256) _ hz2, View.readAt_eq_ld,
    harg2.read_unread, harg3.read_unread, harg4.read_unread, harg5.read_unread, harg6.read_unread, harg8.read_unread, harg9.read_unread, harg10.read_unread,
    View.ld_unit_zero (S := S256) hz1, View.ld_unit_zero (S := S32x256) hz2, View.ld_unit_zero (S := S128x32x256) hz3,
    View.ld_unit_zero (S := S128x1) hz2, View.ld_unit_zero (S := S128x256) hz2, View.ld_unit_zero (S := S1x256) hz2]
  rfl

theorem coverLater_times (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : ¬condFirst i) (hc1 : condLater i)
    (x0 : Vec F S128x32x256 .f32) (x1 : Vec F S32x256 .f32) (x2 x3 x4 : Vec F S256 .f32)
    (xs0 : Vec F S128x1 .f32) (xs1 : Vec F S128x256 .f32) (xs2 : Vec F S1x256 .f32) (y : S1x256.Idx) :
    ∃ pc ∈ (runLater c i arg2 harg2 arg3 harg3 arg4 harg4 arg5 harg5 arg6 harg6 arg7 harg7 arg8 harg8 arg9 harg9 arg10 harg10 hc0 hc1 x0 x1 x2 x3 x4 xs0 xs1 xs2).2.2.2.1, y ∈ pc.1.set :=
  View.cover_of_tiledL (runLater c i arg2 harg2 arg3 harg3 arg4 harg4 arg5 harg5 arg6 harg6 arg7 harg7 arg8 harg8 arg9 harg9 arg10 harg10 hc0 hc1 x0 x1 x2 x3 x4 xs0 xs1 xs2).2.2.2.1 S1x256.size (by sl_kernel_rfl) y

theorem later_times (c : Dev nD) (i : grid0.Coords)
    (arg2 : Memref sig .tc .vmem S128x32x256 .f32) (harg2 : arg2.IsWhole) (arg3 : Memref sig .tc .vmem S32x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S128x1 .f32) (harg7 : arg7.IsWhole)
    (arg8 : Memref sig .tc .vmem S128x1 .f32) (harg8 : arg8.IsWhole) (arg9 : Memref sig .tc .vmem S128x256 .f32) (harg9 : arg9.IsWhole)
    (arg10 : Memref sig .tc .vmem S1x256 .f32) (harg10 : arg10.IsWhole)
    (hc0 : ¬condFirst i) (hc1 : condLater i)
    (x0 : Vec F S128x32x256 .f32) (x1 : Vec F S32x256 .f32) (x2 x3 x4 : Vec F S256 .f32)
    (xs0 : Vec F S128x1 .f32) (xs1 : Vec F S128x256 .f32) (xs2 : Vec F S1x256 .f32) :
    View.canon (runLater c i arg2 harg2 arg3 harg3 arg4 harg4 arg5 harg5 arg6 harg6 arg7 harg7 arg8 harg8 arg9 harg9 arg10 harg10 hc0 hc1 x0 x1 x2 x3 x4 xs0 xs1 xs2).2.2.2.1 = lastTimes x1 := by
  unfold runLater
  dsimp only
  sl_unfold_words
  simp only [View.canon_cons_unit_zero (S := S128x1) hz2, View.canon_cons_unit_zero (S := S128x256) hz2, View.canon_cons_unit_zero (S := S1x256) hz2,
    readCov_cons_unit_zero (S := S128x1) _ hz2, readCov_cons_unit_zero (S := S128x256) _ hz2, readCov_cons_unit_zero (S := S1x256) _ hz2, View.readAt_eq_ld,
    harg2.read_unread, harg3.read_unread, harg4.read_unread, harg5.read_unread, harg6.read_unread, harg8.read_unread, harg9.read_unread, harg10.read_unread,
    View.ld_unit_zero (S := S256) hz1, View.ld_unit_zero (S := S32x256) hz2, View.ld_unit_zero (S := S128x32x256) hz3,
    View.ld_unit_zero (S := S128x1) hz2, View.ld_unit_zero (S := S128x256) hz2, View.ld_unit_zero (S := S1x256) hz2]
  rfl

end Cert.KernelIdeal.Body

end
-- ==== Proof.OuFrame.lean ====
/-
  The frame of the kernel: every weakly fair execution terminates, nothing faults, the argument arrays end unchanged
  — and, on the way, what every buffer holds.

  The region's invariant tracks the three carried buffers: before the first position they hold anything; after
  position n they hold `Walk.stateAt n` — the running sum, the tile's last observations, the tile's last times. The
  proof data says each input window's buffer holds its block and the result window's buffer holds the running sum
  after every point. The body's obligation at a point is a case split on "first time tile or later": either way the
  matching run of the body applies, and what it stored reads back as the step function of the point's blocks (and
  of what the point before left). The launch theorem for a region followed by host lines then gives the run, and the
  frame claim is read off its post.
-/
import proofs.«154525_j39032662786269_1_alg».proof.Proof.OuPieces

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant, position by position -/

/-- Before position 0 the carried buffers hold anything; before position n + 1 they hold what position n left. -/
def PhiS (c : Dev nD) : (n : ℕ) → n ≤ cfg0.N → sProp 𝕄
  | 0, _ => Pipeline.ΦA spec0 c
  | n + 1, hn => iprop(iprop(owns (c : Thread nD τ) scAcc fullShare (Walk.stateAt m c n hn).1 ∗ owns (c : Thread nD τ) scObs fullShare (Walk.stateAt m c n hn).2.1 ∗ owns (c : Thread nD τ) scTimes fullShare (Walk.stateAt m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scAcc fullShare (Walk.stateAt m c n hn).1 ∗ owns (c : Thread nD τ) scObs fullShare (Walk.stateAt m c n hn).2.1 ∗ owns (c : Thread nD τ) scTimes fullShare (Walk.stateAt m c n hn).2.2) ∗ (∃ r, prngReg c r)) := rfl

theorem PhiS_pos (c : Dev nD) (n : ℕ) (h : n ≤ cfg0.N) (hz : n ≠ 0) :
    PhiS m c n h = iprop(iprop(owns (c : Thread nD τ) scAcc fullShare (Walk.stateAt m c (n - 1) (by omega)).1 ∗ owns (c : Thread nD τ) scObs fullShare (Walk.stateAt m c (n - 1) (by omega)).2.1 ∗ owns (c : Thread nD τ) scTimes fullShare (Walk.stateAt m c (n - 1) (by omega)).2.2) ∗ (∃ r, prngReg c r)) := by
  cases n with
  | zero => exact absurd rfl hz
  | succ n => rfl

/-! ## The proof data -/

/-- The arrays as the region finds them; after the body each input's buffer at its block and the result's at the
    running sum; the invariant the tracked one; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (Walk.stateAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (Walk.stateAt m c t.val t.isLt).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt0 t], after_0]
  rw [show (dats m 0 c).leavesExact 1 t = owns (c : Thread nD τ) (ms1 t) fullShare ((dats m 0 c).after 1 t) from by
    unfold Dat.leavesExact; rw [liveAt1 t], after_1]
  rw [show (dats m 0 c).leavesExact 2 t = owns (c : Thread nD τ) (ms2 t) fullShare ((dats m 0 c).after 2 t) from by
    unfold Dat.leavesExact; rw [liveAt2 t], after_2]
  rw [show (dats m 0 c).leavesExact 3 t = owns (c : Thread nD τ) (ms3 t) fullShare ((dats m 0 c).after 3 t) from by
    unfold Dat.leavesExact; rw [liveAt3 t], after_3]
  rw [show (dats m 0 c).leavesExact 4 t = owns (c : Thread nD τ) (ms4 t) fullShare ((dats m 0 c).after 4 t) from by
    unfold Dat.leavesExact; rw [liveAt4 t], after_4]
  rw [show (dats m 0 c).leavesExact 5 t = owns (c : Thread nD τ) (ms5 t) fullShare ((dats m 0 c).after 5 t) from by
    unfold Dat.leavesExact; rw [liveAt5 t], after_5]
  by_cases h0 : t.val % 32 = 0
  · rw [Walk.stateAt_first m c t h0]
    unfold Walk.firstAt; dsimp only
    by_cases hz : t.val = 0
    · rw [PhiS_castSucc m c t, PhiS_zero m c _ _ hz, PhiA_eq]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t)).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e7, H7⟩, ⟨%e8, H8⟩, ⟨%e9, H9⟩, ⟨%e10, H10⟩⟩
      isplitl [H8 H9 H10 Hg]
      · isplitr [Hg]
        · isplitl [H8]
          · unfold owns; iexists _; isplitr
            swap; · iexact H8
            ipureintro; exact (View.read_writes_eq_canon _ _ _ (coverFirst_acc c _ _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t))).trans (first_acc c _ _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t))
          isplitl [H9]
          · unfold owns; iexists _; isplitr
            swap; · iexact H9
            ipureintro; exact (View.read_writes_eq_canon _ _ _ (coverFirst_obs c _ _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t))).trans (first_obs c _ _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t))
          unfold owns; iexists _; isplitr
          swap; · iexact H10
          ipureintro; exact (View.read_writes_eq_canon _ _ _ (coverFirst_times c _ _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t))).trans (first_times c _ _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t))
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H7
      ipureintro; exact (View.read_writes_eq_canon _ _ _ (coverFirst_out c _ _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t))).trans (first_out c _ _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t))
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t)).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [HS1]; · iexists _; iexact HS1
      isplitl [HS2]; · iexists _; iexact HS2
      iintro ⟨H0, H1, H2, H3, H4, ⟨%e7, H7⟩, ⟨%e8, H8⟩, ⟨%e9, H9⟩, ⟨%e10, H10⟩⟩
      isplitl [H8 H9 H10 Hg]
      · isplitr [Hg]
        · isplitl [H8]
          · unfold owns; iexists _; isplitr
            swap; · iexact H8
            ipureintro; exact (View.read_writes_eq_canon _ _ _ (coverFirst_acc c _ _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t))).trans (first_acc c _ _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t))
          isplitl [H9]
          · unfold owns; iexists _; isplitr
            swap; · iexact H9
            ipureintro; exact (View.read_writes_eq_canon _ _ _ (coverFirst_obs c _ _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t))).trans (first_obs c _ _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t))
          unfold owns; iexists _; isplitr
          swap; · iexact H10
          ipureintro; exact (View.read_writes_eq_canon _ _ _ (coverFirst_times c _ _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t))).trans (first_times c _ _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t))
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H7
      ipureintro; exact (View.read_writes_eq_canon _ _ _ (coverFirst_out c _ _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t))).trans (first_out c _ _ _ _ _ _ _ _ _ _ _ _ _ _ _ _ _ _ _ ((hcondFirst t).mpr h0) (fun h => (hcondLater t).mp h h0) (iblk m c 0 t) (iblk m c 1 t) (iblk m c 2 t) (iblk m c 3 t) (iblk m c 4 t))
  · have hz : t.val ≠ 0 := fun h => h0 (by rw [h])
    rw [Walk.stateAt_next m c t h0]
    unfold Walk.nextAt; dsimp only
    rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply ((runLater c (grid0.coords t) _ _ _ _ _ _ _ _ _ _ _ _ _ _ _ _ _ _ (fun h => h0 ((hcondFirst t).mp h)) ((hcondLater t).mpr h0) (iblk m c 0 t) (iblk m c 1 t) (iblk m c 2 t) (iblk m c 3 t) (iblk m c 4 t) (Walk.stateAt m c (t.val - 1) (Nat.lt_of_le_of_lt (Nat.sub_le _ _) t.isLt)).1 (Walk.stateAt m c (t.val - 1) (Nat.lt_of_le_of_lt (Nat.sub_le _ _) t.isLt)).2.1 (Walk.stateAt m c (t.val - 1) (Nat.lt_of_le_of_lt (Nat.sub_le _ _) t.isLt)).2.2).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, ⟨%e7, H7⟩, ⟨%e8, H8⟩, ⟨%e9, H9⟩, ⟨%e10, H10⟩⟩
    isplitl [H8 H9 H10 Hg]
    · isplitr [Hg]
      · isplitl [H8]
        · unfold owns; iexists _; isplitr
          swap; · iexact H8
          ipureintro; exact (View.read_writes_eq_canon _ _ _ (coverLater_acc c _ _ _ _ _ _ _ _ _ _ _ _ _ _ _ _ _ _ _ (fun h => h0 ((hcondFirst t).mp h)) ((hcondLater t).mpr h0) (iblk m c 0 t) (iblk m c 1 t) (iblk m c 2 t) (iblk m c 3 t) (iblk m c 4 t) (Walk.stateAt m c (t.val - 1) (Nat.lt_of_le_of_lt (Nat.sub_le _ _) t.isLt)).1 (Walk.stateAt m c (t.val - 1) (Nat.lt_of_le_of_lt (Nat.sub_le _ _) t.isLt)).2.1 (Walk.stateAt m c (t.val - 1) (Nat.lt_of_le_of_lt (Nat.sub_le _ _) t.isLt)).2.2)).trans (later_acc c _ _ _ _ _ _ _ _ _ _ _ _ _ _ _ _ _ _ _ (fun h => h0 ((hcondFirst t).mp h)) ((hcondLater t).mpr h0) (iblk m c 0 t) (iblk m c 1 t) (iblk m c 2 t) (iblk m c 3 t) (iblk m c 4 t) (Walk.stateAt m c (t.val - 1) (Nat.lt_of_le_of_lt (Nat.sub_le _ _) t.isLt)).1 (Walk.stateAt m c (t.val - 1) (Nat.lt_of_le_of_lt (Nat.sub_le _ _) t.isLt)).2.1 (Walk.stateAt m c (t.val - 1) (Nat.lt_of_le_of_lt (Nat.sub_le _ _) t.isLt)).2.2)
        isplitl [H9]
        · unfold owns; iexists _; isplitr
          swap; · iexact H9
          ipureintro; exact (View.read_writes_eq_canon _ _ _ (coverLater_obs c _ _ _ _ _ _ _ _ _ _ _ _ _ _ _ _ _ _ _ (fun h => h0 ((hcondFirst t).mp h)) ((hcondLater t).mpr h0) (iblk m c 0 t) (iblk m c 1 t) (iblk m c 2 t) (iblk m c 3 t) (iblk m c 4 t) (Walk.stateAt m c (t.val - 1) (Nat.lt_of_le_of_lt (Nat.sub_le _ _) t.isLt)).1 (Walk.stateAt m c (t.val - 1) (Nat.lt_of_le_of_lt (Nat.sub_le _ _) t.isLt)).2.1 (Walk.stateAt m c (t.val - 1) (Nat.lt_of_le_of_lt (Nat.sub_le _ _) t.isLt)).2.2)).trans (later_obs c _ _ _ _ _ _ _ _ _ _ _ _ _ _ _ _ _ _ _ (fun h => h0 ((hcondFirst t).mp h)) ((hcondLater t).mpr h0) (iblk m c 0 t) (iblk m c 1 t) (iblk m c 2 t) (iblk m c 3 t) (iblk m c 4 t) (Walk.stateAt m c (t.val - 1) (Nat.lt_of_le_of_lt (Nat.sub_le _ _) t.isLt)).1 (Walk.stateAt m c (t.val - 1) (Nat.lt_of_le_of_lt (Nat.sub_le _ _) t.isLt)).2.1 (Walk.stateAt m c (t.val - 1) (Nat.lt_of_le_of_lt (Nat.sub_le _ _) t.isLt)).2.2)
        unfold owns; iexists _; isplitr
        swap; · iexact H10
        ipureintro; exact (View.read_writes_eq_canon _ _ _ (coverLater_times c _ _ _ _ _ _ _ _ _ _ _ _ _ _ _ _ _ _ _ (fun h => h0 ((hcondFirst t).mp h)) ((hcondLater t).mpr h0) (iblk m c 0 t) (iblk m c 1 t) (iblk m c 2 t) (iblk m c 3 t) (iblk m c 4 t) (Walk.stateAt m c (t.val - 1) (Nat.lt_of_le_of_lt (Nat.sub_le _ _) t.isLt)).1 (Walk.stateAt m c (t.val - 1) (Nat.lt_of_le_of_lt (Nat.sub_le _ _) t.isLt)).2.1 (Walk.stateAt m c (t.val - 1) (Nat.lt_of_le_of_lt (Nat.sub_le _ _) t.isLt)).2.2)).trans (later_times c _ _ _ _ _ _ _ _ _ _ _ _ _ _ _ _ _ _ _ (fun h => h0 ((hcondFirst t).mp h)) ((hcondLater t).mpr h0) (iblk m c 0 t) (iblk m c 1 t) (iblk m c 2 t) (iblk m c 3 t) (iblk m c 4 t) (Walk.stateAt m c (t.val - 1) (Nat.lt_of_le_of_lt (Nat.sub_le _ _) t.isLt)).1 (Walk.stateAt m c (t.val - 1) (Nat.lt_of_le_of_lt (Nat.sub_le _ _) t.isLt)).2.1 (Walk.stateAt m c (t.val - 1) (Nat.lt_of_le_of_lt (Nat.sub_le _ _) t.isLt)).2.2)
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H7
    ipureintro; exact (View.read_writes_eq_canon _ _ _ (coverLater_out c _ _ _ _ _ _ _ _ _ _ _ _ _ _ _ _ _ _ _ (fun h => h0 ((hcondFirst t).mp h)) ((hcondLater t).mpr h0) (iblk m c 0 t) (iblk m c 1 t) (iblk m c 2 t) (iblk m c 3 t) (iblk m c 4 t) (Walk.stateAt m c (t.val - 1) (Nat.lt_of_le_of_lt (Nat.sub_le _ _) t.isLt)).1 (Walk.stateAt m c (t.val - 1) (Nat.lt_of_le_of_lt (Nat.sub_le _ _) t.isLt)).2.1 (Walk.stateAt m c (t.val - 1) (Nat.lt_of_le_of_lt (Nat.sub_le _ _) t.isLt)).2.2)).trans (later_out c _ _ _ _ _ _ _ _ _ _ _ _ _ _ _ _ _ _ _ (fun h => h0 ((hcondFirst t).mp h)) ((hcondLater t).mpr h0) (iblk m c 0 t) (iblk m c 1 t) (iblk m c 2 t) (iblk m c 3 t) (iblk m c 4 t) (Walk.stateAt m c (t.val - 1) (Nat.lt_of_le_of_lt (Nat.sub_le _ _) t.isLt)).1 (Walk.stateAt m c (t.val - 1) (Nat.lt_of_le_of_lt (Nat.sub_le _ _) t.isLt)).2.1 (Walk.stateAt m c (t.val - 1) (Nat.lt_of_le_of_lt (Nat.sub_le _ _) t.isLt)).2.2)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class's back: the carried buffers' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates, and every final state has every array of the pipeline at what
    the library computes from the proof data and every other unscoped buffer at what the host lines after the region
    leave of the region's exit contents. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's post, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.OuFrames.lean ====
/-
  The three frames and the idealization's ledger.

  The word-level kernel and its idealization have one text, so their frames are one proof read at the two
  instances: the region's tracked invariant and the body's two cases. The reference has no kernel: its frame is its
  run with the result dropped. The ideal pass rewrote nothing, so there is nothing to preserve.
-/
import proofs.«154525_j39032662786269_1_alg».proof.Defs
import proofs.«154525_j39032662786269_1_alg».proof.Proof.Gen.Kernel
import proofs.«154525_j39032662786269_1_alg».proof.Proof.Gen.KernelIdeal
import proofs.«154525_j39032662786269_1_alg».proof.Proof.Gen.ReferenceIdeal
import proofs.«154525_j39032662786269_1_alg».proof.Proof.Gen.Pre_finite_inputs
import proofs.«154525_j39032662786269_1_alg».proof.Proof.Gen.ReferenceIdeal.Run
import proofs.«154525_j39032662786269_1_alg».proof.Proof.KbFrame
import proofs.«154525_j39032662786269_1_alg».proof.Proof.OuFrame

noncomputable section

namespace Cert.Proof.Frames

open Idealize.ShloMosaic Idealize.SL.Sem

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

end Cert.Proof.Frames

end
-- ==== Proof.OuSpec.lean ====
/-
  The Ornstein–Uhlenbeck path log-density, as extended-real functions of the argument arrays.

  For a path y[b, t, ·] observed at times ts[t, ·] the log-density is the stationary Gaussian term of the first
  row plus one exact-transition Gaussian term per consecutive pair of rows, each summed over the 256 dimensions:
    step length     δ = max (ts[t+1] − ts[t]) ε₆
    transition mean μ + e^{−κδ} (y[t] − μ)
    variance        max (σ² (1 − e^{−2κδ}) / (2κ)) ε₁₀      (stationary: max (σ² / (2κ)) ε₁₀)
    summand         (log q + log 2π) + (x − mean)² / q,  weighted by −1/2.
  The scalar building blocks come first (they serve both a 32-row block and the whole 1024-row array), then the two
  whole-array functions: `RefVal` weights each row's sum over the dimensions by −1/2 (one product per row), `KerVal`
  weights every summand (one product per element). They agree when every summand is a real number.
-/
import Idealize.ShloMosaic.PureOps.Ideal
import Idealize.ShloMosaic.Lib.ValueIdx

noncomputable section

open scoped BigOperators

namespace Cert.OU

open Idealize.ShloMosaic Idealize.ShloMosaic.ValueIdx

/-! ## The float words the programs name, as extended reals -/

/-- 9.99999997e-7: the floor of a step length, and the offset of κ and σ. -/
abbrev wEps6 : EReal := Ideal.ofBits .f32 0x358637BD#32
/-- 1.0e-10: the floor of a variance. -/
abbrev wEps10 : EReal := Ideal.ofBits .f32 0x2EDBE6FF#32
/-- 1.83787704: log 2π rounded to f32. -/
abbrev wLog2Pi : EReal := Ideal.ofBits .f32 0x3FEB3F8E#32
/-- −0.5 -/
abbrev wMHalf : EReal := Ideal.ofBits .f32 0xBF000000#32
/-- 2.0 -/
abbrev wTwo : EReal := Ideal.ofBits .f32 0x40000000#32
/-- −2.0 -/
abbrev wMTwo : EReal := Ideal.ofBits .f32 0xC0000000#32
/-- 1.0 -/
abbrev wOne : EReal := Ideal.ofBits .f32 0x3F800000#32

/-! ## One element -/

/-- The step length between a later time `a` and an earlier time `b`, floored. -/
def stepLen (a b : EReal) : EReal := max (a - b) wEps6

/-- The variance of the exact transition over a step of length `δ`, floored. -/
def varOf (κ σ δ : EReal) : EReal :=
  max (Ideal.div ((σ * σ) * (wOne - Ideal.exp ((wMTwo * κ) * δ))) (wTwo * κ)) wEps10

/-- The stationary variance, floored. -/
def var0Of (κ σ : EReal) : EReal := max (Ideal.div (σ * σ) (wTwo * κ)) wEps10

/-- The mean of the exact transition from `yp` over a step of length `δ`. -/
def meanOf (μ κ δ yp : EReal) : EReal := μ + Ideal.exp ((-κ) * δ) * (yp - μ)

/-- The Gaussian summand of an observation `x` with mean `mn` and variance `q` (without the weight −1/2). -/
def dens (q x mn : EReal) : EReal := (Ideal.log q + wLog2Pi) + Ideal.div ((x - mn) * (x - mn)) q

/-- The transition summand: times `tn` (later) and `tp` (earlier), observations `yn` (later) and `yp` (earlier). -/
def trans (μ κ σ tn tp yn yp : EReal) : EReal :=
  dens (varOf κ σ (stepLen tn tp)) yn (meanOf μ κ (stepLen tn tp) yp)

/-- The stationary summand of the first observation `y0`. -/
def init (μ κ σ y0 : EReal) : EReal := dens (var0Of κ σ) y0 μ

/-- softplus plus the offset: `max x 0 + log (1 + e^{−|x|}) + ε₆`, the positive rate or scale a raw parameter stands for. -/
def rateOf (x : EReal) : EReal := (max x 0 + Ideal.log1p (Ideal.exp (-(max x (-x))))) + wEps6

/-! ## The whole arrays -/

abbrev Y3 : Type := (⟨3, ![256, 1024, 256]⟩ : Shape).Idx → EReal
abbrev T2 : Type := (⟨2, ![1024, 256]⟩ : Shape).Idx → EReal
abbrev P1 : Type := (⟨1, ![256]⟩ : Shape).Idx → EReal

/-- Row `t + 1` and row `t` of the 1024 rows, for a pair `t` of the 1023 consecutive pairs. -/
abbrev rowNext (t : Fin 1023) : Fin 1024 := ⟨t.val + 1, by have := t.isLt; omega⟩
abbrev rowThis (t : Fin 1023) : Fin 1024 := ⟨t.val, by have := t.isLt; omega⟩

/-- The transition summand of batch row `b`, pair `t`, dimension `d`. -/
def Xtr (y : Y3) (ts : T2) (mu kap sig : P1) (b : Fin 256) (t : Fin 1023) (d : Fin 256) : EReal :=
  trans (mu (ix1 d)) (kap (ix1 d)) (sig (ix1 d)) (ts (ix2 (rowNext t) d)) (ts (ix2 (rowThis t) d))
    (y (ix3 b (rowNext t) d)) (y (ix3 b (rowThis t) d))

/-- The stationary summand of batch row `b`, dimension `d`. -/
def X0 (y : Y3) (mu kap sig : P1) (b : Fin 256) (d : Fin 256) : EReal :=
  init (mu (ix1 d)) (kap (ix1 d)) (sig (ix1 d)) (y (ix3 b (0 : Fin 1024) d))

/-- The log-density with ONE weight per row: −1/2 times the row's sum over the dimensions. -/
def RefVal (y : Y3) (ts : T2) (mu kap sig : P1) (b : Fin 256) : EReal :=
  wMHalf * (∑ d : Fin 256, X0 y mu kap sig b d) + ∑ t : Fin 1023, wMHalf * (∑ d : Fin 256, Xtr y ts mu kap sig b t d)

/-- The log-density with one weight per ELEMENT: every summand times −1/2, the pairs first. -/
def KerVal (y : Y3) (ts : T2) (mu kap sig : P1) (b : Fin 256) : EReal :=
  (∑ t : Fin 1023, ∑ d : Fin 256, wMHalf * Xtr y ts mu kap sig b t d) + ∑ d : Fin 256, wMHalf * X0 y mu kap sig b d

end Cert.OU

end
-- ==== Proof.OuArray.lean ====
/-
  The result array: from what the result window's staging buffer holds after each grid position to the array the
  program returns.

  The result window's block is 128 batch rows of the one-column result; the block of batch tile `q` is written back once,
  after the tile's last time tile (position `32 q + 31`), when its staging buffer holds the running sum over all the
  tile's rows of times — the whole log-density of each of its 128 batch rows. The two blocks tile the 256 rows, so the
  array ends holding the log-density of every batch row, and the reshape after the region reads the one column as a
  vector.
-/
import proofs.«154525_j39032662786269_1_alg».proof.Proof.Gen.KernelIdeal.Frame
import proofs.«154525_j39032662786269_1_alg».proof.Proof.OuSpec
import proofs.«154525_j39032662786269_1_alg».proof.Proof.OuWalk
import Idealize.ShloMosaic.Lib.Pipeline.Value
import Idealize.ShloMosaic.Lib.Pipeline.FrameSuffix
import Idealize.ShloMosaic.Lib.StableHlo.Run
import Idealize.ShloMosaic.Lib.ValueIdx
import Idealize.ShloMosaic.Lib.ValueLayout

noncomputable section

open Idealize.ShloMosaic.Pipeline (Dat Cfg Window)

namespace Cert.KernelIdeal.WalkIdeal

open Cert.KernelIdeal Cert.KernelIdeal.Gen Idealize.ShloMosaic Idealize.ShloMosaic.ValueIdx Idealize.ShloMosaic.TcCoe

/-- The log-density of batch row `b`: the kernel's order of summation, over the arrays as launched, the raw rate and scale
    read through their softplus. -/
abbrev logDens (m : (ℓ : Loc nD τ sig) → Buf (Elt Ideal) ℓ) (c : Dev nD) (b : Fin 256) : EReal :=
  Cert.OU.KerVal (m ((c : Thread nD τ).loc main_arg0)) (m ((c : Thread nD τ).loc main_arg1)) (m ((c : Thread nD τ).loc main_arg2))
    (fun j => Cert.OU.rateOf (m ((c : Thread nD τ).loc main_arg3) j)) (fun j => Cert.OU.rateOf (m ((c : Thread nD τ).loc main_arg4) j)) b

/-- The one-column result array: row `b` holds the log-density of batch row `b`. -/
def resultCol (m : (ℓ : Loc nD τ sig) → Buf (Elt Ideal) ℓ) (c : Dev nD) : S256x1.Idx → EReal := fun j => logDens m c (j 0)

/-- The result window's block index, decided over the grid: batch tile `t / 32`, the one column. -/
theorem index5 : ∀ t : Fin cfg0.N, win0_5.index t (0 : Fin 2) = t.val / 32 ∧ win0_5.index t (1 : Fin 2) = 0 :=
  (by decide +kernel : ∀ t : Fin grid0.N, win0_5.index t (0 : Fin 2) = t.val / 32 ∧ win0_5.index t (1 : Fin 2) = 0)

/-- A one-column block is known by its entries `(p, 0)`. -/
theorem col_apply (f : S128x1.Idx → EReal) (g : Fin 128 → EReal) (h : ∀ p : Fin 128, f (ix2 p (0 : Fin 1)) = g p)
    (j : S128x1.Idx) : f j = g (j 0) := by
  obtain ⟨p, u, rfl⟩ : ∃ (p : Fin 128) (u : Fin 1), j = ix2 p u := ⟨j 0, j 1, eq_ix2 j⟩
  obtain rfl : u = 0 := Subsingleton.elim _ _
  exact h p

section Array

variable (m : (ℓ : Loc nD τ sig) → Buf (Elt Ideal) ℓ)
  (dats : (p : Fin 1) → (c : Dev nD) → Dat τ (Elt Ideal) Unit ℕ (UR sig nD τ) ℕ (cfgs p) c)

/-- What a position that writes back writes: its block of the result column. -/
theorem flushed5_eq (h5 : ∀ c t, (dats 0 c).after 5 t = (Walk.stateAt m c t.val t.isLt).1)
    (hlast : ∀ (c : Dev nD) (t : Fin cfg0.N) (p : Fin 128), t.val % 32 = 31 →
       (Walk.stateAt m c t.val t.isLt).1 (ix2 p (0 : Fin 1)) = logDens m c ⟨128 * (t.val / 32) + p.val, by have := t.isLt; have := p.isLt; have hN : cfg0.N = 64 := N_0; omega⟩)
    (c : Dev nD) (t : Fin cfg0.N) (hf : (cfg0.win 5).flush t = true) :
    (dats 0 c).flushed 5 t = ((cfg0.win 5).blk t).view.read (Elt Ideal) (resultCol m c) := by
  have ht : t.val % 32 = 31 := (flush0_5 t).mp hf
  show (cfg0.win 5).cut (grid0.coords t) ((dats 0 c).after 5 t) = _
  rw [h5]
  funext j
  rw [View.read_apply]
  show (Walk.stateAt m c t.val t.isLt).1 j = resultCol m c (((cfg0.win 5).blk t).view.emb j)
  refine (col_apply _ _ (fun p => hlast c t p ht) j).trans ?_
  unfold resultCol
  refine congrArg (logDens m c) (Fin.ext ?_)
  show 128 * (t.val / 32) + (j 0).val = win0_5.index t (0 : Fin 2) * 128 + 1 * (j 0).val
  rw [(index5 t).1]
  omega

/-- An entry of the result column is in position `t`'s block iff each coordinate is in the block's range. -/
theorem mem_blk5 (t : Fin cfg0.N) (i : S256x1.Idx) :
    i ∈ ((cfg0.win 5).blk t).view.set ↔ ∀ a : Fin 2, win0_5.index t a * S128x1.size a ≤ (i a).val ∧ (i a).val < win0_5.index t a * S128x1.size a + S128x1.size a := by
  show i ∈ ((View.whole main_v6).slice (win0_5.rect t)).set ↔ _
  rw [View.set_slice_whole, Rect.mem_set_unit]
  exact Iff.rfl

/-- The result array after the region: the result column (batch row `b` lies in the block written back after position
    `32 (b / 128) + 31`). -/
theorem array5_eq (h5 : ∀ c t, (dats 0 c).after 5 t = (Walk.stateAt m c t.val t.isLt).1)
    (hlast : ∀ (c : Dev nD) (t : Fin cfg0.N) (p : Fin 128), t.val % 32 = 31 →
       (Walk.stateAt m c t.val t.isLt).1 (ix2 p (0 : Fin 1)) = logDens m c ⟨128 * (t.val / 32) + p.val, by have := t.isLt; have := p.isLt; have hN : cfg0.N = 64 := N_0; omega⟩)
    (c : Dev nD) : (dats 0 c).arrAt 5 cfg0.N = resultCol m c :=
  (dats 0 c).arrAt_eq_of_cover 5 (resultCol m c) (flushed5_eq m dats h5 hlast c) fun i => by
    have hi0 : (i 0).val < 256 := (i 0).isLt
    have hi1 : (i 1).val < 1 := (i 1).isLt
    have hN : cfg0.N = 64 := N_0
    have hlt : 32 * ((i 0).val / 128) + 31 < cfg0.N := by omega
    obtain ⟨e0, e1⟩ := index5 ⟨32 * ((i 0).val / 128) + 31, hlt⟩
    refine ⟨⟨32 * ((i 0).val / 128) + 31, hlt⟩, (flush0_5 _).mpr (by show (32 * ((i 0).val / 128) + 31) % 32 = 31; omega), ?_⟩
    rw [mem_blk5]
    intro a
    match a with
    | ⟨0, _⟩ =>
      show win0_5.index ⟨32 * ((i 0).val / 128) + 31, hlt⟩ (0 : Fin 2) * 128 ≤ (i 0).val
        ∧ (i 0).val < win0_5.index ⟨32 * ((i 0).val / 128) + 31, hlt⟩ (0 : Fin 2) * 128 + 128
      rw [e0]
      show (32 * ((i 0).val / 128) + 31) / 32 * 128 ≤ (i 0).val ∧ (i 0).val < (32 * ((i 0).val / 128) + 31) / 32 * 128 + 128
      omega
    | ⟨1, _⟩ =>
      show win0_5.index ⟨32 * ((i 0).val / 128) + 31, hlt⟩ (1 : Fin 2) * 1 ≤ (i 1).val
        ∧ (i 1).val < win0_5.index ⟨32 * ((i 0).val / 128) + 31, hlt⟩ (1 : Fin 2) * 1 + 1
      rw [e1]
      omega

end Array

/-- The array the program returns: entry `i` is the log-density of batch row `i`. -/
theorem result_eq (m : (ℓ : Loc nD τ sig) → Buf (Elt Ideal) ℓ) (dats : (p : Fin 1) → (c : Dev nD) → Dat τ (Elt Ideal) Unit ℕ (UR sig nD τ) ℕ (cfgs p) c)
    (hA : ∀ c w, (dats 0 c).A w = V m c (Pipeline.arrRef spec0 w))
    (h5 : ∀ c t, (dats 0 c).after 5 t = (Walk.stateAt m c t.val t.isLt).1)
    (hlast : ∀ (c : Dev nD) (t : Fin cfg0.N) (p : Fin 128), t.val % 32 = 31 →
       (Walk.stateAt m c t.val t.isLt).1 (ix2 p (0 : Fin 1)) = Cert.OU.KerVal (m ((c : Thread nD τ).loc main_arg0)) (m ((c : Thread nD τ).loc main_arg1)) (m ((c : Thread nD τ).loc main_arg2)) (fun j => Cert.OU.rateOf (m ((c : Thread nD τ).loc main_arg3) j)) (fun j => Cert.OU.rateOf (m ((c : Thread nD τ).loc main_arg4) j)) ⟨128 * (t.val / 32) + p.val, by have := t.isLt; have := p.isLt; have hN : cfg0.N = 64 := N_0; omega⟩)
    (c : Dev nD) :
    Pipeline.afterTail₀ cfgs dats 0 (V0 m) [hostOps1] c main_v7
      = fun i => Cert.OU.KerVal (m ((c : Thread nD τ).loc main_arg0)) (m ((c : Thread nD τ).loc main_arg1)) (m ((c : Thread nD τ).loc main_arg2)) (fun j => Cert.OU.rateOf (m ((c : Thread nD τ).loc main_arg3) j)) (fun j => Cert.OU.rateOf (m ((c : Thread nD τ).loc main_arg4) j)) (i 0) := by
  unfold Pipeline.afterTail₀
  show StableHlo.after hostOps1 _ (Proc.devRef .tc main_v7) = _
  after_results
  funext i
  show shapeCast S256 (Pipeline.withArrays spec0 c (V0 m c) (fun w => (dats 0 c).arrAt w cfg0.N) (Proc.devRef .tc (Pipeline.arrRef spec0 5))) shapeCasts_S256x1_S256 i = _
  rw [Pipeline.withArrays_arr spec0 launch0.win.arr_inj c _ _ 5, array5_eq m dats h5 hlast c]
  exact shapeCast_apply (resultCol m c) shapeCasts_S256x1_S256 (i : S256.Idx) (ix2 ((i : S256.Idx) 0) (0 : Fin 1)) (by
    rw [Shape.rowMajor_val_two, Shape.rowMajor_val_one]
    show (i 0).val * 1 + 0 = (i 0).val
    omega)

end Cert.KernelIdeal.WalkIdeal

end
-- ==== Proof.OuBlocks.lean ====
/-
  Each window's block at a grid point, as elements of the argument arrays.

  Position t of the 2 × 32 grid is batch tile t / 32 and time tile t % 32. The block of observations at t is rows
  128 (t / 32) … + 127 of the batch axis and rows 32 (t % 32) … + 31 of the time axis; the block of times is the same
  32 time rows; the three parameter rows are whole. The rate κ and the scale σ reach the kernel already transformed
  (softplus of the raw parameter, plus a small offset): on the extended reals that is rateOf of the raw parameter.
-/
import proofs.«154525_j39032662786269_1_alg».proof.Proof.Gen.KernelIdeal.Frame
import proofs.«154525_j39032662786269_1_alg».proof.Proof.OuSpec
import proofs.«154525_j39032662786269_1_alg».proof.Proof.OuWalk
import Idealize.ShloMosaic.Lib.Pipeline.Value
import Idealize.ShloMosaic.Lib.ValueIdx
import Idealize.ShloMosaic.Lib.Tactic
import Idealize.ShloMosaic.PureOps.Ideal.Laws
import Idealize.ShloMosaic.Lib.StableHlo.Run

set_option maxRecDepth 16384

noncomputable section

open scoped BigOperators

namespace Cert.KernelIdeal.WalkIdeal

open Cert.KernelIdeal Cert.KernelIdeal.Gen Cert.KernelIdeal.Step Idealize.ShloMosaic Idealize.ShloMosaic.TcCoe Idealize.ShloMosaic.Tactic
open Idealize.ShloMosaic.ValueIdx
open Idealize.SL.Sem
open Idealize.ShloMosaic.Pipeline (Dat Cfg Window)

variable (m : (ℓ : Loc nD τ sig) → Buf (Elt Ideal) ℓ)

/-- A grid position is below 64. -/
theorem pos_lt (t : Fin cfg0.N) : t.val < 64 := lt_of_lt_of_eq t.isLt N_0

/-- The block indices of the five input windows at every position: the batch tile and the time tile for the observations,
    the time tile for the times, zero for the parameter rows. -/
theorem idx_in : ∀ t : Fin cfg0.N,
    win0_0.index t (0 : Fin 3) = t.val / 32 ∧ win0_0.index t (1 : Fin 3) = t.val % 32 ∧ win0_0.index t (2 : Fin 3) = 0
    ∧ win0_1.index t (0 : Fin 2) = t.val % 32 ∧ win0_1.index t (1 : Fin 2) = 0
    ∧ win0_2.index t (0 : Fin 1) = 0 ∧ win0_3.index t (0 : Fin 1) = 0 ∧ win0_4.index t (0 : Fin 1) = 0 :=
  (by decide +kernel : ∀ t : Fin grid0.N, _)

/-- The block of observations at position t: batch rows from 128 (t / 32), time rows from 32 (t % 32). -/
theorem blk0 (c : Dev nD) (t : Fin cfg0.N) (p : Fin 128) (i : Fin 32) (d : Fin 256) :
    iblk m c 0 t (ix3 p i d)
      = m ((c : Thread nD τ).loc main_arg0) (ix3 ⟨128 * (t.val / 32) + p.val, by have := pos_lt t; omega⟩
          ⟨32 * (t.val % 32) + i.val, by have := pos_lt t; omega⟩ d) := by
  obtain ⟨h0, h1, h2, -⟩ := idx_in t
  unfold iblk
  rw [View.read_apply]
  show V m c main_arg0 _ = _
  rw [V_main_arg0]
  congr 1
  funext a
  apply Fin.ext
  match a with
  | ⟨0, _⟩ => show win0_0.index t (0 : Fin 3) * 128 + 1 * p.val = 128 * (t.val / 32) + p.val; rw [h0]; omega
  | ⟨1, _⟩ => show win0_0.index t (1 : Fin 3) * 32 + 1 * i.val = 32 * (t.val % 32) + i.val; rw [h1]; omega
  | ⟨2, _⟩ => show win0_0.index t (2 : Fin 3) * 256 + 1 * d.val = d.val; rw [h2]; omega

/-- The block of times at position t: time rows from 32 (t % 32). -/
theorem blk1 (c : Dev nD) (t : Fin cfg0.N) (i : Fin 32) (d : Fin 256) :
    iblk m c 1 t (ix2 i d)
      = m ((c : Thread nD τ).loc main_arg1) (ix2 ⟨32 * (t.val % 32) + i.val, by have := pos_lt t; omega⟩ d) := by
  obtain ⟨-, -, -, h0, h1, -⟩ := idx_in t
  unfold iblk
  rw [View.read_apply]
  show V m c main_arg1 _ = _
  rw [V_main_arg1]
  congr 1
  funext a
  apply Fin.ext
  match a with
  | ⟨0, _⟩ => show win0_1.index t (0 : Fin 2) * 32 + 1 * i.val = 32 * (t.val % 32) + i.val; rw [h0]; omega
  | ⟨1, _⟩ => show win0_1.index t (1 : Fin 2) * 256 + 1 * d.val = d.val; rw [h1]; omega

/-- The row of means is whole at every position. -/
theorem blk2 (c : Dev nD) (t : Fin cfg0.N) (d : Fin 256) :
    iblk m c 2 t (ix1 d) = m ((c : Thread nD τ).loc main_arg2) (ix1 d) := by
  obtain ⟨-, -, -, -, -, h0, -⟩ := idx_in t
  unfold iblk
  rw [View.read_apply]
  show V m c main_arg2 _ = _
  rw [V_main_arg2]
  congr 1
  funext a
  apply Fin.ext
  match a with
  | ⟨0, _⟩ => show win0_2.index t (0 : Fin 1) * 256 + 1 * d.val = d.val; rw [h0]; omega

/-! ## The rate and the scale: softplus of the raw parameter plus the offset, as the host computes them -/

/-- A row of zeros and a row of the offset ε₆, as the host broadcasts them. -/
abbrev zeroRow : FVec Ideal S256 .f32 := broadcastInDim S256 ![] bcast_S_S256 (constant (F := Ideal) S_ .f32 0x00000000#32)
abbrev epsRow : FVec Ideal S256 .f32 := broadcastInDim S256 ![] bcast_S_S256 (constant (F := Ideal) S_ .f32 0x358637BD#32)

/-- The host's operations on a row of raw parameters: max(x, 0) + log1p(exp(−|x − 0|)), guarded by the comparison of
    x − 0 with itself (which selects x + 0 when they differ), then the offset added. -/
def hostRate (x : FVec Ideal S256 .f32) : FVec Ideal S256 .f32 :=
  addf (select (cmpf .une (subf x zeroRow) (subf x zeroRow)) (addf x zeroRow)
      (addf (maximumf x zeroRow) (Host.log1p (Host.exp (Host.negf (Host.absf (subf x zeroRow))))))) epsRow

/-- On the extended reals a value never differs from itself, the zero word is 0 and x − 0 = x: one element of the
    host's row is rateOf of the raw parameter. -/
theorem hostRate_scalar (x : EReal) :
    Scalar.select (Ideal.cmp .une (x - Ideal.ofBits .f32 0x00000000#32) (x - Ideal.ofBits .f32 0x00000000#32))
        (x + Ideal.ofBits .f32 0x00000000#32)
        (max x (Ideal.ofBits .f32 0x00000000#32)
          + Ideal.log1p (Ideal.exp (-(max (x - Ideal.ofBits .f32 0x00000000#32) (-(x - Ideal.ofBits .f32 0x00000000#32))))))
      + Cert.OU.wEps6 = Cert.OU.rateOf x := by
  rw [Ideal.ofBits_zero_f32, sub_zero]
  have h : Ideal.cmp .une x x = 0#1 := by simp [Ideal.cmp]
  rw [h, select_zero]
  rfl

theorem hostRate_apply (x : FVec Ideal S256 .f32) (d : Fin 256) : hostRate x (ix1 d) = Cert.OU.rateOf (x (ix1 d)) :=
  hostRate_scalar (x (ix1 d))

/-- The array of rates as the region finds it: the host's row of the raw parameter κ. -/
theorem V_rate (c : Dev nD) : (V m c main_v2 : S256.Idx → EReal) = hostRate (m ((c : Thread nD τ).loc main_arg3)) := by
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

/-- The array of scales as the region finds it: the host's row of the raw parameter σ. -/
theorem V_scale (c : Dev nD) : (V m c main_v5 : S256.Idx → EReal) = hostRate (m ((c : Thread nD τ).loc main_arg4)) := by
  dsimp only [Gen.V, Gen.V0]
  simp only [Gen.hostOps0, Gen.hostOps0_1, Gen.hostOps0_2, Gen.hostOps0_3, List.flatten_cons, List.flatten_nil, List.append_nil,
    List.cons_append, List.nil_append]
  after_results_simp
  rfl

/-- The row of rates is whole at every position. -/
theorem blk3 (c : Dev nD) (t : Fin cfg0.N) (d : Fin 256) :
    iblk m c 3 t (ix1 d) = Cert.OU.rateOf (m ((c : Thread nD τ).loc main_arg3) (ix1 d)) := by
  obtain ⟨-, -, -, -, -, -, h0, -⟩ := idx_in t
  unfold iblk
  rw [View.read_apply]
  show (V m c main_v2 : S256.Idx → EReal) _ = _
  rw [V_rate]
  refine Eq.trans (congrArg (hostRate (m ((c : Thread nD τ).loc main_arg3))) ?_) (hostRate_apply _ d)
  funext a
  apply Fin.ext
  match a with
  | ⟨0, _⟩ => show win0_3.index t (0 : Fin 1) * 256 + 1 * d.val = d.val; rw [h0]; omega

/-- The row of scales is whole at every position. -/
theorem blk4 (c : Dev nD) (t : Fin cfg0.N) (d : Fin 256) :
    iblk m c 4 t (ix1 d) = Cert.OU.rateOf (m ((c : Thread nD τ).loc main_arg4) (ix1 d)) := by
  obtain ⟨-, -, -, -, -, -, -, h0⟩ := idx_in t
  unfold iblk
  rw [View.read_apply]
  show (V m c main_v5 : S256.Idx → EReal) _ = _
  rw [V_scale]
  refine Eq.trans (congrArg (hostRate (m ((c : Thread nD τ).loc main_arg4))) ?_) (hostRate_apply _ d)
  funext a
  apply Fin.ext
  match a with
  | ⟨0, _⟩ => show win0_4.index t (0 : Fin 1) * 256 + 1 * d.val = d.val; rw [h0]; omega

end Cert.KernelIdeal.WalkIdeal

end
-- ==== Proof.OuPay.lean ====
/-
  The kernel's per-point arithmetic read at an index, at the ideal values.

  Every value a grid point computes is pointwise arithmetic on slices and broadcasts of the blocks it reads, except
  the lane sums: the 31 in-tile pairs' weighted summands are summed over the 256 dimensions and then over the 31 pairs,
  and the bridging pair's (or the stationary term's) weighted summands over the 256 dimensions. Read at batch row `p`,
  the running sum a point leaves is therefore what it found, plus the double sum of the weighted transition summands
  of the in-tile pairs, plus the sum of the weighted summands of the bridging pair (a later tile) or of the stationary
  term of row 0 (the first tile), each summand being the specification's `trans` / `init` of the entries involved.
  The layout operations come first (a slice, a reshape or a broadcast read at an entry named by its coordinates), then
  the lane sums, then each intermediate row or block of the computation, then the two running sums.
-/
import proofs.«154525_j39032662786269_1_alg».proof.Proof.OuStep
import proofs.«154525_j39032662786269_1_alg».proof.Proof.OuSpec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.StepIdeal

open Cert.OU Cert.KernelIdeal Cert.KernelIdeal.Gen Cert.KernelIdeal.Step Idealize.ShloMosaic Idealize.ShloMosaic.ValueIdx

/-! ## Layout operations at an entry -/

section Layout
variable {α : Type}

/-- A vector viewed as `[1, 1, c]`: entry `(u, v, d)` is entry `d`. -/
theorem cast_c_11c {c : ℕ} (x : (⟨1, ![c]⟩ : Shape).Idx → α) (h : (⟨1, ![c]⟩ : Shape).ShapeCasts ⟨3, ![1, 1, c]⟩)
    (u v : Fin 1) (d : Fin c) : shapeCast ⟨3, ![1, 1, c]⟩ x h (ix3 u v d) = x (ix1 d) :=
  shapeCast_apply x h _ _ (by
    have hu : u.val = 0 := by omega
    have hv : v.val = 0 := by omega
    rw [Shape.rowMajor_val_three, Shape.rowMajor_val_one]
    show d.val = (u.val * 1 + v.val) * c + d.val
    rw [hu, hv]; simp)

/-- A vector reshaped to one column: entry `(p, 0)` is entry `p`. -/
theorem cast_n_n1 {n : ℕ} (x : (⟨1, ![n]⟩ : Shape).Idx → α) (h : (⟨1, ![n]⟩ : Shape).ShapeCasts ⟨2, ![n, 1]⟩)
    (p : Fin n) (u : Fin 1) : shapeCast ⟨2, ![n, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1, c]` array with its unit axis dropped: entry `(p, d)` is entry `(p, 0, d)`. -/
theorem cast_a1c_ac {a c : ℕ} (x : (⟨3, ![a, 1, c]⟩ : Shape).Idx → α) (h : (⟨3, ![a, 1, c]⟩ : Shape).ShapeCasts ⟨2, ![a, c]⟩)
    (p : Fin a) (d : Fin c) : shapeCast ⟨2, ![a, c]⟩ x h (ix2 p d) = x (ix3 p (0 : Fin 1) d) :=
  shapeCast_apply x h _ _ (by
    rw [Shape.rowMajor_val_three, Shape.rowMajor_val_two]
    show (p.val * 1 + 0) * c + d.val = p.val * c + d.val
    rw [Nat.mul_one, Nat.add_zero])

/-- A `[1, 1, c]` array broadcast to `[a, b, c]`: entry `(p, i, d)` is entry `(0, 0, d)`. -/
theorem bcast_11c_abc {a b c : ℕ} (v : (⟨3, ![1, 1, c]⟩ : Shape).Idx → α)
    (h : (⟨3, ![1, 1, c]⟩ : Shape).Broadcasts ⟨3, ![a, b, c]⟩) (p : Fin a) (i : Fin b) (d : Fin c) :
    broadcastTo ⟨3, ![a, b, c]⟩ v h (ix3 p i d) = v (ix3 (0 : Fin 1) (0 : Fin 1) d) := by
  refine broadcastTo_apply v h (ix3 p i d) (ix3 (0 : Fin 1) (0 : Fin 1) d) fun ax => ?_
  match ax with
  | ⟨0, _⟩ => rfl
  | ⟨1, _⟩ => rfl
  | ⟨2, _⟩ =>
    show d.val = if c = 1 then 0 else d.val
    split
    · have := d.isLt; omega
    · rfl

/-- A `[1, b, c]` array broadcast to `[a, b, c]`: entry `(p, i, d)` is entry `(0, i, d)`. -/
theorem bcast_1bc_abc {a b c : ℕ} (v : (⟨3, ![1, b, c]⟩ : Shape).Idx → α)
    (h : (⟨3, ![1, b, c]⟩ : Shape).Broadcasts ⟨3, ![a, b, c]⟩) (p : Fin a) (i : Fin b) (d : Fin c) :
    broadcastTo ⟨3, ![a, b, c]⟩ v h (ix3 p i d) = v (ix3 (0 : Fin 1) i d) := by
  refine broadcastTo_apply v h (ix3 p i d) (ix3 (0 : Fin 1) i d) fun ax => ?_
  match ax with
  | ⟨0, _⟩ => rfl
  | ⟨1, _⟩ =>
    show i.val = if b = 1 then 0 else i.val
    split
    · have := i.isLt; omega
    · rfl
  | ⟨2, _⟩ =>
    show d.val = if c = 1 then 0 else d.val
    split
    · have := d.isLt; omega
    · rfl

/-- A vector laid along the rows of an `[n, m]` matrix: entry `(i, d)` is entry `d`. -/
theorem row_apply {n m : ℕ} (x : (⟨1, ![m]⟩ : Shape).Idx → α) (h1 : (⟨1, ![m]⟩ : Shape).ShapeCasts ⟨2, ![1, m]⟩)
    (h2 : (⟨2, ![1, m]⟩ : Shape).Broadcasts ⟨2, ![n, m]⟩) (i : Fin n) (d : Fin m) :
    broadcastTo ⟨2, ![n, m]⟩ (shapeCast ⟨2, ![1, m]⟩ x h1) h2 (ix2 i d) = x (ix1 d) :=
  (broadcastTo_1b_ab_apply _ h2 i d).trans (shapeCast_a_1a_apply x h1 0 d)

/-- A vector laid along the last axis of an `[a, b, c]` array: entry `(p, i, d)` is entry `d`. -/
theorem lane_apply {a b c : ℕ} (x : (⟨1, ![c]⟩ : Shape).Idx → α) (h1 : (⟨1, ![c]⟩ : Shape).ShapeCasts ⟨3, ![1, 1, c]⟩)
    (h2 : (⟨3, ![1, 1, c]⟩ : Shape).Broadcasts ⟨3, ![a, b, c]⟩) (p : Fin a) (i : Fin b) (d : Fin c) :
    broadcastTo ⟨3, ![a, b, c]⟩ (shapeCast ⟨3, ![1, 1, c]⟩ x h1) h2 (ix3 p i d) = x (ix1 d) :=
  (bcast_11c_abc _ h2 p i d).trans (cast_c_11c x h1 0 0 d)

/-- A `[b, c]` matrix repeated along a new leading axis: entry `(p, i, d)` is entry `(i, d)`. -/
theorem slab_apply {a b c : ℕ} (x : (⟨2, ![b, c]⟩ : Shape).Idx → α) (h1 : (⟨2, ![b, c]⟩ : Shape).ShapeCasts ⟨3, ![1, b, c]⟩)
    (h2 : (⟨3, ![1, b, c]⟩ : Shape).Broadcasts ⟨3, ![a, b, c]⟩) (p : Fin a) (i : Fin b) (d : Fin c) :
    broadcastTo ⟨3, ![a, b, c]⟩ (shapeCast ⟨3, ![1, b, c]⟩ x h1) h2 (ix3 p i d) = x (ix2 i d) :=
  (bcast_1bc_abc _ h2 p i d).trans (shapeCast_ab_1ab_apply x h1 0 i d)

end Layout

/-! ## Lane sums at an entry -/

/-- Summing an `[a, b, c]` array along its last axis: entry `(p, i)` is `∑ d, V (p, i, d)`. -/
theorem sumLast3_apply {a b c : ℕ} (V : FVec Ideal ⟨3, ![a, b, c]⟩ .f32) (acc : BitVec (FTy.bits .f32))
    (h : (⟨3, ![a, b, c]⟩ : Shape).Reduces [2] ⟨2, ![a, b]⟩) (hφ : FKind.Formats .f32) (hacc : acc = FKind.add.neutral .f32 hφ)
    (p : Fin a) (i : Fin b) :
    multiReduction .add [2] ⟨2, ![a, b]⟩ V acc h hφ hacc (ix2 p i) = ∑ d : Fin c, V (ix3 p i d) :=
  (Ideal.multiReduction_add_single V acc h hφ hacc (ix2 p i)).trans
    (Finset.sum_congr rfl fun d _ => congrArg V
      (funext fun ax => Fin.ext (by match ax with | ⟨0, _⟩ => rfl | ⟨1, _⟩ => rfl | ⟨2, _⟩ => rfl)))

/-- Summing an `[n, m]` matrix along its rows: entry `p` is `∑ q, V (p, q)`. -/
theorem sumLast2_apply {n m : ℕ} (V : FVec Ideal ⟨2, ![n, m]⟩ .f32) (acc : BitVec (FTy.bits .f32))
    (h : (⟨2, ![n, m]⟩ : Shape).Reduces [1] ⟨1, ![n]⟩) (hφ : FKind.Formats .f32) (hacc : acc = FKind.add.neutral .f32 hφ)
    (p : Fin n) :
    multiReduction .add [1] ⟨1, ![n]⟩ V acc h hφ hacc (ix1 p) = ∑ q : Fin m, V (ix2 p q) :=
  (Ideal.multiReduction_add_single V acc h hφ hacc (ix1 p)).trans
    (Finset.sum_congr rfl fun q _ => congrArg V
      (funext fun ax => Fin.ext (by match ax with | ⟨0, _⟩ => rfl | ⟨1, _⟩ => rfl)))

/-- A lane sum from the zero word, as the program writes it: an `[a, b, c]` array summed along its last axis. -/
theorem sumLast3_zero {a b c : ℕ} (V : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (p : Fin a) (i : Fin b) :
    multiReduction .add [2] ⟨2, ![a, b]⟩ V 0x00000000#32 h hφ hacc (ix2 p i) = ∑ d : Fin c, V (ix3 p i d) :=
  sumLast3_apply V _ h hφ hacc p i

/-- A lane sum from the zero word, as the program writes it: an `[n, m]` matrix summed along its rows. -/
theorem sumLast2_zero {n m : ℕ} (V : FVec Ideal ⟨2, ![n, m]⟩ .f32)
    (h : (⟨2, ![n, m]⟩ : Shape).Reduces [1] ⟨1, ![n]⟩) (hφ : FKind.Formats .f32)
    (hacc : (0x00000000#32 : BitVec 32) = 0x00000000#32) (p : Fin n) :
    multiReduction .add [1] ⟨1, ![n]⟩ V 0x00000000#32 h hφ hacc (ix1 p) = ∑ q : Fin m, V (ix2 p q) :=
  sumLast2_apply V _ h hφ hacc p

/-! ## The exponential and the logarithm at an entry -/

theorem exp_apply {s : Shape} (v : FVec Ideal s .f32) (i : s.Idx) : exp v i = Ideal.exp (v i) := rfl
theorem log_apply {s : Shape} (v : FVec Ideal s .f32) (i : s.Idx) : log v i = Ideal.log (v i) := rfl

/-! ## Rows of the tile -/

/-- Row `i + 1` and row `i` of the tile's 32 rows, for a pair `i` of its 31 consecutive pairs. -/
abbrev rNext (i : Fin 31) : Fin 32 := ⟨i.val + 1, by have := i.isLt; omega⟩
abbrev rThis (i : Fin 31) : Fin 32 := ⟨i.val, by have := i.isLt; omega⟩

/-- the 31 in-tile pairs' weighted summands of batch row p -/
def pairsSum (x0 : Vec Ideal S128x32x256 .f32) (x1 : Vec Ideal S32x256 .f32) (x2 x3 x4 : Vec Ideal S256 .f32) (p : Fin 128) : EReal :=
  ∑ i : Fin 31, ∑ d : Fin 256, wMHalf * trans (x2 (ix1 d)) (x3 (ix1 d)) (x4 (ix1 d)) (x1 (ix2 (rNext i) d)) (x1 (ix2 (rThis i) d)) (x0 (ix3 p (rNext i) d)) (x0 (ix3 p (rThis i) d))

section Slices

/-- The observations' rows 0 … 30 at `(p, i, d)`: row `i`. -/
theorem obsThis_apply (x0 : Vec Ideal S128x32x256 .f32) (h : S128x32x256.Slices ![0, 0, 0] S128x31x256)
    (p : Fin 128) (i : Fin 31) (d : Fin 256) :
    extractStridedSlice S128x31x256 ![0, 0, 0] x0 h (ix3 p i d) = x0 (ix3 p (rThis i) d) :=
  slice3_axis1_apply 0 x0 h p i d (rThis i) (by show i.val = 0 + i.val; omega)

/-- The observations' rows 1 … 31 at `(p, i, d)`: row `i + 1`. -/
theorem obsNext_apply (x0 : Vec Ideal S128x32x256 .f32) (h : S128x32x256.Slices ![0, 1, 0] S128x31x256)
    (p : Fin 128) (i : Fin 31) (d : Fin 256) :
    extractStridedSlice S128x31x256 ![0, 1, 0] x0 h (ix3 p i d) = x0 (ix3 p (rNext i) d) :=
  slice3_axis1_apply 1 x0 h p i d (rNext i) (by show i.val + 1 = 1 + i.val; omega)

/-- The observations' row 0 kept as a one-row block. -/
theorem obsFirst_apply (x0 : Vec Ideal S128x32x256 .f32) (h : S128x32x256.Slices ![0, 0, 0] S128x1x256)
    (p : Fin 128) (u : Fin 1) (d : Fin 256) :
    extractStridedSlice S128x1x256 ![0, 0, 0] x0 h (ix3 p u d) = x0 (ix3 p (0 : Fin 32) d) :=
  slice3_axis1_apply 0 x0 h p u d (0 : Fin 32) (by have := u.isLt; show 0 = 0 + u.val; omega)

/-- The observations' row 31 kept as a one-row block. -/
theorem obsLast_apply (x0 : Vec Ideal S128x32x256 .f32) (h : S128x32x256.Slices ![0, 31, 0] S128x1x256)
    (p : Fin 128) (u : Fin 1) (d : Fin 256) :
    extractStridedSlice S128x1x256 ![0, 31, 0] x0 h (ix3 p u d) = x0 (ix3 p (31 : Fin 32) d) :=
  slice3_axis1_apply 31 x0 h p u d (31 : Fin 32) (by have := u.isLt; show 31 = 31 + u.val; omega)

/-- The times' rows 0 … 30 at `(i, d)`: row `i`. -/
theorem timesThis_apply (x1 : Vec Ideal S32x256 .f32) (h : S32x256.Slices ![0, 0] S31x256) (i : Fin 31) (d : Fin 256) :
    extractStridedSlice S31x256 ![0, 0] x1 h (ix2 i d) = x1 (ix2 (rThis i) d) :=
  slice2_axis0_apply 0 x1 h i d (rThis i) (by show i.val = 0 + i.val; omega)

/-- The times' rows 1 … 31 at `(i, d)`: row `i + 1`. -/
theorem timesNext_apply (x1 : Vec Ideal S32x256 .f32) (h : S32x256.Slices ![1, 0] S31x256) (i : Fin 31) (d : Fin 256) :
    extractStridedSlice S31x256 ![1, 0] x1 h (ix2 i d) = x1 (ix2 (rNext i) d) :=
  slice2_axis0_apply 1 x1 h i d (rNext i) (by show i.val + 1 = 1 + i.val; omega)

/-- The times' row 0 kept as a one-row matrix. -/
theorem timesFirst_apply (x1 : Vec Ideal S32x256 .f32) (h : S32x256.Slices ![0, 0] S1x256) (u : Fin 1) (d : Fin 256) :
    extractStridedSlice S1x256 ![0, 0] x1 h (ix2 u d) = x1 (ix2 (0 : Fin 32) d) :=
  slice2_axis0_apply 0 x1 h u d (0 : Fin 32) (by have := u.isLt; show 0 = 0 + u.val; omega)

/-- The times' row 31 kept as a one-row matrix. -/
theorem timesLast_apply (x1 : Vec Ideal S32x256 .f32) (h : S32x256.Slices ![31, 0] S1x256) (u : Fin 1) (d : Fin 256) :
    extractStridedSlice S1x256 ![31, 0] x1 h (ix2 u d) = x1 (ix2 (31 : Fin 32) d) :=
  slice2_axis0_apply 31 x1 h u d (31 : Fin 32) (by have := u.isLt; show 31 = 31 + u.val; omega)

end Slices

/-! ## What a point keeps for the next tile -/

theorem lastObs_apply (x0 : Vec Ideal S128x32x256 .f32) (p : Fin 128) (d : Fin 256) :
    lastObs (F := Ideal) x0 (ix2 p d) = x0 (ix3 p (31 : Fin 32) d) := by
  unfold lastObs k0_pay1 k0_pay19
  rw [shapeCast_self]
  exact (cast_a1c_ac _ _ p d).trans (obsLast_apply x0 _ p 0 d)

theorem lastTimes_apply (x1 : Vec Ideal S32x256 .f32) (d : Fin 256) :
    lastTimes (F := Ideal) x1 (ix2 (0 : Fin 1) d) = x1 (ix2 (31 : Fin 32) d) := by
  unfold lastTimes k0_pay2
  rw [shapeCast_self]
  exact timesLast_apply x1 _ 0 d

/-! ## The rows and blocks a point computes, at an entry -/

/-- A parameter row reshaped to its own shape is the row. -/
theorem pay3_eq (x : Vec Ideal S256 .f32) : k0_pay3 (F := Ideal) x = x := shapeCast_self x _
theorem pay4_eq (x : Vec Ideal S256 .f32) : k0_pay4 (F := Ideal) x = x := shapeCast_self x _

/-- The running sum a first tile starts from is zero. -/
theorem pay5_apply (j : S128x1.Idx) : k0_pay5 (F := Ideal) j = 0 := by
  unfold k0_pay5
  rw [shapeCast_self]
  exact Ideal.ofBits_zero_f32

/-- The step lengths of the 31 in-tile pairs. -/
theorem pay9_apply (x1 : Vec Ideal S32x256 .f32) (i : Fin 31) (d : Fin 256) :
    k0_pay9 (F := Ideal) x1 (ix2 i d) = stepLen (x1 (ix2 (rNext i) d)) (x1 (ix2 (rThis i) d)) := by
  unfold k0_pay9 stepLen
  simp only [maximumf_apply, subf_apply, broadcast_apply, Ideal.ofBits_def]
  rw [timesNext_apply, timesThis_apply]

/-- The later observations of the 31 in-tile pairs. -/
theorem pay8_apply (x0 : Vec Ideal S128x32x256 .f32) (p : Fin 128) (i : Fin 31) (d : Fin 256) :
    k0_pay8 (F := Ideal) x0 (ix3 p i d) = x0 (ix3 p (rNext i) d) := by
  unfold k0_pay8
  exact obsNext_apply x0 _ p i d

/-- The transition means of the 31 in-tile pairs. -/
theorem pay10_apply (x0 : Vec Ideal S128x32x256 .f32) (x1 : Vec Ideal S32x256 .f32) (x2 x3 : Vec Ideal S256 .f32)
    (p : Fin 128) (i : Fin 31) (d : Fin 256) :
    k0_pay10 (F := Ideal) x2 x3 x0 x1 (ix3 p i d)
      = meanOf (x2 (ix1 d)) (x3 (ix1 d)) (stepLen (x1 (ix2 (rNext i) d)) (x1 (ix2 (rThis i) d))) (x0 (ix3 p (rThis i) d)) := by
  unfold k0_pay10 meanOf
  simp only [addf_apply, mulf_apply, subf_apply, exp_apply, broadcast_apply, lane_apply, slab_apply, row_apply,
    pay9_apply, pay3_eq, Ideal.ofBits_def, Ideal.ofBits_zero_f32, zero_sub]
  rw [obsThis_apply]

/-- One minus the decay over twice the step, for the 31 in-tile pairs. -/
theorem pay11_apply (x1 : Vec Ideal S32x256 .f32) (x3 : Vec Ideal S256 .f32) (i : Fin 31) (d : Fin 256) :
    k0_pay11 (F := Ideal) x3 x1 (ix2 i d)
      = wOne - Ideal.exp ((wMTwo * x3 (ix1 d)) * stepLen (x1 (ix2 (rNext i) d)) (x1 (ix2 (rThis i) d))) := by
  unfold k0_pay11
  simp only [mulf_apply, subf_apply, exp_apply, broadcast_apply, row_apply, pay9_apply, pay3_eq, Ideal.ofBits_def]

/-- The squared scale along the 31 pairs. -/
theorem pay12_apply (x4 : Vec Ideal S256 .f32) (i : Fin 31) (d : Fin 256) :
    k0_pay12 (F := Ideal) x4 (ix2 i d) = x4 (ix1 d) * x4 (ix1 d) := by
  unfold k0_pay12
  simp only [mulf_apply, row_apply, pay4_eq]

/-- The tile's first row of observations. -/
theorem pay14_apply (x0 : Vec Ideal S128x32x256 .f32) (p : Fin 128) (d : Fin 256) :
    k0_pay14 (F := Ideal) x0 (ix2 p d) = x0 (ix3 p (0 : Fin 32) d) :=
  (cast_a1c_ac _ _ p d).trans (obsFirst_apply x0 _ p 0 d)

/-- The step length of the bridging pair. -/
theorem pay15_apply (x1 : Vec Ideal S32x256 .f32) (s2 : Vec Ideal S1x256 .f32) (d : Fin 256) :
    k0_pay15 (F := Ideal) x1 s2 (ix1 d) = stepLen (x1 (ix2 (0 : Fin 32) d)) (s2 (ix2 (0 : Fin 1) d)) := by
  unfold k0_pay15 stepLen
  simp only [maximumf_apply, subf_apply, broadcast_apply, shapeCast_1a_a_apply, Ideal.ofBits_def]
  rw [timesFirst_apply]

/-- The decay over the bridging step. -/
theorem pay16_apply (v2 : FVec Ideal S256 .f32) (x1 : Vec Ideal S32x256 .f32) (s2 : Vec Ideal S1x256 .f32) (d : Fin 256) :
    k0_pay16 (F := Ideal) v2 x1 s2 (ix1 d)
      = Ideal.exp ((-(v2 (ix1 d))) * stepLen (x1 (ix2 (0 : Fin 32) d)) (s2 (ix2 (0 : Fin 1) d))) := by
  unfold k0_pay16
  simp only [mulf_apply, subf_apply, exp_apply, broadcast_apply, pay15_apply, Ideal.ofBits_def, Ideal.ofBits_zero_f32, zero_sub]

/-- The running sum after the 31 in-tile pairs, over whatever rows and blocks the summands are built from. -/
theorem pay13_apply (v2 : FVec Ideal S256 .f32) (v11 v31 : FVec Ideal S128x31x256 .f32) (v40 v42 : FVec Ideal S31x256 .f32)
    (v67 : Vec Ideal S128x1 .f32) (p : Fin 128) :
    k0_pay13 (F := Ideal) v2 v11 v31 v40 v42 v67 (ix2 p (0 : Fin 1))
      = v67 (ix2 p (0 : Fin 1)) + ∑ i : Fin 31, ∑ d : Fin 256,
          wMHalf * dens (max (Ideal.div (v42 (ix2 i d) * v40 (ix2 i d)) (wTwo * v2 (ix1 d))) wEps10)
            (v11 (ix3 p i d)) (v31 (ix3 p i d)) := by
  unfold k0_pay13
  simp only [shapeCast_self, addf_apply, cast_n_n1]
  refine congrArg (v67 (ix2 p (0 : Fin 1)) + ·) ?_
  refine (sumLast2_zero _ _ _ _ p).trans (Finset.sum_congr rfl fun i _ => ?_)
  refine (sumLast3_zero _ _ _ _ p i).trans (Finset.sum_congr rfl fun d _ => ?_)
  unfold dens
  simp only [mulf_apply, addf_apply, subf_apply, divf_apply, maximumf_apply, log_apply, broadcast_apply, slab_apply,
    row_apply, Ideal.ofBits_def]

/-- The running sum after the bridging pair, over whatever rows the summands are built from. -/
theorem pay17_apply (v0 : Vec Ideal S256 .f32) (v2 v4 : FVec Ideal S256 .f32) (v73 : FVec Ideal S128x256 .f32)
    (v76 : Vec Ideal S128x256 .f32) (v81 v85 : FVec Ideal S256 .f32) (v140 : Vec Ideal S128x1 .f32) (p : Fin 128) :
    k0_pay17 (F := Ideal) v0 v2 v4 v73 v76 v81 v85 v140 (ix2 p (0 : Fin 1))
      = v140 (ix2 p (0 : Fin 1)) + ∑ d : Fin 256,
          wMHalf * dens (varOf (v2 (ix1 d)) (v4 (ix1 d)) (v81 (ix1 d))) (v73 (ix2 p d))
            (v0 (ix1 d) + v85 (ix1 d) * (v76 (ix2 p d) - v0 (ix1 d))) := by
  unfold k0_pay17
  simp only [shapeCast_self, addf_apply, cast_n_n1]
  refine congrArg (v140 (ix2 p (0 : Fin 1)) + ·) ?_
  refine (sumLast2_zero _ _ _ _ p).trans (Finset.sum_congr rfl fun d _ => ?_)
  unfold dens varOf
  simp only [mulf_apply, addf_apply, subf_apply, divf_apply, maximumf_apply, log_apply, exp_apply, broadcast_apply,
    row_apply, Ideal.ofBits_def]

/-- The running sum after the stationary term, over whatever rows the summands are built from. -/
theorem pay18_apply (v0 : Vec Ideal S256 .f32) (v2 v4 : FVec Ideal S256 .f32) (v73 : FVec Ideal S128x256 .f32)
    (v163 : Vec Ideal S128x1 .f32) (p : Fin 128) :
    k0_pay18 (F := Ideal) v0 v2 v4 v73 v163 (ix2 p (0 : Fin 1))
      = v163 (ix2 p (0 : Fin 1)) + ∑ d : Fin 256,
          wMHalf * dens (var0Of (v2 (ix1 d)) (v4 (ix1 d))) (v73 (ix2 p d)) (v0 (ix1 d)) := by
  unfold k0_pay18
  simp only [shapeCast_self, addf_apply, cast_n_n1]
  refine congrArg (v163 (ix2 p (0 : Fin 1)) + ·) ?_
  refine (sumLast2_zero _ _ _ _ p).trans (Finset.sum_congr rfl fun d _ => ?_)
  unfold dens var0Of
  simp only [mulf_apply, addf_apply, subf_apply, divf_apply, maximumf_apply, log_apply, broadcast_apply,
    row_apply, Ideal.ofBits_def]

/-! ## The running sums -/

/-- The running sum after the 31 in-tile pairs: what it was, plus the pairs' weighted summands. -/
theorem accPairs_apply (x0 : Vec Ideal S128x32x256 .f32) (x1 : Vec Ideal S32x256 .f32) (x2 x3 x4 : Vec Ideal S256 .f32)
    (s : Vec Ideal S128x1 .f32) (p : Fin 128) :
    accPairs (F := Ideal) x0 x1 x2 x3 x4 s (ix2 p (0 : Fin 1)) = s (ix2 p (0 : Fin 1)) + pairsSum x0 x1 x2 x3 x4 p := by
  unfold accPairs pairsSum
  rw [pay13_apply]
  simp only [pay3_eq, pay8_apply, pay10_apply, pay11_apply, pay12_apply]
  rfl

theorem accFirst_apply (x0 : Vec Ideal S128x32x256 .f32) (x1 : Vec Ideal S32x256 .f32) (x2 x3 x4 : Vec Ideal S256 .f32) (p : Fin 128) :
    accFirst (F := Ideal) x0 x1 x2 x3 x4 (ix2 p (0 : Fin 1))
      = pairsSum x0 x1 x2 x3 x4 p + ∑ d : Fin 256, wMHalf * init (x2 (ix1 d)) (x3 (ix1 d)) (x4 (ix1 d)) (x0 (ix3 p (0 : Fin 32) d)) := by
  unfold accFirst
  rw [pay18_apply, accPairs_apply, pay5_apply, zero_add]
  simp only [pay3_eq, pay4_eq, pay14_apply]
  rfl

theorem accNext_apply (x0 : Vec Ideal S128x32x256 .f32) (x1 : Vec Ideal S32x256 .f32) (x2 x3 x4 : Vec Ideal S256 .f32)
    (s0 : Vec Ideal S128x1 .f32) (s1 : Vec Ideal S128x256 .f32) (s2 : Vec Ideal S1x256 .f32) (p : Fin 128) :
    accNext (F := Ideal) x0 x1 x2 x3 x4 s0 s1 s2 (ix2 p (0 : Fin 1))
      = (s0 (ix2 p (0 : Fin 1)) + pairsSum x0 x1 x2 x3 x4 p)
        + ∑ d : Fin 256, wMHalf * trans (x2 (ix1 d)) (x3 (ix1 d)) (x4 (ix1 d)) (x1 (ix2 (0 : Fin 32) d)) (s2 (ix2 (0 : Fin 1) d)) (x0 (ix3 p (0 : Fin 32) d)) (s1 (ix2 p d)) := by
  unfold accNext
  rw [pay17_apply, accPairs_apply]
  simp only [pay3_eq, pay4_eq, pay14_apply, pay15_apply, pay16_apply]
  rfl

end Cert.KernelIdeal.StepIdeal

end
-- ==== Proof.OuInduct.lean ====
/-
  The kernel's walk over one batch tile adds up the whole log-density of each of its rows.

  Position n of the grid is batch tile n / 32 and time tile n % 32. Entry p of the running sum belongs to batch row
  b = 128 (n / 32) + p. A first time tile leaves the 31 pairs inside its tile and the stationary terms of the row's
  first observation; every later tile adds the pair bridging the previous tile's last row (carried over as the last
  observations and the last times) to its own first row, and then its own 31 pairs. So after position n the running
  sum holds the pairs below 32 (n % 32) + 31 of the 1023 consecutive pairs, and the stationary terms: an invariant
  proved by induction on the position. At the last time tile (n % 32 = 31) that is every pair: the log-density
  weighted per element. The sums are over the extended reals, a commutative monoid under addition: re-association
  and splitting a range of positions need no finiteness.

  The pairs of a row are indexed by a natural number (zero past the last pair) so that a range of positions splits
  by the arithmetic of ranges; the rows `t' + 1` and `t'` of a pair are named with any proof of their bounds.
-/
import proofs.«154525_j39032662786269_1_alg».proof.Proof.OuBlocks
import proofs.«154525_j39032662786269_1_alg».proof.Proof.OuPay
import Mathlib.Algebra.BigOperators.Fin
import Mathlib.Tactic.Abel

noncomputable section

open scoped BigOperators

namespace Cert.KernelIdeal.WalkIdeal

open Cert.OU Cert.KernelIdeal Cert.KernelIdeal.Gen Cert.KernelIdeal.Step Idealize.ShloMosaic Idealize.ShloMosaic.ValueIdx Idealize.ShloMosaic.TcCoe
open Cert.KernelIdeal.StepIdeal

/-! ## The pairs of one batch row, indexed by position -/

/-- The weighted transition terms of pair `j` of batch row `b`, summed over the dimensions; zero past the last pair. -/
def pairTerm (y : Y3) (ts : T2) (mu kap sig : P1) (b : Fin 256) (j : ℕ) : EReal :=
  if h : j < 1023 then ∑ d : Fin 256, wMHalf * Xtr y ts mu kap sig b ⟨j, h⟩ d else 0

theorem pairTerm_of_lt (y : Y3) (ts : T2) (mu kap sig : P1) (b : Fin 256) {j : ℕ} (h : j < 1023) :
    pairTerm y ts mu kap sig b j = ∑ d : Fin 256, wMHalf * Xtr y ts mu kap sig b ⟨j, h⟩ d := dif_pos h

/-- A transition summand written with its two rows named: whatever the proofs that the rows are in range, rows
    `t' + 1` and `t'` give the summand of pair `t'`. -/
theorem trans_rows_eq_Xtr (y : Y3) (ts : T2) (mu kap sig : P1) (b : Fin 256) (t' : Fin 1023) (rn rt : Fin 1024)
    (hn : rn.val = t'.val + 1) (ht : rt.val = t'.val) (d : Fin 256) :
    trans (mu (ix1 d)) (kap (ix1 d)) (sig (ix1 d)) (ts (ix2 rn d)) (ts (ix2 rt d)) (y (ix3 b rn d)) (y (ix3 b rt d))
      = Xtr y ts mu kap sig b t' d := by
  have e1 : rn = rowNext t' := Fin.ext hn
  have e2 : rt = rowThis t' := Fin.ext ht
  subst e1 e2
  rfl

/-- All 1023 positions: the sum over the pairs. -/
theorem sum_pairTerm_all (y : Y3) (ts : T2) (mu kap sig : P1) (b : Fin 256) :
    ∑ j ∈ Finset.range 1023, pairTerm y ts mu kap sig b j = ∑ t : Fin 1023, ∑ d : Fin 256, wMHalf * Xtr y ts mu kap sig b t d := by
  rw [Finset.sum_range]
  exact Finset.sum_congr rfl fun t _ => pairTerm_of_lt y ts mu kap sig b t.isLt

/-! ## The argument arrays and the blocks of a point in them -/

variable (m : (ℓ : Loc nD τ sig) → Buf (Elt Ideal) ℓ) (c : Dev nD)

/-- The observations, the times, the means, and the rows of rates and of scales the kernel reads. -/
abbrev aY : Y3 := m ((c : Thread nD τ).loc main_arg0)
abbrev aTS : T2 := m ((c : Thread nD τ).loc main_arg1)
abbrev aMU : P1 := m ((c : Thread nD τ).loc main_arg2)
abbrev aKAP : P1 := fun j => Cert.OU.rateOf (m ((c : Thread nD τ).loc main_arg3) j)
abbrev aSIG : P1 := fun j => Cert.OU.rateOf (m ((c : Thread nD τ).loc main_arg4) j)

/-- A grid position is below 64. -/
theorem pos64 (t : Fin cfg0.N) : t.val < 64 := lt_of_lt_of_eq t.isLt N_0

/-- An observation of the point's block, with the batch row and the time row named. -/
theorem x0_at (t : Fin cfg0.N) (p : Fin 128) (i : Fin 32) (d : Fin 256) (b : Fin 256) (r : Fin 1024)
    (hb : b.val = 128 * (t.val / 32) + p.val) (hr : r.val = 32 * (t.val % 32) + i.val) :
    iblk m c 0 t (ix3 p i d) = aY m c (ix3 b r d) := by
  obtain ⟨bv, hbv⟩ := b
  obtain ⟨rv, hrv⟩ := r
  dsimp only at hb hr
  subst hb hr
  exact blk0 m c t p i d

/-- A time of the point's block, with the time row named. -/
theorem x1_at (t : Fin cfg0.N) (i : Fin 32) (d : Fin 256) (r : Fin 1024) (hr : r.val = 32 * (t.val % 32) + i.val) :
    iblk m c 1 t (ix2 i d) = aTS m c (ix2 r d) := by
  obtain ⟨rv, hrv⟩ := r
  dsimp only at hr
  subst hr
  exact blk1 m c t i d

/-- The 31 in-tile pairs of the point at time tile `t % 32` are the pairs `32 (t % 32) + i` of the batch row. -/
theorem pairs_at (t : Fin cfg0.N) (p : Fin 128) (b : Fin 256) (hb : b.val = 128 * (t.val / 32) + p.val) :
    pairsSum (iblk m c 0 t) (iblk m c 1 t) (iblk m c 2 t) (iblk m c 3 t) (iblk m c 4 t) p
      = ∑ i : Fin 31, pairTerm (aY m c) (aTS m c) (aMU m c) (aKAP m c) (aSIG m c) b (32 * (t.val % 32) + i.val) := by
  unfold pairsSum
  refine Finset.sum_congr rfl fun i _ => ?_
  have hlt : 32 * (t.val % 32) + i.val < 1023 := by have := i.isLt; omega
  rw [pairTerm_of_lt (aY m c) (aTS m c) (aMU m c) (aKAP m c) (aSIG m c) b hlt]
  refine Finset.sum_congr rfl fun d _ => congrArg (wMHalf * ·) ?_
  have hnx : (rowNext ⟨32 * (t.val % 32) + i.val, hlt⟩).val = 32 * (t.val % 32) + (rNext i).val := by
    show 32 * (t.val % 32) + i.val + 1 = 32 * (t.val % 32) + (i.val + 1); omega
  rw [blk2 m c t d, blk3 m c t d, blk4 m c t d,
    x1_at m c t (rNext i) d (rowNext ⟨32 * (t.val % 32) + i.val, hlt⟩) hnx,
    x1_at m c t (rThis i) d (rowThis ⟨32 * (t.val % 32) + i.val, hlt⟩) rfl,
    x0_at m c t p (rNext i) d b (rowNext ⟨32 * (t.val % 32) + i.val, hlt⟩) hb hnx,
    x0_at m c t p (rThis i) d b (rowThis ⟨32 * (t.val % 32) + i.val, hlt⟩) hb rfl]
  rfl

/-- The last row of a position's time tile. -/
abbrev lastRow (n : ℕ) : Fin 1024 := ⟨32 * (n % 32) + 31, by omega⟩

/-- What a point leaves in the carried observations: its block's last row. -/
theorem obs_at (t : Fin cfg0.N) (p : Fin 128) (d : Fin 256) (b : Fin 256) (hb : b.val = 128 * (t.val / 32) + p.val) :
    (Walk.stateAt m c t.val t.isLt).2.1 (ix2 p d) = aY m c (ix3 b (lastRow t.val) d) := by
  have h : (Walk.stateAt m c t.val t.isLt).2.1 = lastObs (iblk m c 0 t) := by
    by_cases h0 : t.val % 32 = 0
    · rw [Walk.stateAt_first m c t h0]; rfl
    · rw [Walk.stateAt_next m c t h0]; rfl
  rw [h, lastObs_apply]
  exact x0_at m c t p 31 d b (lastRow t.val) hb rfl

/-- What a point leaves in the carried times: its block's last row. -/
theorem times_at (t : Fin cfg0.N) (d : Fin 256) :
    (Walk.stateAt m c t.val t.isLt).2.2 (ix2 (0 : Fin 1) d) = aTS m c (ix2 (lastRow t.val) d) := by
  have h : (Walk.stateAt m c t.val t.isLt).2.2 = lastTimes (iblk m c 1 t) := by
    by_cases h0 : t.val % 32 = 0
    · rw [Walk.stateAt_first m c t h0]; rfl
    · rw [Walk.stateAt_next m c t h0]; rfl
  rw [h, lastTimes_apply]
  exact x1_at m c t 31 d (lastRow t.val) rfl

/-- The running sum a first time tile leaves: the first 31 pairs of the batch row and its stationary terms. -/
theorem first_at (t : Fin cfg0.N) (h : t.val % 32 = 0) (p : Fin 128) (b : Fin 256) (hb : b.val = 128 * (t.val / 32) + p.val) :
    (Walk.firstAt m c t).1 (ix2 p (0 : Fin 1))
      = (∑ j ∈ Finset.range (32 * (t.val % 32) + 31), pairTerm (aY m c) (aTS m c) (aMU m c) (aKAP m c) (aSIG m c) b j)
        + ∑ d : Fin 256, wMHalf * X0 (aY m c) (aMU m c) (aKAP m c) (aSIG m c) b d := by
  show accFirst (F := Ideal) (iblk m c 0 t) (iblk m c 1 t) (iblk m c 2 t) (iblk m c 3 t) (iblk m c 4 t) (ix2 p (0 : Fin 1)) = _
  have h31 : 32 * (t.val % 32) + 31 = 31 := by omega
  have hp : ∀ i : Fin 31, 32 * (t.val % 32) + i.val = i.val := fun i => by omega
  have hr0 : ((0 : Fin 1024)).val = 32 * (t.val % 32) + ((0 : Fin 32)).val := by
    show 0 = 32 * (t.val % 32) + 0; omega
  rw [accFirst_apply, pairs_at m c t p b hb, h31, Finset.sum_range]
  simp only [hp]
  refine congrArg (_ + ·) ?_
  refine Finset.sum_congr rfl fun d _ => congrArg (wMHalf * ·) ?_
  rw [blk2 m c t d, blk3 m c t d, blk4 m c t d, x0_at m c t p 0 d b 0 hb hr0]
  rfl

/-- The running sum a later time tile leaves, from what it finds: the pairs up to `K` (the previous tiles'), the
    stationary terms, and the previous tile's last row `K`; it adds the bridging pair `K` and its own 31 pairs. -/
theorem next_at (t : Fin cfg0.N) (p : Fin 128) (b : Fin 256) (hb : b.val = 128 * (t.val / 32) + p.val)
    (K : ℕ) (hK : K + 32 = 32 * (t.val % 32) + 31) (rp : Fin 1024) (hrp : rp.val = K) (s : Walk.Carried Ideal)
    (hs0 : s.1 (ix2 p (0 : Fin 1))
      = (∑ j ∈ Finset.range K, pairTerm (aY m c) (aTS m c) (aMU m c) (aKAP m c) (aSIG m c) b j)
        + ∑ d : Fin 256, wMHalf * X0 (aY m c) (aMU m c) (aKAP m c) (aSIG m c) b d)
    (hs1 : ∀ d, s.2.1 (ix2 p d) = aY m c (ix3 b rp d)) (hs2 : ∀ d, s.2.2 (ix2 (0 : Fin 1) d) = aTS m c (ix2 rp d)) :
    (Walk.nextAt m c t s).1 (ix2 p (0 : Fin 1))
      = (∑ j ∈ Finset.range (32 * (t.val % 32) + 31), pairTerm (aY m c) (aTS m c) (aMU m c) (aKAP m c) (aSIG m c) b j)
        + ∑ d : Fin 256, wMHalf * X0 (aY m c) (aMU m c) (aKAP m c) (aSIG m c) b d := by
  have hsplit : 32 * (t.val % 32) + 31 = K + 1 + 31 := by omega
  have hKlt : K < 1023 := by have := Nat.mod_lt t.val (by norm_num : 32 > 0); omega
  have hbr : (∑ d : Fin 256, wMHalf * trans (iblk m c 2 t (ix1 d)) (iblk m c 3 t (ix1 d)) (iblk m c 4 t (ix1 d))
        (iblk m c 1 t (ix2 (0 : Fin 32) d)) (s.2.2 (ix2 (0 : Fin 1) d)) (iblk m c 0 t (ix3 p (0 : Fin 32) d)) (s.2.1 (ix2 p d)))
      = pairTerm (aY m c) (aTS m c) (aMU m c) (aKAP m c) (aSIG m c) b K := by
    rw [pairTerm_of_lt (aY m c) (aTS m c) (aMU m c) (aKAP m c) (aSIG m c) b hKlt]
    refine Finset.sum_congr rfl fun d _ => congrArg (wMHalf * ·) ?_
    have hnx : (rowNext ⟨K, hKlt⟩).val = 32 * (t.val % 32) + ((0 : Fin 32)).val := by
      show K + 1 = 32 * (t.val % 32) + 0; omega
    rw [hs1 d, hs2 d, blk2 m c t d, blk3 m c t d, blk4 m c t d,
      x1_at m c t 0 d (rowNext ⟨K, hKlt⟩) hnx,
      x0_at m c t p 0 d b (rowNext ⟨K, hKlt⟩) hb hnx]
    exact trans_rows_eq_Xtr (aY m c) (aTS m c) (aMU m c) (aKAP m c) (aSIG m c) b ⟨K, hKlt⟩ (rowNext ⟨K, hKlt⟩) rp rfl hrp d
  have hp : ∀ i : Fin 31, 32 * (t.val % 32) + i.val = K + 1 + i.val := fun i => by omega
  show accNext (F := Ideal) (iblk m c 0 t) (iblk m c 1 t) (iblk m c 2 t) (iblk m c 3 t) (iblk m c 4 t) s.1 s.2.1 s.2.2 (ix2 p (0 : Fin 1)) = _
  have hpairs : (∑ i : Fin 31, pairTerm (aY m c) (aTS m c) (aMU m c) (aKAP m c) (aSIG m c) b (32 * (t.val % 32) + i.val))
      = ∑ x ∈ Finset.range 31, pairTerm (aY m c) (aTS m c) (aMU m c) (aKAP m c) (aSIG m c) b (K + 1 + x) := by
    rw [Finset.sum_range]
    exact Finset.sum_congr rfl fun i _ => by rw [hp i]
  rw [accNext_apply, pairs_at m c t p b hb, hpairs, hbr, hs0, hsplit, Finset.sum_range_add _ (K + 1) 31, Finset.sum_range_succ _ K]
  abel

/-- The batch row of entry `p` of the running sum at position `n`. -/
abbrev bRow (n : ℕ) (hn : n < cfg0.N) (p : Fin 128) : Fin 256 :=
  ⟨128 * (n / 32) + p.val, by have := p.isLt; have hN : cfg0.N = 64 := N_0; omega⟩

/-- THE INVARIANT of the walk: after position `n` the running sum of batch row `128 (n / 32) + p` holds the pairs
    below `32 (n % 32) + 31` and the stationary terms. -/
theorem acc_at (p : Fin 128) : ∀ (n : ℕ) (hn : n < cfg0.N),
    (Walk.stateAt m c n hn).1 (ix2 p (0 : Fin 1))
      = (∑ j ∈ Finset.range (32 * (n % 32) + 31),
            pairTerm (aY m c) (aTS m c) (aMU m c) (aKAP m c) (aSIG m c) (bRow n hn p) j)
        + ∑ d : Fin 256, wMHalf * X0 (aY m c) (aMU m c) (aKAP m c) (aSIG m c) (bRow n hn p) d := by
  intro n
  induction n with
  | zero => intro hn; exact first_at m c ⟨0, hn⟩ rfl p _ rfl
  | succ k ih =>
    intro hn
    by_cases h : (k + 1) % 32 = 0
    · rw [Walk.stateAt_first m c ⟨k + 1, hn⟩ h]
      exact first_at m c ⟨k + 1, hn⟩ h p _ rfl
    · have hk : k < cfg0.N := Nat.lt_of_succ_lt hn
      have hN : cfg0.N = 64 := N_0
      have eb : bRow k hk p = bRow (k + 1) hn p := Fin.ext (by show 128 * (k / 32) + p.val = 128 * ((k + 1) / 32) + p.val; omega)
      rw [Walk.stateAt_next m c ⟨k + 1, hn⟩ h]
      refine next_at m c ⟨k + 1, hn⟩ p (bRow (k + 1) hn p) rfl (32 * (k % 32) + 31) (by show _ = 32 * ((k + 1) % 32) + 31; omega)
        (lastRow k) rfl _ ?_ ?_ ?_
      · rw [← eb]; exact ih hk
      · intro d; exact obs_at m c ⟨k, hk⟩ p d _ (by rw [← eb])
      · intro d; exact times_at m c ⟨k, hk⟩ d

/-- After a batch tile's last time tile the running sum of each of its rows is the whole log-density of that row,
    weighted per element. -/
theorem hlast (m : (ℓ : Loc nD τ sig) → Buf (Elt Ideal) ℓ) (c : Dev nD) (t : Fin cfg0.N) (p : Fin 128) (h : t.val % 32 = 31) :
    (Walk.stateAt m c t.val t.isLt).1 (ix2 p (0 : Fin 1))
      = Cert.OU.KerVal (m ((c : Thread nD τ).loc main_arg0)) (m ((c : Thread nD τ).loc main_arg1)) (m ((c : Thread nD τ).loc main_arg2))
          (fun j => Cert.OU.rateOf (m ((c : Thread nD τ).loc main_arg3) j)) (fun j => Cert.OU.rateOf (m ((c : Thread nD τ).loc main_arg4) j))
          ⟨128 * (t.val / 32) + p.val, by have := t.isLt; have := p.isLt; have hN : cfg0.N = 64 := N_0; omega⟩ := by
  rw [acc_at m c p t.val t.isLt, h]
  unfold KerVal
  exact congrArg (· + _) (sum_pairTerm_all (aY m c) (aTS m c) (aMU m c) (aKAP m c) (aSIG m c) _)

end Cert.KernelIdeal.WalkIdeal

end
-- ==== Proof.OuRef.lean ====
/-
  The reference program read as the specification.

  The reference computes, for each batch row `b`, the Ornstein–Uhlenbeck path log-density: the stationary Gaussian term
  of the first observation plus one exact-transition Gaussian term per consecutive pair of rows, every term a sum over the
  256 dimensions weighted once by −1/2. Read one operation at a time at an index, its result at `b` is `RefVal` of the
  arguments with κ and σ the softplus-plus-offset of the raw rate parameters.

  The steps: the two rates (the program's softplus guards a NaN by comparing a value with itself, which on the extended
  reals never differs, so the guarded branch is never taken); the stationary summand at `(b, d)`, whose variance depends
  on `d` alone; the transition summand at `(b, t, d)`, whose step length, decay factors and variance depend on `(t, d)`
  alone and whose later and earlier rows are the slices `[1:]` and `[:-1]`; then the three sums, each starting from the
  zero word.
-/
import proofs.«154525_j39032662786269_1_alg».proof.Proof.Gen.ReferenceIdeal.Read
import proofs.«154525_j39032662786269_1_alg».proof.Proof.OuSpec

noncomputable section

open scoped BigOperators

namespace Cert.OU.Ref

open Cert.ReferenceIdeal Cert.ReferenceIdeal.Read Idealize.ShloMosaic Idealize.ShloMosaic.ValueIdx Cert.OU

/-! ## The rates κ and σ

The program's softplus selects `x + 0` where `x - 0` differs from itself (the test for a NaN) and
`max x 0 + log1p (exp (-|x - 0|))` elsewhere. On the extended reals nothing differs from itself, so the second branch
is always taken, and `x - 0 = x`. -/

/-- No extended real differs from itself. -/
theorem cmp_une_self (x : EReal) : Ideal.cmp .une x x = 0#1 := by
  simp [Ideal.cmp]

/-- κ: the reference's `softplus(log_kappa) + 1e-6`. -/
theorem kappa_eq (a3 : (⟨S256, .f32⟩ : BufTy).Contents (Elt Ideal)) (j : S256.Idx) :
    val_main_v2 (F := Ideal) a3 j = rateOf (a3 j) := by
  simp only [val_main_v2_apply, val_main_v0_apply, val_main_v1_apply, val_main_cst_apply,
    val_main_call0_v4_apply, val_main_call0_v3_apply, val_main_call0_v2_apply, val_main_call0_cst_apply,
    val_main_call0_v6_apply, val_main_call0_v5_apply, val_main_call0_v11_apply, val_main_call0_v1_apply,
    val_main_call0_v0_apply, val_main_call0_v10_apply, val_main_call0_v9_apply, val_main_call0_v8_apply,
    val_main_call0_v7_apply]
  simp only [Ideal.addf_def, Ideal.subf_def, Ideal.maximumf_def, Ideal.hostUnary_log1p_def, Ideal.hostUnary_exp_def,
    Ideal.hostNegf_def, Ideal.hostAbsf_def, Ideal.negf_def, Ideal.absf_def, Ideal.cmpf_def, Ideal.ofBits_def]
  rw [Ideal.ofBits_zero_f32, sub_zero, cmp_une_self, select_zero]
  rfl

/-- σ: the reference's `softplus(log_sigma) + 1e-6`. -/
theorem sigma_eq (a4 : (⟨S256, .f32⟩ : BufTy).Contents (Elt Ideal)) (j : S256.Idx) :
    val_main_v5 (F := Ideal) a4 j = rateOf (a4 j) := by
  simp only [val_main_v5_apply, val_main_v3_apply, val_main_v4_apply, val_main_cst_0_apply,
    val_main_call1_v4_apply, val_main_call1_v3_apply, val_main_call1_v2_apply, val_main_call1_cst_apply,
    val_main_call1_v6_apply, val_main_call1_v5_apply, val_main_call1_v11_apply, val_main_call1_v1_apply,
    val_main_call1_v0_apply, val_main_call1_v10_apply, val_main_call1_v9_apply, val_main_call1_v8_apply,
    val_main_call1_v7_apply]
  simp only [Ideal.addf_def, Ideal.subf_def, Ideal.maximumf_def, Ideal.hostUnary_log1p_def, Ideal.hostUnary_exp_def,
    Ideal.hostNegf_def, Ideal.hostAbsf_def, Ideal.negf_def, Ideal.absf_def, Ideal.cmpf_def, Ideal.ofBits_def]
  rw [Ideal.ofBits_zero_f32, sub_zero, cmp_une_self, select_zero]
  rfl

/-! ## The stationary term

Row `b` of the first observation `y[:, 0, :]` against the stationary Gaussian: per dimension `d` the variance
`max (σ² / (2κ)) ε₁₀` is a function of `d` alone, broadcast along the batch axis. -/

/-- The stationary variance at dimension `d`. -/
theorem var0_at (a3 : (⟨S256, .f32⟩ : BufTy).Contents (Elt Ideal)) (a4 : (⟨S256, .f32⟩ : BufTy).Contents (Elt Ideal)) (d : Fin 256) :
    val_main_v14 (F := Ideal) a3 a4 (ix1 d) = var0Of (rateOf (a3 (ix1 d))) (rateOf (a4 (ix1 d))) := by
  simp only [val_main_v14_apply, val_main_v10_apply, val_main_v7_apply, val_main_v9_apply, val_main_v8_apply,
    val_main_cst_1_apply, val_main_v13_apply, val_main_cst_2_apply, kappa_eq, sigma_eq]
  rfl

/-- The flattened first observation: element `(b, d)` of `y[:, 0, :]` is `y[b, 0, d]`. -/
theorem y0_at (a0 : (⟨S256x1024x256, .f32⟩ : BufTy).Contents (Elt Ideal)) (b d : Fin 256) :
    val_main_v12 (F := Ideal) a0 (ix2 b d) = a0 (ix3 b (0 : Fin 1024) d) := by
  rw [val_main_v12_apply, val_main_v11_apply]
  refine congrArg a0 (funext fun a => ?_)
  have hb := b.isLt
  have hd := d.isLt
  match a with
  | ⟨0, _⟩ => exact Fin.ext (show (b.val * 256 + d.val) / 256 = b.val by omega)
  | ⟨1, _⟩ => rfl
  | ⟨2, _⟩ => exact Fin.ext (show (b.val * 256 + d.val) % 256 = d.val by omega)

/-- The stationary summand at `(b, d)`. -/
theorem x0_at (a0 : (⟨S256x1024x256, .f32⟩ : BufTy).Contents (Elt Ideal)) (a2 : (⟨S256, .f32⟩ : BufTy).Contents (Elt Ideal)) (a3 : (⟨S256, .f32⟩ : BufTy).Contents (Elt Ideal)) (a4 : (⟨S256, .f32⟩ : BufTy).Contents (Elt Ideal)) (b d : Fin 256) :
    val_main_v27 (F := Ideal) a0 a2 a3 a4 (ix2 b d)
      = X0 a0 a2 (fun j => rateOf (a3 j)) (fun j => rateOf (a4 j)) b d := by
  have h26 : val_main_v26 (F := Ideal) a3 a4 (ix2 b d) = val_main_v17 (F := Ideal) a3 a4 (ix1 d) := by
    rw [val_main_v26_apply, val_main_v25_apply]
    exact congrArg _ (funext fun a => match a with | ⟨0, _⟩ => rfl)
  have h23 : val_main_v23 (F := Ideal) a3 a4 (ix2 b d) = val_main_v14 (F := Ideal) a3 a4 (ix1 d) := by
    rw [val_main_v23_apply, val_main_v22_apply]
    exact congrArg _ (funext fun a => match a with | ⟨0, _⟩ => rfl)
  have h19 : val_main_v19 (F := Ideal) a2 (ix2 b d) = a2 (ix1 d) := by
    rw [val_main_v19_apply, val_main_v18_apply]
    exact congrArg _ (funext fun a => match a with | ⟨0, _⟩ => rfl)
  rw [val_main_v27_apply, val_main_v24_apply, val_main_v21_apply, val_main_v20_apply, h26, h23, h19, y0_at,
    val_main_v17_apply, val_main_v15_apply, val_main_v16_apply, val_main_cst_3_apply, var0_at]
  rfl

/-- The stationary term of row `b`: one weight −1/2 on the sum over the dimensions. -/
theorem stat_at (a0 : (⟨S256x1024x256, .f32⟩ : BufTy).Contents (Elt Ideal)) (a2 : (⟨S256, .f32⟩ : BufTy).Contents (Elt Ideal)) (a3 : (⟨S256, .f32⟩ : BufTy).Contents (Elt Ideal)) (a4 : (⟨S256, .f32⟩ : BufTy).Contents (Elt Ideal)) (b : Fin 256) :
    val_main_v30 (F := Ideal) a0 a2 a3 a4 (ix1 b)
      = wMHalf * ∑ d : Fin 256, X0 a0 a2 (fun j => rateOf (a3 j)) (fun j => rateOf (a4 j)) b d := by
  rw [val_main_v30_apply, val_main_v29_apply, val_main_cst_5_apply, val_main_v28_apply, val_main_cst_4_apply]
  show wMHalf * (Ideal.ofBits .f32 0x00000000#32 + _) = _
  rw [Ideal.ofBits_zero_f32, zero_add]
  refine congrArg (wMHalf * ·) (Finset.sum_congr rfl fun d _ => ?_)
  exact (congrArg (val_main_v27 (F := Ideal) a0 a2 a3 a4) (show idx_main_v28 (ix1 b) d = ix2 b d from funext fun a => match a with | ⟨0, _⟩ => rfl | ⟨1, _⟩ => rfl)).trans (x0_at a0 a2 a3 a4 b d)

/-! ## One transition row

For a pair `t` of consecutive rows the step length, the decay factors and the variance depend on `(t, d)` alone and are
broadcast along the batch axis; the later row `t + 1` is read through the slices `[1:]`, the earlier row `t` through `[:-1]`. -/

/-- The later time `ts[t + 1, d]`. -/
theorem tsNext_at (a1 : (⟨S1024x256, .f32⟩ : BufTy).Contents (Elt Ideal)) (t : Fin 1023) (d : Fin 256) :
    val_main_v31 (F := Ideal) a1 (ix3 (0 : Fin 1) t d) = a1 (ix2 (rowNext t) d) := by
  rw [val_main_v31_apply, val_main_v6_apply]
  exact congrArg a1 (funext fun a => match a with
    | ⟨0, _⟩ => Fin.ext (Nat.add_comm 1 t.val)
    | ⟨1, _⟩ => rfl)

/-- The earlier time `ts[t, d]`. -/
theorem tsThis_at (a1 : (⟨S1024x256, .f32⟩ : BufTy).Contents (Elt Ideal)) (t : Fin 1023) (d : Fin 256) :
    val_main_v32 (F := Ideal) a1 (ix3 (0 : Fin 1) t d) = a1 (ix2 (rowThis t) d) := by
  rw [val_main_v32_apply, val_main_v6_apply]
  exact congrArg a1 (funext fun a => match a with | ⟨0, _⟩ => rfl | ⟨1, _⟩ => rfl)

/-- The step length `max (ts[t + 1, d] − ts[t, d]) ε₆`. -/
theorem step_at (a1 : (⟨S1024x256, .f32⟩ : BufTy).Contents (Elt Ideal)) (t : Fin 1023) (d : Fin 256) :
    val_main_v35 (F := Ideal) a1 (ix3 (0 : Fin 1) t d) = stepLen (a1 (ix2 (rowNext t) d)) (a1 (ix2 (rowThis t) d)) := by
  rw [val_main_v35_apply, val_main_v33_apply, tsNext_at, tsThis_at, val_main_v34_apply, val_main_cst_6_apply]
  rfl

/-- The decay factor of the mean, `exp (−κ δ)`. -/
theorem decay_at (a1 : (⟨S1024x256, .f32⟩ : BufTy).Contents (Elt Ideal)) (a3 : (⟨S256, .f32⟩ : BufTy).Contents (Elt Ideal)) (t : Fin 1023) (d : Fin 256) :
    val_main_v40 (F := Ideal) a1 a3 (ix3 (0 : Fin 1) t d)
      = Ideal.exp ((-(rateOf (a3 (ix1 d)))) * stepLen (a1 (ix2 (rowNext t) d)) (a1 (ix2 (rowThis t) d))) := by
  have h38 : val_main_v38 (F := Ideal) a3 (ix3 (0 : Fin 1) t d) = val_main_v36 (F := Ideal) a3 (ix1 d) := by
    rw [val_main_v38_apply, val_main_v37_apply]
    exact congrArg _ (funext fun a => match a with | ⟨0, _⟩ => rfl)
  rw [val_main_v40_apply, val_main_v39_apply, h38, val_main_v36_apply, kappa_eq, step_at]
  rfl

/-- The transition variance `max (σ² (1 − exp (−2κ δ)) / (2κ)) ε₁₀`. -/
theorem var_at (a1 : (⟨S1024x256, .f32⟩ : BufTy).Contents (Elt Ideal)) (a3 : (⟨S256, .f32⟩ : BufTy).Contents (Elt Ideal)) (a4 : (⟨S256, .f32⟩ : BufTy).Contents (Elt Ideal)) (t : Fin 1023) (d : Fin 256) :
    val_main_v69 (F := Ideal) a1 a3 a4 (ix3 (0 : Fin 1) t d)
      = varOf (rateOf (a3 (ix1 d))) (rateOf (a4 (ix1 d))) (stepLen (a1 (ix2 (rowNext t) d)) (a1 (ix2 (rowThis t) d))) := by
  have h54 : val_main_v54 (F := Ideal) a3 (ix3 (0 : Fin 1) t d) = val_main_v52 (F := Ideal) a3 (ix1 d) := by
    rw [val_main_v54_apply, val_main_v53_apply]
    exact congrArg _ (funext fun a => match a with | ⟨0, _⟩ => rfl)
  have h60 : val_main_v60 (F := Ideal) a4 (ix3 (0 : Fin 1) t d) = val_main_v50 (F := Ideal) a4 (ix1 d) := by
    rw [val_main_v60_apply, val_main_v59_apply]
    exact congrArg _ (funext fun a => match a with | ⟨0, _⟩ => rfl)
  have h65 : val_main_v65 (F := Ideal) a3 (ix3 (0 : Fin 1) t d) = val_main_v63 (F := Ideal) a3 (ix1 d) := by
    rw [val_main_v65_apply, val_main_v64_apply]
    exact congrArg _ (funext fun a => match a with | ⟨0, _⟩ => rfl)
  rw [val_main_v69_apply, val_main_v66_apply, val_main_v61_apply, val_main_v58_apply, val_main_v56_apply,
    val_main_v55_apply, h54, h60, h65, step_at, val_main_v52_apply, val_main_v50_apply, val_main_v63_apply,
    val_main_v51_apply, val_main_cst_7_apply, val_main_v62_apply, val_main_cst_9_apply, val_main_v57_apply,
    val_main_cst_8_apply, val_main_v68_apply, val_main_cst_10_apply, kappa_eq, sigma_eq]
  rfl

/-- The transition mean `μ + exp (−κ δ) (y[b, t, d] − μ)`. -/
theorem mean_at (a0 : (⟨S256x1024x256, .f32⟩ : BufTy).Contents (Elt Ideal)) (a1 : (⟨S1024x256, .f32⟩ : BufTy).Contents (Elt Ideal)) (a2 : (⟨S256, .f32⟩ : BufTy).Contents (Elt Ideal)) (a3 : (⟨S256, .f32⟩ : BufTy).Contents (Elt Ideal)) (b : Fin 256) (t : Fin 1023) (d : Fin 256) :
    val_main_v49 (F := Ideal) a0 a1 a2 a3 (ix3 b t d)
      = meanOf (a2 (ix1 d)) (rateOf (a3 (ix1 d))) (stepLen (a1 (ix2 (rowNext t) d)) (a1 (ix2 (rowThis t) d)))
          (a0 (ix3 b (rowThis t) d)) := by
  have h48 : val_main_v48 (F := Ideal) a2 (ix3 b t d) = a2 (ix1 d) := by
    rw [val_main_v48_apply, val_main_v47_apply]
    exact congrArg a2 (funext fun a => match a with | ⟨0, _⟩ => rfl)
  have h43 : val_main_v43 (F := Ideal) a2 (ix3 b t d) = a2 (ix1 d) := by
    rw [val_main_v43_apply, val_main_v42_apply]
    exact congrArg a2 (funext fun a => match a with | ⟨0, _⟩ => rfl)
  have h41 : val_main_v41 (F := Ideal) a0 (ix3 b t d) = a0 (ix3 b (rowThis t) d) := by
    rw [val_main_v41_apply]
    exact congrArg a0 (funext fun a => match a with | ⟨0, _⟩ => rfl | ⟨1, _⟩ => rfl | ⟨2, _⟩ => rfl)
  have h45 : val_main_v45 (F := Ideal) a1 a3 (ix3 b t d) = val_main_v40 (F := Ideal) a1 a3 (ix3 (0 : Fin 1) t d) := by
    rw [val_main_v45_apply]
    exact congrArg _ (funext fun a => match a with | ⟨0, _⟩ => rfl | ⟨1, _⟩ => rfl | ⟨2, _⟩ => rfl)
  rw [val_main_v49_apply, val_main_v46_apply, val_main_v44_apply, h48, h43, h41, h45, decay_at]
  rfl

/-- The transition summand at `(b, t, d)`. -/
theorem xtr_at (a0 : (⟨S256x1024x256, .f32⟩ : BufTy).Contents (Elt Ideal)) (a1 : (⟨S1024x256, .f32⟩ : BufTy).Contents (Elt Ideal)) (a2 : (⟨S256, .f32⟩ : BufTy).Contents (Elt Ideal)) (a3 : (⟨S256, .f32⟩ : BufTy).Contents (Elt Ideal)) (a4 : (⟨S256, .f32⟩ : BufTy).Contents (Elt Ideal)) (b : Fin 256) (t : Fin 1023) (d : Fin 256) :
    val_main_v78 (F := Ideal) a0 a1 a2 a3 a4 (ix3 b t d)
      = Xtr a0 a1 a2 (fun j => rateOf (a3 j)) (fun j => rateOf (a4 j)) b t d := by
  have h77 : val_main_v77 (F := Ideal) a1 a3 a4 (ix3 b t d) = val_main_v72 (F := Ideal) a1 a3 a4 (ix3 (0 : Fin 1) t d) := by
    rw [val_main_v77_apply]
    exact congrArg _ (funext fun a => match a with | ⟨0, _⟩ => rfl | ⟨1, _⟩ => rfl | ⟨2, _⟩ => rfl)
  have h75 : val_main_v75 (F := Ideal) a1 a3 a4 (ix3 b t d) = val_main_v69 (F := Ideal) a1 a3 a4 (ix3 (0 : Fin 1) t d) := by
    rw [val_main_v75_apply]
    exact congrArg _ (funext fun a => match a with | ⟨0, _⟩ => rfl | ⟨1, _⟩ => rfl | ⟨2, _⟩ => rfl)
  have h67 : val_main_v67 (F := Ideal) a0 (ix3 b t d) = a0 (ix3 b (rowNext t) d) := by
    rw [val_main_v67_apply]
    exact congrArg a0 (funext fun a => match a with
      | ⟨0, _⟩ => rfl
      | ⟨1, _⟩ => Fin.ext (Nat.add_comm 1 t.val)
      | ⟨2, _⟩ => rfl)
  rw [val_main_v78_apply, val_main_v76_apply, val_main_v74_apply, val_main_v73_apply, h77, h75, h67, mean_at,
    val_main_v72_apply, val_main_v70_apply, val_main_v71_apply, val_main_cst_11_apply, var_at]
  rfl

/-- The transition term of row `b`, pair `t`: one weight −1/2 on the sum over the dimensions. -/
theorem row_at (a0 : (⟨S256x1024x256, .f32⟩ : BufTy).Contents (Elt Ideal)) (a1 : (⟨S1024x256, .f32⟩ : BufTy).Contents (Elt Ideal)) (a2 : (⟨S256, .f32⟩ : BufTy).Contents (Elt Ideal)) (a3 : (⟨S256, .f32⟩ : BufTy).Contents (Elt Ideal)) (a4 : (⟨S256, .f32⟩ : BufTy).Contents (Elt Ideal)) (b : Fin 256) (t : Fin 1023) :
    val_main_v81 (F := Ideal) a0 a1 a2 a3 a4 (ix2 b t)
      = wMHalf * ∑ d : Fin 256, Xtr a0 a1 a2 (fun j => rateOf (a3 j)) (fun j => rateOf (a4 j)) b t d := by
  rw [val_main_v81_apply, val_main_v80_apply, val_main_cst_13_apply, val_main_v79_apply, val_main_cst_12_apply]
  show wMHalf * (Ideal.ofBits .f32 0x00000000#32 + _) = _
  rw [Ideal.ofBits_zero_f32, zero_add]
  refine congrArg (wMHalf * ·) (Finset.sum_congr rfl fun d _ => ?_)
  exact (congrArg (val_main_v78 (F := Ideal) a0 a1 a2 a3 a4) (show idx_main_v79 (ix2 b t) d = ix3 b t d from funext fun a => match a with | ⟨0, _⟩ => rfl | ⟨1, _⟩ => rfl | ⟨2, _⟩ => rfl)).trans (xtr_at a0 a1 a2 a3 a4 b t d)

/-! ## The whole log-density -/

/-- The sum of the 1023 transition terms of row `b`. -/
theorem rows_at (a0 : (⟨S256x1024x256, .f32⟩ : BufTy).Contents (Elt Ideal)) (a1 : (⟨S1024x256, .f32⟩ : BufTy).Contents (Elt Ideal)) (a2 : (⟨S256, .f32⟩ : BufTy).Contents (Elt Ideal)) (a3 : (⟨S256, .f32⟩ : BufTy).Contents (Elt Ideal)) (a4 : (⟨S256, .f32⟩ : BufTy).Contents (Elt Ideal)) (b : Fin 256) :
    val_main_v82 (F := Ideal) a0 a1 a2 a3 a4 (ix1 b)
      = ∑ t : Fin 1023, wMHalf * ∑ d : Fin 256, Xtr a0 a1 a2 (fun j => rateOf (a3 j)) (fun j => rateOf (a4 j)) b t d := by
  rw [val_main_v82_apply, val_main_cst_14_apply]
  show Ideal.ofBits .f32 0x00000000#32 + _ = _
  rw [Ideal.ofBits_zero_f32, zero_add]
  refine Finset.sum_congr rfl fun t _ => ?_
  exact (congrArg (val_main_v81 (F := Ideal) a0 a1 a2 a3 a4) (show idx_main_v82 (ix1 b) t = ix2 b t from funext fun a => match a with | ⟨0, _⟩ => rfl | ⟨1, _⟩ => rfl)).trans (row_at a0 a1 a2 a3 a4 b t)

/-- The reference program's result is the log-density with one weight per row. -/
theorem ref_eq (a0 : (⟨Cert.ReferenceIdeal.S256x1024x256, .f32⟩ : BufTy).Contents (Elt Ideal)) (a1 : (⟨Cert.ReferenceIdeal.S1024x256, .f32⟩ : BufTy).Contents (Elt Ideal))
    (a2 a3 a4 : (⟨Cert.ReferenceIdeal.S256, .f32⟩ : BufTy).Contents (Elt Ideal)) :
    Cert.ReferenceIdeal.Read.val_main_v83 (F := Ideal) a0 a1 a2 a3 a4
      = fun i => Cert.OU.RefVal a0 a1 a2 (fun j => Cert.OU.rateOf (a3 j)) (fun j => Cert.OU.rateOf (a4 j)) (i 0) := by
  funext i
  obtain ⟨b, rfl⟩ : ∃ b : Fin 256, i = ix1 b := ⟨i 0, eq_ix1 i⟩
  rw [val_main_v83_apply, stat_at, rows_at]
  rfl

end Cert.OU.Ref

end
-- ==== Proof.OuAlgebra.lean ====
/-
  The two whole-array log-densities agree when every summand is a real number.

  `RefVal` weights each row's sum over the dimensions by −1/2; `KerVal` weights every summand. On the extended
  reals `c · (a + b) = c · a + c · b` can fail when `a` and `b` are infinities of opposite sign, so the weight
  does not move through a sum for free. It does when every summand is (the extended real of) a real number:
  then the sum is the extended real of the real sum, and the weight distributes over it inside the reals.

  The summands are real under the hypotheses of the theorem. Observations, times, means and scales are real; the
  rate κ is a positive real. Then 2κ is a nonzero real, so the quotient in each variance is real, and the
  maximum with the positive word 1e-10 makes the variance a POSITIVE real: its logarithm is real and the
  quotient by it is real. Exponentials, sums, differences and products of reals are real.

  First the seven float words as reals (with the signs that are used), then the closure lemmas, then the
  summands, then the finite sum, then the theorem. At the end: the softplus-plus-offset of a real is a positive
  real.
-/
import proofs.«154525_j39032662786269_1_alg».proof.Proof.OuSpec
import Mathlib.Tactic.NormNum
import Mathlib.Tactic.Positivity
import Mathlib.Tactic.Linarith

noncomputable section

open scoped BigOperators

namespace Cert.OU

open Idealize.ShloMosaic Idealize.ShloMosaic.ValueIdx

/-- The extended real `x` is (the image of) a real number. -/
def IsReal (x : EReal) : Prop := ∃ r : ℝ, x = (r : EReal)

/-- The extended real `x` is (the image of) a positive real number. -/
def IsPos (x : EReal) : Prop := ∃ r : ℝ, 0 < r ∧ x = (r : EReal)

theorem IsPos.isReal {x : EReal} (h : IsPos x) : IsReal x := by
  obtain ⟨r, _, hr⟩ := h; exact ⟨r, hr⟩

theorem isReal_coe (r : ℝ) : IsReal (r : EReal) := ⟨r, rfl⟩

/-! ## The float words -/

/-- The word of −0.5 denotes the real −1/2. -/
theorem wMHalf_val : wMHalf = (((-1 / 2 : ℝ)) : EReal) := by
  simp [Ideal.ofBits, Ideal.ieee, -EReal.coe_mul]; norm_num

/-- The word of 2.0 denotes the real 2. -/
theorem wTwo_val : wTwo = (((2 : ℝ)) : EReal) := by
  simp [Ideal.ofBits, Ideal.ieee, -EReal.coe_mul]; norm_num

/-- The word of −2.0 denotes the real −2. -/
theorem wMTwo_val : wMTwo = (((-2 : ℝ)) : EReal) := by
  simp [Ideal.ofBits, Ideal.ieee, -EReal.coe_mul]; norm_num

/-- The word of 1.0 denotes the real 1. -/
theorem wOne_val : wOne = (((1 : ℝ)) : EReal) := by
  simp [Ideal.ofBits, Ideal.ieee, -EReal.coe_mul]; norm_num

/-- The word of 9.99999997e-7 denotes a positive real (8796093 · 2⁻⁴³). -/
theorem wEps6_pos : IsPos wEps6 := by
  refine ⟨(8796093 : ℝ) * (2 : ℝ) ^ (-43 : Int), by positivity, ?_⟩
  simp [Ideal.ofBits, Ideal.ieee, -EReal.coe_mul]

/-- The word of 1.0e-10 denotes a positive real (14411519 · 2⁻⁵⁷). -/
theorem wEps10_pos : IsPos wEps10 := by
  refine ⟨(14411519 : ℝ) * (2 : ℝ) ^ (-57 : Int), by positivity, ?_⟩
  simp [Ideal.ofBits, Ideal.ieee, -EReal.coe_mul]

/-- The word of 1.83787704 denotes a real (15417230 · 2⁻²³). -/
theorem wLog2Pi_real : IsReal wLog2Pi := by
  refine ⟨(15417230 : ℝ) * (2 : ℝ) ^ (-23 : Int), ?_⟩
  simp [Ideal.ofBits, Ideal.ieee, -EReal.coe_mul]

theorem wMHalf_real : IsReal wMHalf := ⟨_, wMHalf_val⟩
theorem wTwo_real : IsReal wTwo := ⟨_, wTwo_val⟩
theorem wTwo_pos : IsPos wTwo := ⟨2, by norm_num, wTwo_val⟩
theorem wMTwo_real : IsReal wMTwo := ⟨_, wMTwo_val⟩
theorem wOne_real : IsReal wOne := ⟨_, wOne_val⟩
theorem wEps6_real : IsReal wEps6 := wEps6_pos.isReal
theorem wEps10_real : IsReal wEps10 := wEps10_pos.isReal

/-! ## Operations on reals give reals -/

theorem isReal_add {a b : EReal} (ha : IsReal a) (hb : IsReal b) : IsReal (a + b) := by
  obtain ⟨x, rfl⟩ := ha; obtain ⟨y, rfl⟩ := hb; exact ⟨x + y, (EReal.coe_add x y).symm⟩

theorem isReal_sub {a b : EReal} (ha : IsReal a) (hb : IsReal b) : IsReal (a - b) := by
  obtain ⟨x, rfl⟩ := ha; obtain ⟨y, rfl⟩ := hb; exact ⟨x - y, (EReal.coe_sub x y).symm⟩

theorem isReal_mul {a b : EReal} (ha : IsReal a) (hb : IsReal b) : IsReal (a * b) := by
  obtain ⟨x, rfl⟩ := ha; obtain ⟨y, rfl⟩ := hb; exact ⟨x * y, (EReal.coe_mul x y).symm⟩

theorem isReal_neg {a : EReal} (ha : IsReal a) : IsReal (-a) := by
  obtain ⟨x, rfl⟩ := ha; exact ⟨-x, (EReal.coe_neg x).symm⟩

/-- The product of two positive reals is a positive real. -/
theorem isPos_mul {a b : EReal} (ha : IsPos a) (hb : IsPos b) : IsPos (a * b) := by
  obtain ⟨x, hx, rfl⟩ := ha; obtain ⟨y, hy, rfl⟩ := hb
  exact ⟨x * y, mul_pos hx hy, (EReal.coe_mul x y).symm⟩

/-- The maximum of a real and a positive real is a positive real. -/
theorem isPos_max_right {a b : EReal} (ha : IsReal a) (hb : IsPos b) : IsPos (max a b) := by
  obtain ⟨x, rfl⟩ := ha; obtain ⟨y, hy, rfl⟩ := hb
  rcases le_total x y with h | h
  · exact ⟨y, hy, max_eq_right (EReal.coe_le_coe_iff.mpr h)⟩
  · exact ⟨x, lt_of_lt_of_le hy h, max_eq_left (EReal.coe_le_coe_iff.mpr h)⟩

/-- The exponential of a real is a (positive) real. -/
theorem isReal_exp {a : EReal} (ha : IsReal a) : IsReal (Ideal.exp a) := by
  obtain ⟨x, rfl⟩ := ha; exact ⟨Real.exp x, Ideal.exp_coe x⟩

/-- The logarithm of a positive real is a real. -/
theorem isReal_log {a : EReal} (ha : IsPos a) : IsReal (Ideal.log a) := by
  obtain ⟨x, hx, rfl⟩ := ha
  exact ⟨Real.log x, by rw [Ideal.log_coe, if_neg (not_le.mpr hx)]⟩

/-- A real divided by a positive real is a real. -/
theorem isReal_div {a b : EReal} (ha : IsReal a) (hb : IsPos b) : IsReal (Ideal.div a b) := by
  obtain ⟨x, rfl⟩ := ha; obtain ⟨y, hy, rfl⟩ := hb
  exact ⟨x * (1 / y), by rw [Ideal.div_coe hy.ne', EReal.coe_mul]⟩

/-! ## The summands are real -/

theorem isReal_stepLen {a b : EReal} (ha : IsReal a) (hb : IsReal b) : IsReal (stepLen a b) :=
  (isPos_max_right (isReal_sub ha hb) wEps6_pos).isReal

/-- The transition variance is a positive real: the quotient by the nonzero real 2κ is real, and the floor is a
    positive real. -/
theorem isPos_varOf {κ σ δ : EReal} (hκ : IsPos κ) (hσ : IsReal σ) (hδ : IsReal δ) : IsPos (varOf κ σ δ) := by
  unfold varOf
  refine isPos_max_right (isReal_div ?_ (isPos_mul wTwo_pos hκ)) wEps10_pos
  exact isReal_mul (isReal_mul hσ hσ)
    (isReal_sub wOne_real (isReal_exp (isReal_mul (isReal_mul wMTwo_real hκ.isReal) hδ)))

/-- The stationary variance is a positive real. -/
theorem isPos_var0Of {κ σ : EReal} (hκ : IsPos κ) (hσ : IsReal σ) : IsPos (var0Of κ σ) := by
  unfold var0Of
  exact isPos_max_right (isReal_div (isReal_mul hσ hσ) (isPos_mul wTwo_pos hκ)) wEps10_pos

theorem isReal_meanOf {μ κ δ yp : EReal} (hμ : IsReal μ) (hκ : IsReal κ) (hδ : IsReal δ) (hyp : IsReal yp) :
    IsReal (meanOf μ κ δ yp) := by
  unfold meanOf
  exact isReal_add hμ (isReal_mul (isReal_exp (isReal_mul (isReal_neg hκ) hδ)) (isReal_sub hyp hμ))

/-- The Gaussian summand at a positive real variance and real observation and mean is real. -/
theorem isReal_dens {q x mn : EReal} (hq : IsPos q) (hx : IsReal x) (hmn : IsReal mn) : IsReal (dens q x mn) := by
  unfold dens
  exact isReal_add (isReal_add (isReal_log hq) wLog2Pi_real)
    (isReal_div (isReal_mul (isReal_sub hx hmn) (isReal_sub hx hmn)) hq)

theorem isReal_trans {μ κ σ tn tp yn yp : EReal} (hμ : IsReal μ) (hκ : IsPos κ) (hσ : IsReal σ)
    (htn : IsReal tn) (htp : IsReal tp) (hyn : IsReal yn) (hyp : IsReal yp) :
    IsReal (trans μ κ σ tn tp yn yp) := by
  unfold trans
  exact isReal_dens (isPos_varOf hκ hσ (isReal_stepLen htn htp)) hyn
    (isReal_meanOf hμ hκ.isReal (isReal_stepLen htn htp) hyp)

theorem isReal_init {μ κ σ y0 : EReal} (hμ : IsReal μ) (hκ : IsPos κ) (hσ : IsReal σ) (hy0 : IsReal y0) :
    IsReal (init μ κ σ y0) := by
  unfold init
  exact isReal_dens (isPos_var0Of hκ hσ) hy0 hμ

/-! ## A real weight moves through a finite sum of reals -/

/-- The extended real of a finite sum of reals is the sum of the extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem isReal_sum {ι : Type*} (s : Finset ι) (f : ι → EReal) (hf : ∀ i, IsReal (f i)) : IsReal (∑ i ∈ s, f i) := by
  choose g hg using hf
  exact ⟨∑ i ∈ s, g i, by rw [coe_sum]; exact Finset.sum_congr rfl fun i _ => hg i⟩

/-- A real factor distributes over a finite sum of reals: both sides are the extended real of one real number. -/
theorem mul_sum_real {ι : Type*} {c : EReal} (hc : IsReal c) (s : Finset ι) (f : ι → EReal)
    (hf : ∀ i, IsReal (f i)) : c * ∑ i ∈ s, f i = ∑ i ∈ s, c * f i := by
  obtain ⟨k, rfl⟩ := hc
  choose g hg using hf
  have hfg : f = fun i => (g i : EReal) := funext hg
  subst hfg
  calc (k : EReal) * ∑ i ∈ s, (g i : EReal)
      = (k : EReal) * ((∑ i ∈ s, g i : ℝ) : EReal) := by rw [coe_sum]
    _ = ((k * ∑ i ∈ s, g i : ℝ) : EReal) := (EReal.coe_mul _ _).symm
    _ = ((∑ i ∈ s, k * g i : ℝ) : EReal) := by rw [Finset.mul_sum]
    _ = ∑ i ∈ s, ((k * g i : ℝ) : EReal) := coe_sum s _
    _ = ∑ i ∈ s, (k : EReal) * (g i : EReal) := Finset.sum_congr rfl fun i _ => EReal.coe_mul _ _

/-! ## The two log-densities agree -/

theorem isReal_Xtr (y : Y3) (ts : T2) (mu kap sig : P1)
    (hy : ∀ i, IsReal (y i)) (hts : ∀ i, IsReal (ts i)) (hmu : ∀ i, IsReal (mu i))
    (hkap : ∀ i, IsPos (kap i)) (hsig : ∀ i, IsReal (sig i)) (b : Fin 256) (t : Fin 1023) (d : Fin 256) :
    IsReal (Xtr y ts mu kap sig b t d) := by
  unfold Xtr
  exact isReal_trans (hmu _) (hkap _) (hsig _) (hts _) (hts _) (hy _) (hy _)

theorem isReal_X0 (y : Y3) (mu kap sig : P1)
    (hy : ∀ i, IsReal (y i)) (hmu : ∀ i, IsReal (mu i))
    (hkap : ∀ i, IsPos (kap i)) (hsig : ∀ i, IsReal (sig i)) (b : Fin 256) (d : Fin 256) :
    IsReal (X0 y mu kap sig b d) := by
  unfold X0
  exact isReal_init (hmu _) (hkap _) (hsig _) (hy _)

/-- With real observations, times, means and scales and positive real rates, the log-density weighted per element
    is the log-density weighted per row: the weight −1/2 moves through each row's sum of reals, and the two
    outer terms commute. -/
theorem kerVal_eq_refVal (y : Y3) (ts : T2) (mu kap sig : P1)
    (hy : ∀ i, IsReal (y i)) (hts : ∀ i, IsReal (ts i)) (hmu : ∀ i, IsReal (mu i))
    (hkap : ∀ i, ∃ r : ℝ, 0 < r ∧ kap i = (r : EReal)) (hsig : ∀ i, IsReal (sig i)) (b : Fin 256) :
    KerVal y ts mu kap sig b = RefVal y ts mu kap sig b := by
  have h0 : wMHalf * (∑ d : Fin 256, X0 y mu kap sig b d) = ∑ d : Fin 256, wMHalf * X0 y mu kap sig b d :=
    mul_sum_real wMHalf_real Finset.univ _ (isReal_X0 y mu kap sig hy hmu hkap hsig b)
  have h1 : (∑ t : Fin 1023, wMHalf * (∑ d : Fin 256, Xtr y ts mu kap sig b t d))
      = ∑ t : Fin 1023, ∑ d : Fin 256, wMHalf * Xtr y ts mu kap sig b t d :=
    Finset.sum_congr rfl fun t _ =>
      mul_sum_real wMHalf_real Finset.univ _ (isReal_Xtr y ts mu kap sig hy hts hmu hkap hsig b t)
  unfold KerVal RefVal
  rw [h0, h1]
  exact add_comm _ _

/-! ## The rate of a real raw parameter is a positive real -/

/-- softplus plus the offset at a real `a`: `max a 0 ≥ 0`, `log (1 + e^{−|a|}) > 0` because `1 + e^{−|a|} > 1`, and
    the offset is a positive real; the sum is a positive real. -/
theorem rateOf_pos {x : EReal} (hx : IsReal x) : ∃ r : ℝ, 0 < r ∧ rateOf x = (r : EReal) := by
  obtain ⟨a, rfl⟩ := hx
  obtain ⟨e, he, hw⟩ := wEps6_pos
  have h1 : max (a : EReal) 0 = ((max a 0 : ℝ) : EReal) := by
    rw [← EReal.coe_zero]; exact (EReal.coe_strictMono.monotone.map_max).symm
  have h2 : max (a : EReal) (-(a : EReal)) = ((max a (-a) : ℝ) : EReal) := by
    rw [← EReal.coe_neg]; exact (EReal.coe_strictMono.monotone.map_max).symm
  have hE : 0 < Real.exp (-(max a (-a))) := Real.exp_pos _
  refine ⟨max a 0 + Real.log (1 + Real.exp (-(max a (-a)))) + e, ?_, ?_⟩
  · have hm : 0 ≤ max a 0 := le_max_right a 0
    have hl : 0 < Real.log (1 + Real.exp (-(max a (-a)))) := Real.log_pos (by linarith)
    linarith
  · unfold rateOf Ideal.log1p
    rw [h1, h2, ← EReal.coe_neg, Ideal.exp_coe, ← EReal.coe_one, ← EReal.coe_add, Ideal.log_coe,
      if_neg (by linarith), hw, ← EReal.coe_add, ← EReal.coe_add]

end Cert.OU

end
-- ==== Proof.OuFinite.lean ====
/-
  From the printed precondition to "every entry is a real number".

  The precondition is the conjunction, over the five float arguments, of `all (|x| < +∞)`. Read at its one index, the
  conjunction being 1 makes each conjunct 1; a reduction by `and` over every axis that is 1 had a 1 at every index; and
  at one entry the comparison `max x (−x) < ⊤` on the extended reals excludes `x = ⊤` and `x = ⊥` (for both,
  `max x (−x) = ⊤`), so `x` is a real number.
-/
import proofs.«154525_j39032662786269_1_alg».proof.Pre_finite_inputs
import proofs.«154525_j39032662786269_1_alg».proof.Proof.OuAlgebra
import Idealize.ShloMosaic.Lib.ReduceAll
import Idealize.ShloMosaic.Lib.ValueIdx

noncomputable section

namespace Cert.OU

open Idealize.ShloMosaic

/-- The rank-0 shape has one index. -/
instance : Subsingleton Cert.Pre_finite_inputs.S_.Idx := ⟨fun a b => funext fun d => d.elim0⟩

/-- The word 0x7F800000 denotes `+∞`. -/
theorem wInf_val : Ideal.ofBits .f32 0x7F800000#32 = (⊤ : EReal) := by
  simp [Ideal.ofBits, Ideal.ieee]

/-- One entry: if the comparison `|x| < +∞` answers 1 then `x` is a real number. -/
theorem isReal_of_abs_lt_inf (x : EReal)
    (h : Ideal.cmp .olt (max x (-x)) (Ideal.ofBits .f32 0x7F800000#32) = 1#1) : IsReal x := by
  rw [wInf_val] at h
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  induction x using EReal.rec with
  | bot => simp at hlt
  | top => simp at hlt
  | coe r => exact ⟨r, rfl⟩

/-- Under the printed precondition every entry of the five float arguments is a real number. -/
theorem real_of_finite [Cert.Pre_finite_inputs.Facts]
    (a0 : FVec Ideal Cert.Pre_finite_inputs.S256x1024x256 .f32) (a1 : FVec Ideal Cert.Pre_finite_inputs.S1024x256 .f32)
    (a2 a3 a4 : FVec Ideal Cert.Pre_finite_inputs.S256 .f32)
    (h : Cert.Pre_finite_inputs.fn (F := Ideal) a0 a1 a2 a3 a4 = fun _ => 1#1) :
    (∀ i, IsReal (a0 i)) ∧ (∀ i, IsReal (a1 i)) ∧ (∀ i, IsReal (a2 i)) ∧ (∀ i, IsReal (a3 i)) ∧ (∀ i, IsReal (a4 i)) := by
  have h0 := congrFun h ValueIdx.ix0
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  refine ⟨fun i => ?_, fun i => ?_, fun i => ?_, fun i => ?_, fun i => ?_⟩
  · exact isReal_of_abs_lt_inf _ (Host.reduce_andi_all _ _ _ _ _ e0 i)
  · exact isReal_of_abs_lt_inf _ (Host.reduce_andi_all _ _ _ _ _ e1 i)
  · exact isReal_of_abs_lt_inf _ (Host.reduce_andi_all _ _ _ _ _ e2 i)
  · exact isReal_of_abs_lt_inf _ (Host.reduce_andi_all _ _ _ _ _ e3 i)
  · exact isReal_of_abs_lt_inf _ (Host.reduce_andi_all _ _ _ _ _ e4 i)

end Cert.OU

end
-- ==== Proof.OuValue.lean ====
/-
  The two idealized programs compute one function.

  The kernel's run ends with its result array holding, at batch row b, the per-element weighted sum of the
  stationary term and the 1023 transition terms (`KerVal`): the running sum after a batch tile's last time tile is
  that sum (by induction over the positions), the result window writes it back, and the host reshape keeps it. The
  reference's run ends at the per-row weighted sum (`RefVal`) of the same terms. Under the precondition every
  argument entry is a real number, the rates softplus(·) + ε are positive reals, so every term is real and the
  weight −1/2 moves across the sums: the two are equal.
-/
import proofs.«154525_j39032662786269_1_alg».proof.Defs
import proofs.«154525_j39032662786269_1_alg».proof.Proof.Gen.KernelIdeal
import proofs.«154525_j39032662786269_1_alg».proof.Proof.Gen.ReferenceIdeal
import proofs.«154525_j39032662786269_1_alg».proof.Proof.Gen.Pre_finite_inputs
import proofs.«154525_j39032662786269_1_alg».proof.Proof.Gen.ReferenceIdeal.Run
import proofs.«154525_j39032662786269_1_alg».proof.Proof.Gen.ReferenceIdeal.Read
import proofs.«154525_j39032662786269_1_alg».proof.Proof.OuFrame
import proofs.«154525_j39032662786269_1_alg».proof.Proof.OuArray
import proofs.«154525_j39032662786269_1_alg».proof.Proof.OuInduct
import proofs.«154525_j39032662786269_1_alg».proof.Proof.OuRef
import proofs.«154525_j39032662786269_1_alg».proof.Proof.OuAlgebra
import proofs.«154525_j39032662786269_1_alg».proof.Proof.OuFinite

noncomputable section

namespace Cert.KernelIdeal.Result

open Cert.KernelIdeal Cert.KernelIdeal.Gen Cert.KernelIdeal.Body
open Idealize.ShloMosaic Idealize.ShloMosaic.TcCoe Idealize.SL.Sem
open Idealize.ShloMosaic.Pipeline (Dat)

/-- The idealized kernel's run with its result named: the result array ends at `KerVal` of the argument arrays,
    the arguments unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v7) = (fun i => Cert.OU.KerVal (m ((c.tc : Thread nD τ).loc main_arg0)) (m ((c.tc : Thread nD τ).loc main_arg1)) (m ((c.tc : Thread nD τ).loc main_arg2)) (fun j => Cert.OU.rateOf (m ((c.tc : Thread nD τ).loc main_arg3) j)) (fun j => Cert.OU.rateOf (m ((c.tc : Thread nD τ).loc main_arg4) j)) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v7 (Pipeline.mem_restRefs_of main_v7 (by decide) (by decide))).trans
        (Cert.KernelIdeal.WalkIdeal.result_eq m (dats m) (A_eq m) (after_5 m) (Cert.KernelIdeal.WalkIdeal.hlast m) c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main (F := Ideal) m ρ)

end Cert.KernelIdeal.Result

namespace Cert.Proof.Value

open Idealize.ShloMosaic Idealize.SL.Sem Cert.OU

theorem algebraic : Cert.algebraic_KernelIdeal_ReferenceIdeal := by
  intro m ρ m' ρ' hpre hagree
  refine ⟨fun c => fun i => Cert.OU.KerVal (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (fun j => Cert.OU.rateOf (m ((c.tc : Thread Cert.KernelIdeal.nD Cert.KernelIdeal.τ).loc Cert.KernelIdeal.main_arg3) j)) (fun j => Cert.OU.rateOf (m ((c.tc : Thread Cert.KernelIdeal.nD Cert.KernelIdeal.τ).loc Cert.KernelIdeal.main_arg4) j)) (i 0), Cert.KernelIdeal.Result.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v83_eq, Cert.OU.Ref.ref_eq, (hagree c).1, (hagree c).2.1, (hagree c).2.2.1, (hagree c).2.2.2.1,
    (hagree c).2.2.2.2]
  obtain ⟨h0, h1, h2, h3, h4⟩ := Cert.OU.real_of_finite _ _ _ _ _ (hpre c)
  funext i
  exact (kerVal_eq_refVal _ _ _ _ _ h0 h1 h2 (fun j => rateOf_pos (h3 j)) (fun j => (rateOf_pos (h4 j)).imp fun _ hr => hr.2) (i 0)).symm

end Cert.Proof.Value

end
-- ==== Proof.lean ====
/-
  The certificate: an Ornstein–Uhlenbeck path log-density kernel against its jnp reference.

  The kernel walks a 2 × 32 grid of (batch tile, time tile) points. At each point it adds to a running sum, kept in
  scratch memory across the time tiles of a batch tile, the Gaussian log-density summands of the 31 consecutive
  pairs of rows inside its tile — each summand weighted by −1/2 and summed over the 256 dimensions —, plus, at the
  first time tile, the stationary term of the path's first row and, at every later tile, the pair bridging the
  previous tile's last row (also kept in scratch) to this tile's first. After the last time tile the running sum is
  the whole path's log-density, written back as the result. The reference computes the same summands for all 1023
  pairs at once, sums each row over the dimensions, weights the row sums by −1/2 and adds them up.

  Claims. The two kernels' frames (Proof/OuFrame.lean and, the same text at the word-level instance,
  Proof/KbFrame.lean): the body's run in its two cases, the region's invariant tracking the three carried buffers
  position by position. The reference's frame: its run. `preserves`: nothing was rewritten. `algebraic`
  (Proof/OuValue.lean): the kernel's result is the per-element weighted sum, the reference's the per-row weighted
  sum, of the same terms; the precondition makes every argument entry real, the rates positive reals, hence every
  term real, and on real terms the weight moves across the finite sums.
-/
import proofs.«154525_j39032662786269_1_alg».proof.Defs
import proofs.«154525_j39032662786269_1_alg».proof.Proof.Gen.Kernel
import proofs.«154525_j39032662786269_1_alg».proof.Proof.Gen.Kernel.Skeleton
import proofs.«154525_j39032662786269_1_alg».proof.Proof.Gen.Kernel.Launch
import proofs.«154525_j39032662786269_1_alg».proof.Proof.Gen.Kernel.Points
import proofs.«154525_j39032662786269_1_alg».proof.Proof.Gen.Kernel.Frame
import proofs.«154525_j39032662786269_1_alg».proof.Proof.Gen.KernelIdeal
import proofs.«154525_j39032662786269_1_alg».proof.Proof.Gen.KernelIdeal.Skeleton
import proofs.«154525_j39032662786269_1_alg».proof.Proof.Gen.KernelIdeal.Launch
import proofs.«154525_j39032662786269_1_alg».proof.Proof.Gen.KernelIdeal.Points
import proofs.«154525_j39032662786269_1_alg».proof.Proof.Gen.KernelIdeal.Frame
import proofs.«154525_j39032662786269_1_alg».proof.Proof.Gen.ReferenceIdeal
import proofs.«154525_j39032662786269_1_alg».proof.Proof.Gen.ReferenceIdeal.Run
import proofs.«154525_j39032662786269_1_alg».proof.Proof.Gen.ReferenceIdeal.Read
import proofs.«154525_j39032662786269_1_alg».proof.Proof.Gen.Pre_finite_inputs
import proofs.«154525_j39032662786269_1_alg».proof.Proof.OuFrames
import proofs.«154525_j39032662786269_1_alg».proof.Proof.OuValue
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Frames.frame_k, Frames.frame_ki, Frames.frame_ri, Frames.preserves, Value.algebraic⟩

end Cert.Proof

end
